-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v79)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v79) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v84) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x1433 : Shape := ⟨2, ![50000, 1433]⟩
abbrev S2x800000 : Shape := ⟨2, ![2, 800000]⟩
abbrev S1433x256 : Shape := ⟨2, ![1433, 256]⟩
abbrev S256 : Shape := ⟨1, ![256]⟩
abbrev S256x256 : Shape := ⟨2, ![256, 256]⟩
abbrev S256x7 : Shape := ⟨2, ![256, 7]⟩
abbrev S7 : Shape := ⟨1, ![7]⟩
abbrev S_ : Shape := ⟨0, ![]⟩

class Facts : Prop where
  bcast_S_S50000x1433 : S_.BroadcastsInDim S50000x1433 (![] : Fin 0 → Fin S50000x1433.rank)
  reducesTo_S50000x1433_S_d0_1 : S50000x1433.ReducesTo [0, 1] S_
  h_S_ : 0 < S_.numel
  bcast_S_S1433x256 : S_.BroadcastsInDim S1433x256 (![] : Fin 0 → Fin S1433x256.rank)
  reducesTo_S1433x256_S_d0_1 : S1433x256.ReducesTo [0, 1] S_
  bcast_S_S256 : S_.BroadcastsInDim S256 (![] : Fin 0 → Fin S256.rank)
  reducesTo_S256_S_d0 : S256.ReducesTo [0] S_
  bcast_S_S256x256 : S_.BroadcastsInDim S256x256 (![] : Fin 0 → Fin S256x256.rank)
  reducesTo_S256x256_S_d0_1 : S256x256.ReducesTo [0, 1] S_
  bcast_S_S256x7 : S_.BroadcastsInDim S256x7 (![] : Fin 0 → Fin S256x7.rank)
  reducesTo_S256x7_S_d0_1 : S256x7.ReducesTo [0, 1] S_
  bcast_S_S7 : S_.BroadcastsInDim S7 (![] : Fin 0 → Fin S7.rank)
  reducesTo_S7_S_d0 : S7.ReducesTo [0] S_

variable [Facts]

def fn_part1 {F : FTy → Type} [FloatOps F] (main_arg5 : FVec F S256 .f32) (main_arg6 : FVec F S256x7 .f32) (main_arg7 : FVec F S7 .f32) (main_v13 : IVec S_ 1) (main_v16 : IVec S256x256 1) : IVec S_ 1 :=
  let main_c_5 : IVec S_ 1 := constantI S_ 1 1#1
  let main_v17 : IVec S_ 1 := (fun x v => Host.reduce IntOp.andi x v reducesTo_S256x256_S_d0_1 h_S_) main_v16 main_c_5
  let main_v18 : IVec S_ 1 := andi main_v13 main_v17
  let main_v19 : FVec F S256 .f32 := Host.absf main_arg5
  let main_cst_6 : FVec F S_ .f32 := constant S_ .f32 0x7F800000#32
  let main_v20 : FVec F S256 .f32 := broadcastInDim S256 ![] bcast_S_S256 main_cst_6
  let main_v21 : IVec S256 1 := cmpf .olt main_v19 main_v20
  let main_c_7 : IVec S_ 1 := constantI S_ 1 1#1
  let main_v22 : IVec S_ 1 := (fun x v => Host.reduce IntOp.andi x v reducesTo_S256_S_d0 h_S_) main_v21 main_c_7
  let main_v23 : IVec S_ 1 := andi main_v18 main_v22
  let main_v24 : FVec F S256x7 .f32 := Host.absf main_arg6
  let main_cst_8 : FVec F S_ .f32 := constant S_ .f32 0x7F800000#32
  let main_v25 : FVec F S256x7 .f32 := broadcastInDim S256x7 ![] bcast_S_S256x7 main_cst_8
  let main_v26 : IVec S256x7 1 := cmpf .olt main_v24 main_v25
  let main_c_9 : IVec S_ 1 := constantI S_ 1 1#1
  let main_v27 : IVec S_ 1 := (fun x v => Host.reduce IntOp.andi x v reducesTo_S256x7_S_d0_1 h_S_) main_v26 main_c_9
  let main_v28 : IVec S_ 1 := andi main_v23 main_v27
  let main_v29 : FVec F S7 .f32 := Host.absf main_arg7
  let main_cst_10 : FVec F S_ .f32 := constant S_ .f32 0x7F800000#32
  let main_v30 : FVec F S7 .f32 := broadcastInDim S7 ![] bcast_S_S7 main_cst_10
  let main_v31 : IVec S7 1 := cmpf .olt main_v29 main_v30
  let main_c_11 : IVec S_ 1 := constantI S_ 1 1#1
  let main_v32 : IVec S_ 1 := (fun x v => Host.reduce IntOp.andi x v reducesTo_S7_S_d0 h_S_) main_v31 main_c_11
  let main_v33 : IVec S_ 1 := andi main_v28 main_v32
  main_v33

def fn {F : FTy → Type} [FloatOps F] (main_arg0 : FVec F S50000x1433 .f32) (main_arg1 : IVec S2x800000 32) (main_arg2 : FVec F S1433x256 .f32) (main_arg3 : FVec F S256 .f32) (main_arg4 : FVec F S256x256 .f32) (main_arg5 : FVec F S256 .f32) (main_arg6 : FVec F S256x7 .f32) (main_arg7 : FVec F S7 .f32) : IVec S_ 1 :=
  let main_v0 : FVec F S50000x1433 .f32 := Host.absf main_arg0
  let main_cst : FVec F S_ .f32 := constant S_ .f32 0x7F800000#32
  let main_v1 : FVec F S50000x1433 .f32 := broadcastInDim S50000x1433 ![] bcast_S_S50000x1433 main_cst
  let main_v2 : IVec S50000x1433 1 := cmpf .olt main_v0 main_v1
  let main_c : IVec S_ 1 := constantI S_ 1 1#1
  let main_v3 : IVec S_ 1 := (fun x v => Host.reduce IntOp.andi x v reducesTo_S50000x1433_S_d0_1 h_S_) main_v2 main_c
  let main_v4 : FVec F S1433x256 .f32 := Host.absf main_arg2
  let main_cst_0 : FVec F S_ .f32 := constant S_ .f32 0x7F800000#32
  let main_v5 : FVec F S1433x256 .f32 := broadcastInDim S1433x256 ![] bcast_S_S1433x256 main_cst_0
  let main_v6 : IVec S1433x256 1 := cmpf .olt main_v4 main_v5
  let main_c_1 : IVec S_ 1 := constantI S_ 1 1#1
  let main_v7 : IVec S_ 1 := (fun x v => Host.reduce IntOp.andi x v reducesTo_S1433x256_S_d0_1 h_S_) main_v6 main_c_1
  let main_v8 : IVec S_ 1 := andi main_v3 main_v7
  let main_v9 : FVec F S256 .f32 := Host.absf main_arg3
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_v14 : FVec F S256x256 .f32 := Host.absf main_arg4
  let main_cst_4 : FVec F S_ .f32 := constant S_ .f32 0x7F800000#32
  let main_v15 : FVec F S256x256 .f32 := broadcastInDim S256x256 ![] bcast_S_S256x256 main_cst_4
  let main_v16 : IVec S256x256 1 := cmpf .olt main_v14 main_v15
  fn_part1 (F := F) main_arg5 main_arg6 main_arg7 main_v13 main_v16
-- ==== Kernel.lean ====
abbrev S50000x1433 : Shape := ⟨2, ![50000, 1433]⟩
abbrev S2x800000 : Shape := ⟨2, ![2, 800000]⟩
abbrev S1433x256 : Shape := ⟨2, ![1433, 256]⟩
abbrev S256 : Shape := ⟨1, ![256]⟩
abbrev S256x256 : Shape := ⟨2, ![256, 256]⟩
abbrev S256x7 : Shape := ⟨2, ![256, 7]⟩
abbrev S7 : Shape := ⟨1, ![7]⟩
abbrev S1x800000 : Shape := ⟨2, ![1, 800000]⟩
abbrev S800000 : Shape := ⟨1, ![800000]⟩
abbrev S50000 : Shape := ⟨1, ![50000]⟩
abbrev S850000 : Shape := ⟨1, ![850000]⟩
abbrev S_ : Shape := ⟨0, ![]⟩
abbrev S850000x1 : Shape := ⟨2, ![850000, 1]⟩
abbrev S50000x256 : Shape := ⟨2, ![50000, 256]⟩
abbrev S1000x1433 : Shape := ⟨2, ![1000, 1433]⟩
abbrev S1000x256 : Shape := ⟨2, ![1000, 256]⟩
abbrev S850000x256 : Shape := ⟨2, ![850000, 256]⟩
abbrev S1x256 : Shape := ⟨2, ![1, 256]⟩
abbrev S2000x256 : Shape := ⟨2, ![2000, 256]⟩
abbrev S50000x7 : Shape := ⟨2, ![50000, 7]⟩
abbrev S2000x7 : Shape := ⟨2, ![2000, 7]⟩
abbrev S850000x7 : Shape := ⟨2, ![850000, 7]⟩
abbrev S1x7 : Shape := ⟨2, ![1, 7]⟩
abbrev S50000x1 : Shape := ⟨2, ![50000, 1]⟩

abbrev nBuf : Space → Nat
  | .hbm => 121
  | .vmem => 30
  | .smem => 0
  | _ => 0

abbrev bufTy : (tb : Table) → Fin (tcTables nBuf tb) → BufTy
  | .hbm, ⟨0, _⟩ => ⟨S50000x1433, .f32⟩
  | .hbm, ⟨1, _⟩ => ⟨S2x800000, .i32⟩
  | .hbm, ⟨2, _⟩ => ⟨S1433x256, .f32⟩
  | .hbm, ⟨3, _⟩ => ⟨S256, .f32⟩
  | .hbm, ⟨4, _⟩ => ⟨S256x256, .f32⟩
  | .hbm, ⟨5, _⟩ => ⟨S256, .f32⟩
  | .hbm, ⟨6, _⟩ => ⟨S256x7, .f32⟩
  | .hbm, ⟨7, _⟩ => ⟨S7, .f32⟩
  | .hbm, ⟨8, _⟩ => ⟨S1x800000, .i32⟩
  | .hbm, ⟨9, _⟩ => ⟨S800000, .i32⟩
  | .hbm, ⟨10, _⟩ => ⟨S50000, .i32⟩
  | .hbm, ⟨11, _⟩ => ⟨S850000, .i32⟩
  | .hbm, ⟨12, _⟩ => ⟨S1x800000, .i32⟩
  | .hbm, ⟨13, _⟩ => ⟨S800000, .i32⟩
  | .hbm, ⟨14, _⟩ => ⟨S50000, .i32⟩
  | .hbm, ⟨15, _⟩ => ⟨S850000, .i32⟩
  | .hbm, ⟨16, _⟩ => ⟨S_, .f32⟩
  | .hbm, ⟨17, _⟩ => ⟨S850000, .f32⟩
  | .hbm, ⟨18, _⟩ => ⟨S_, .f32⟩
  | .hbm, ⟨19, _⟩ => ⟨S50000, .f32⟩
  | .hbm, ⟨20, _⟩ => ⟨S850000x1, .i32⟩
  | .hbm, ⟨21, _⟩ => ⟨S50000, .f32⟩
  | .hbm, ⟨22, _⟩ => ⟨S_, .f32⟩
  | .hbm, ⟨23, _⟩ => ⟨S50000, .f32⟩
  | .hbm, ⟨24, _⟩ => ⟨S50000, .i1⟩
  | .hbm, ⟨25, _⟩ => ⟨S50000, .f32⟩
  | .hbm, ⟨26, _⟩ => ⟨S_, .f32⟩
  | .hbm, ⟨27, _⟩ => ⟨S_, .f32⟩
  | .hbm, ⟨28, _⟩ => ⟨S50000, .f32⟩
  | .hbm, ⟨29, _⟩ => ⟨S50000, .f32⟩
  | .hbm, ⟨30, _⟩ => ⟨S_, .i32⟩
  | .hbm, ⟨31, _⟩ => ⟨S850000, .i32⟩
  | .hbm, ⟨32, _⟩ => ⟨S850000, .i1⟩
  | .hbm, ⟨33, _⟩ => ⟨S_, .i32⟩
  | .hbm, ⟨34, _⟩ => ⟨S850000, .i32⟩
  | .hbm, ⟨35, _⟩ => ⟨S850000, .i32⟩
  | .hbm, ⟨36, _⟩ => ⟨S850000, .i32⟩
  | .hbm, ⟨37, _⟩ => ⟨S850000x1, .i32⟩
  | .hbm, ⟨38, _⟩ => ⟨S850000, .f32⟩
  | .hbm, ⟨39, _⟩ => ⟨S_, .i32⟩
  | .hbm, ⟨40, _⟩ => ⟨S850000, .i32⟩
  | .hbm, ⟨41, _⟩ => ⟨S850000, .i1⟩
  | .hbm, ⟨42, _⟩ => ⟨S_, .i32⟩
  | .hbm, ⟨43, _⟩ => ⟨S850000, .i32⟩
  | .hbm, ⟨44, _⟩ => ⟨S850000, .i32⟩
  | .hbm, ⟨45, _⟩ => ⟨S850000, .i32⟩
  | .hbm, ⟨46, _⟩ => ⟨S850000x1, .i32⟩
  | .hbm, ⟨47, _⟩ => ⟨S850000, .f32⟩
  | .hbm, ⟨48, _⟩ => ⟨S850000, .f32⟩
  | .hbm, ⟨49, _⟩ => ⟨S50000x256, .f32⟩
  | .hbm, ⟨50, _⟩ => ⟨S_, .i32⟩
  | .hbm, ⟨51, _⟩ => ⟨S850000, .i32⟩
  | .hbm, ⟨52, _⟩ => ⟨S850000, .i1⟩
  | .hbm, ⟨53, _⟩ => ⟨S_, .i32⟩
  | .hbm, ⟨54, _⟩ => ⟨S850000, .i32⟩
  | .hbm, ⟨55, _⟩ => ⟨S850000, .i32⟩
  | .hbm, ⟨56, _⟩ => ⟨S850000, .i32⟩
  | .hbm, ⟨57, _⟩ => ⟨S850000x1, .i32⟩
  | .hbm, ⟨58, _⟩ => ⟨S850000x256, .f32⟩
  | .hbm, ⟨59, _⟩ => ⟨S850000x1, .f32⟩
  | .hbm, ⟨60, _⟩ => ⟨S850000x256, .f32⟩
  | .hbm, ⟨61, _⟩ => ⟨S850000x256, .f32⟩
  | .hbm, ⟨62, _⟩ => ⟨S_, .f32⟩
  | .hbm, ⟨63, _⟩ => ⟨S50000x256, .f32⟩
  | .hbm, ⟨64, _⟩ => ⟨S850000x1, .i32⟩
  | .hbm, ⟨65, _⟩ => ⟨S50000x256, .f32⟩
  | .hbm, ⟨66, _⟩ => ⟨S1x256, .f32⟩
  | .hbm, ⟨67, _⟩ => ⟨S50000x256, .f32⟩
  | .hbm, ⟨68, _⟩ => ⟨S50000x256, .f32⟩
  | .hbm, ⟨69, _⟩ => ⟨S_, .i32⟩
  | .hbm, ⟨70, _⟩ => ⟨S850000, .i32⟩
  | .hbm, ⟨71, _⟩ => ⟨S850000, .i1⟩
  | .hbm, ⟨72, _⟩ => ⟨S_, .i32⟩
  | .hbm, ⟨73, _⟩ => ⟨S850000, .i32⟩
  | .hbm, ⟨74, _⟩ => ⟨S850000, .i32⟩
  | .hbm, ⟨75, _⟩ => ⟨S850000, .i32⟩
  | .hbm, ⟨76, _⟩ => ⟨S850000x1, .i32⟩
  | .hbm, ⟨77, _⟩ => ⟨S850000x256, .f32⟩
  | .hbm, ⟨78, _⟩ => ⟨S850000x1, .f32⟩
  | .hbm, ⟨79, _⟩ => ⟨S850000x256, .f32⟩
  | .hbm, ⟨80, _⟩ => ⟨S850000x256, .f32⟩
  | .hbm, ⟨81, _⟩ => ⟨S_, .f32⟩
  | .hbm, ⟨82, _⟩ => ⟨S50000x256, .f32⟩
  | .hbm, ⟨83, _⟩ => ⟨S850000x1, .i32⟩
  | .hbm, ⟨84, _⟩ => ⟨S50000x256, .f32⟩
  | .hbm, ⟨85, _⟩ => ⟨S1x256, .f32⟩
  | .hbm, ⟨86, _⟩ => ⟨S50000x256, .f32⟩
  | .hbm, ⟨87, _⟩ => ⟨S50000x7, .f32⟩
  | .hbm, ⟨88, _⟩ => ⟨S_, .i32⟩
  | .hbm, ⟨89, _⟩ => ⟨S850000, .i32⟩
  | .hbm, ⟨90, _⟩ => ⟨S850000, .i1⟩
  | .hbm, ⟨91, _⟩ => ⟨S_, .i32⟩
  | .hbm, ⟨92, _⟩ => ⟨S850000, .i32⟩
  | .hbm, ⟨93, _⟩ => ⟨S850000, .i32⟩
  | .hbm, ⟨94, _⟩ => ⟨S850000, .i32⟩
  | .hbm, ⟨95, _⟩ => ⟨S850000x1, .i32⟩
  | .hbm, ⟨96, _⟩ => ⟨S850000x7, .f32⟩
  | .hbm, ⟨97, _⟩ => ⟨S850000x1, .f32⟩
  | .hbm, ⟨98, _⟩ => ⟨S850000x7, .f32⟩
  | .hbm, ⟨99, _⟩ => ⟨S850000x7, .f32⟩
  | .hbm, ⟨100, _⟩ => ⟨S_, .f32⟩
  | .hbm, ⟨101, _⟩ => ⟨S50000x7, .f32⟩
  | .hbm, ⟨102, _⟩ => ⟨S850000x1, .i32⟩
  | .hbm, ⟨103, _⟩ => ⟨S50000x7, .f32⟩
  | .hbm, ⟨104, _⟩ => ⟨S1x7, .f32⟩
  | .hbm, ⟨105, _⟩ => ⟨S50000x7, .f32⟩
  | .hbm, ⟨106, _⟩ => ⟨S_, .f32⟩
  | .hbm, ⟨107, _⟩ => ⟨S50000, .f32⟩
  | .hbm, ⟨108, _⟩ => ⟨S_, .f32⟩
  | .hbm, ⟨109, _⟩ => ⟨S50000, .f32⟩
  | .hbm, ⟨110, _⟩ => ⟨S50000, .f32⟩
  | .hbm, ⟨111, _⟩ => ⟨S50000x1, .f32⟩
  | .hbm, ⟨112, _⟩ => ⟨S50000x7, .f32⟩
  | .hbm, ⟨113, _⟩ => ⟨S50000x7, .f32⟩
  | .hbm, ⟨114, _⟩ => ⟨S50000x7, .f32⟩
  | .hbm, ⟨115, _⟩ => ⟨S_, .f32⟩
  | .hbm, ⟨116, _⟩ => ⟨S50000, .f32⟩
  | .hbm, ⟨117, _⟩ => ⟨S50000x1, .f32⟩
  | .hbm, ⟨118, _⟩ => ⟨S50000x1, .f32⟩
  | .hbm, ⟨119, _⟩ => ⟨S50000x7, .f32⟩
  | .hbm, ⟨120, _⟩ => ⟨S50000x7, .f32⟩
  | .local _ .vmem, ⟨0, _⟩ => ⟨S1000x1433, .f32⟩
  | .local _ .vmem, ⟨1, _⟩ => ⟨S1000x1433, .f32⟩
  | .local _ .vmem, ⟨2, _⟩ => ⟨S1433x256, .f32⟩
  | .local _ .vmem, ⟨3, _⟩ => ⟨S1000x256, .f32⟩
  | .local _ .vmem, ⟨4, _⟩ => ⟨S1000x256, .f32⟩
  | .local _ .vmem, ⟨5, _⟩ => ⟨S2000x256, .f32⟩
  | .local _ .vmem, ⟨6, _⟩ => ⟨S2000x256, .f32⟩
  | .local _ .vmem, ⟨7, _⟩ => ⟨S1x256, .f32⟩
  | .local _ .vmem, ⟨8, _⟩ => ⟨S2000x256, .f32⟩
  | .local _ .vmem, ⟨9, _⟩ => ⟨S2000x256, .f32⟩
  | .local _ .vmem, ⟨10, _⟩ => ⟨S2000x256, .f32⟩
  | .local _ .vmem, ⟨11, _⟩ => ⟨S2000x256, .f32⟩
  | .local _ .vmem, ⟨12, _⟩ => ⟨S256x256, .f32⟩
  | .local _ .vmem, ⟨13, _⟩ => ⟨S2000x256, .f32⟩
  | .local _ .vmem, ⟨14, _⟩ => ⟨S2000x256, .f32⟩
  | .local _ .vmem, ⟨15, _⟩ => ⟨S2000x256, .f32⟩
  | .local _ .vmem, ⟨16, _⟩ => ⟨S2000x256, .f32⟩
  | .local _ .vmem, ⟨17, _⟩ => ⟨S1x256, .f32⟩
  | .local _ .vmem, ⟨18, _⟩ => ⟨S2000x256, .f32⟩
  | .local _ .vmem, ⟨19, _⟩ => ⟨S2000x256, .f32⟩
  | .local _ .vmem, ⟨20, _⟩ => ⟨S2000x256, .f32⟩
  | .local _ .vmem, ⟨21, _⟩ => ⟨S2000x256, .f32⟩
  | .local _ .vmem, ⟨22, _⟩ => ⟨S256x7, .f32⟩
  | .local _ .vmem, ⟨23, _⟩ => ⟨S2000x7, .f32⟩
  | .local _ .vmem, ⟨24, _⟩ => ⟨S2000x7, .f32⟩
  | .local _ .vmem, ⟨25, _⟩ => ⟨S2000x7, .f32⟩
  | .local _ .vmem, ⟨26, _⟩ => ⟨S2000x7, .f32⟩
  | .local _ .vmem, ⟨27, _⟩ => ⟨S1x7, .f32⟩
  | .local _ .vmem, ⟨28, _⟩ => ⟨S2000x7, .f32⟩
  | .local _ .vmem, ⟨29, _⟩ => ⟨S2000x7, .f32⟩
  | _, _ => ⟨S50000x1433, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst : Ref sig .tc := ⟨.hbm, 16, rfl⟩
abbrev main_v8 : Ref sig .tc := ⟨.hbm, 17, rfl⟩
abbrev main_cst_0 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_cst_1 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_cst_2 : Ref sig .tc := ⟨.hbm, 26, rfl⟩
abbrev main_call0_v0 : Ref sig .tc := ⟨.hbm, 27, rfl⟩
abbrev main_call0_v1 : Ref sig .tc := ⟨.hbm, 28, rfl⟩
abbrev main_v15 : Ref sig .tc := ⟨.hbm, 29, rfl⟩
abbrev main_c : Ref sig .tc := ⟨.hbm, 30, rfl⟩
abbrev main_v16 : Ref sig .tc := ⟨.hbm, 31, rfl⟩
abbrev main_v17 : Ref sig .tc := ⟨.hbm, 32, rfl⟩
abbrev main_c_3 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_c_4 : Ref sig .tc := ⟨.hbm, 39, rfl⟩
abbrev main_v23 : Ref sig .tc := ⟨.hbm, 40, rfl⟩
abbrev main_v24 : Ref sig .tc := ⟨.hbm, 41, rfl⟩
abbrev main_c_5 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_c_6 : Ref sig .tc := ⟨.hbm, 50, rfl⟩
abbrev main_v32 : Ref sig .tc := ⟨.hbm, 51, rfl⟩
abbrev main_v33 : Ref sig .tc := ⟨.hbm, 52, rfl⟩
abbrev main_c_7 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_cst_8 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_c_9 : Ref sig .tc := ⟨.hbm, 69, rfl⟩
abbrev main_v48 : Ref sig .tc := ⟨.hbm, 70, rfl⟩
abbrev main_v49 : Ref sig .tc := ⟨.hbm, 71, rfl⟩
abbrev main_c_10 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_cst_11 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_c_12 : Ref sig .tc := ⟨.hbm, 88, rfl⟩
abbrev main_v64 : Ref sig .tc := ⟨.hbm, 89, rfl⟩
abbrev main_v65 : Ref sig .tc := ⟨.hbm, 90, rfl⟩
abbrev main_c_13 : Ref sig .tc := ⟨.hbm, 91, rfl⟩
abbrev main_v66 : Ref sig .tc := ⟨.hbm, 92, rfl⟩
abbrev main_v67 : Ref sig .tc := ⟨.hbm, 93, rfl⟩
abbrev main_v68 : Ref sig .tc := ⟨.hbm, 94, rfl⟩
abbrev main_v69 : Ref sig .tc := ⟨.hbm, 95, rfl⟩
abbrev main_v70 : Ref sig .tc := ⟨.hbm, 96, rfl⟩
abbrev main_v71 : Ref sig .tc := ⟨.hbm, 97, rfl⟩
abbrev main_v72 : Ref sig .tc := ⟨.hbm, 98, rfl⟩
abbrev main_v73 : Ref sig .tc := ⟨.hbm, 99, rfl⟩
abbrev main_cst_14 : Ref sig .tc := ⟨.hbm, 100, rfl⟩
abbrev main_v74 : Ref sig .tc := ⟨.hbm, 101, rfl⟩
abbrev main_v75 : Ref sig .tc := ⟨.hbm, 102, rfl⟩
abbrev main_v76 : Ref sig .tc := ⟨.hbm, 103, rfl⟩
abbrev main_v77 : Ref sig .tc := ⟨.hbm, 104, rfl⟩
abbrev main_v78 : Ref sig .tc := ⟨.hbm, 105, rfl⟩
abbrev main_call1_cst : Ref sig .tc := ⟨.hbm, 106, rfl⟩
abbrev main_call1_v0 : Ref sig .tc := ⟨.hbm, 107, rfl⟩
abbrev main_call1_cst_0 : Ref sig .tc := ⟨.hbm, 108, rfl⟩
abbrev main_call1_v1 : Ref sig .tc := ⟨.hbm, 109, rfl⟩
abbrev main_call1_v2 : Ref sig .tc := ⟨.hbm, 110, rfl⟩
abbrev main_call1_v3 : Ref sig .tc := ⟨.hbm, 111, rfl⟩
abbrev main_call1_v4 : Ref sig .tc := ⟨.hbm, 112, rfl⟩
abbrev main_call1_v5 : Ref sig .tc := ⟨.hbm, 113, rfl⟩
abbrev main_call1_v6 : Ref sig .tc := ⟨.hbm, 114, rfl⟩
abbrev main_call1_cst_1 : Ref sig .tc := ⟨.hbm, 115, rfl⟩
abbrev main_call1_v7 : Ref sig .tc := ⟨.hbm, 116, rfl⟩
abbrev main_call1_v8 : Ref sig .tc := ⟨.hbm, 117, rfl⟩
abbrev main_call1_v9 : Ref sig .tc := ⟨.hbm, 118, rfl⟩
abbrev main_call1_v10 : Ref sig .tc := ⟨.hbm, 119, rfl⟩
abbrev main_v79 : Ref sig .tc := ⟨.hbm, 120, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc3_stg0_0 : Ref sig .tc := ⟨.vmem, 15, rfl⟩
abbrev cc3_stg0_1 : Ref sig .tc := ⟨.vmem, 16, rfl⟩
abbrev cc3_stg1_0 : Ref sig .tc := ⟨.vmem, 17, rfl⟩
abbrev cc3_stg2_0 : Ref sig .tc := ⟨.vmem, 18, rfl⟩
abbrev cc3_stg2_1 : Ref sig .tc := ⟨.vmem, 19, rfl⟩
abbrev cc4_stg0_0 : Ref sig .tc := ⟨.vmem, 20, rfl⟩
abbrev cc4_stg0_1 : Ref sig .tc := ⟨.vmem, 21, rfl⟩
abbrev cc4_stg1_0 : Ref sig .tc := ⟨.vmem, 22, rfl⟩
abbrev cc4_stg2_0 : Ref sig .tc := ⟨.vmem, 23, rfl⟩
abbrev cc4_stg2_1 : Ref sig .tc := ⟨.vmem, 24, rfl⟩
abbrev cc5_stg0_0 : Ref sig .tc := ⟨.vmem, 25, rfl⟩
abbrev cc5_stg0_1 : Ref sig .tc := ⟨.vmem, 26, rfl⟩
abbrev cc5_stg1_0 : Ref sig .tc := ⟨.vmem, 27, rfl⟩
abbrev cc5_stg2_0 : Ref sig .tc := ⟨.vmem, 28, rfl⟩
abbrev cc5_stg2_1 : Ref sig .tc := ⟨.vmem, 29, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14
abbrev cc3_sem0_0 : DmaSem sig := 15
abbrev cc3_sem0_1 : DmaSem sig := 16
abbrev cc3_sem1_0 : DmaSem sig := 17
abbrev cc3_sem2_0 : DmaSem sig := 18
abbrev cc3_sem2_1 : DmaSem sig := 19
abbrev cc4_sem0_0 : DmaSem sig := 20
abbrev cc4_sem0_1 : DmaSem sig := 21
abbrev cc4_sem1_0 : DmaSem sig := 22
abbrev cc4_sem2_0 : DmaSem sig := 23
abbrev cc4_sem2_1 : DmaSem sig := 24
abbrev cc5_sem0_0 : DmaSem sig := 25
abbrev cc5_sem0_1 : DmaSem sig := 26
abbrev cc5_sem1_0 : DmaSem sig := 27
abbrev cc5_sem2_0 : DmaSem sig := 28
abbrev cc5_sem2_1 : DmaSem sig := 29

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1000x1433 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1433x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1000x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x256 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S2000x256 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x256 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S256x256 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S2000x256 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![25], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S2000x256 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x256 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S2000x256 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev grid4 : Pipeline.Grid := ⟨1, ![25], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S2000x256 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S256x7 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 2 → Memref sig .tc .vmem S2000x7 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev grid5 : Pipeline.Grid := ⟨1, ![25], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S2000x7 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S1x7 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 2 → Memref sig .tc .vmem S2000x7 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

class Facts₀ : Prop where
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  inb_S1000x1433_S1000x1433_0_0 : ∀ a, (![0, 0] : Fin 2 → Nat) a + S1000x1433.size a ≤ S1000x1433.size a
  h_S1000x1433 : 0 < S1000x1433.numel
  bitsLt_bf16_f32 : FTy.bits .bf16 < FTy.bits .f32
  inb_S1433x256_S1433x256_0_0 : ∀ a, (![0, 0] : Fin 2 → Nat) a + S1433x256.size a ≤ S1433x256.size a
  h_S1433x256 : 0 < S1433x256.numel
  inb_S1000x256_S1000x256_0_0 : ∀ a, (![0, 0] : Fin 2 → Nat) a + S1000x256.size a ≤ S1000x256.size a
  h_S1000x256 : 0 < S1000x256.numel
  bcast_S850000x1_S850000x256_0_1 : S850000x1.BroadcastsInDim S850000x256 (![0, 1] : Fin 2 → Fin S850000x256.rank)
  bcast_S_S50000x256 : S_.BroadcastsInDim S50000x256 (![] : Fin 0 → Fin S50000x256.rank)
  shapeCasts_S256_S1x256 : S256.ShapeCasts S1x256
  inb_S2000x256_S2000x256_0_0 : ∀ a, (![0, 0] : Fin 2 → Nat) a + S2000x256.size a ≤ S2000x256.size a
  h_S2000x256 : 0 < S2000x256.numel
  shapeCasts_S2000x256_S2000x256 : S2000x256.ShapeCasts S2000x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S2000x256 : S1x256.Broadcasts S2000x256
  inb_S256x256_S256x256_0_0 : ∀ a, (![0, 0] : Fin 2 → Nat) a + S256x256.size a ≤ S256x256.size a
  h_S256x256 : 0 < S256x256.numel
  inb_S256x7_S256x7_0_0 : ∀ a, (![0, 0] : Fin 2 → Nat) a + S256x7.size a ≤ S256x7.size a
  h_S256x7 : 0 < S256x7.numel
  inb_S2000x7_S2000x7_0_0 : ∀ a, (![0, 0] : Fin 2 → Nat) a + S2000x7.size a ≤ S2000x7.size a
  h_S2000x7 : 0 < S2000x7.numel
  bcast_S850000x1_S850000x7_0_1 : S850000x1.BroadcastsInDim S850000x7 (![0, 1] : Fin 2 → Fin S850000x7.rank)
  bcast_S_S50000x7 : S_.BroadcastsInDim S50000x7 (![] : Fin 0 → Fin S50000x7.rank)
  shapeCasts_S7_S1x7 : S7.ShapeCasts S1x7
  shapeCasts_S2000x7_S2000x7 : S2000x7.ShapeCasts S2000x7
  inb_S1x7_S1x7_0_0 : ∀ a, (![0, 0] : Fin 2 → Nat) a + S1x7.size a ≤ S1x7.size a
  h_S1x7 : 0 < S1x7.numel
  shapeCasts_S1x7_S1x7 : S1x7.ShapeCasts S1x7
  broadcasts_S1x7_S2000x7 : S1x7.Broadcasts S2000x7
  reducesTo_S50000x7_S50000_d1 : S50000x7.ReducesTo [1] S50000
  h_S_ : 0 < S_.numel
  bcast_S50000_S50000x1_0 : S50000.BroadcastsInDim S50000x1 (![0] : Fin 1 → Fin S50000x1.rank)
  bcast_S50000x1_S50000x7_0_1 : S50000x1.BroadcastsInDim S50000x7 (![0, 1] : Fin 2 → Fin S50000x7.rank)
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  dot_S1000x1433_S1433x256_S1000x256_1_0_0_1_n_n_wf : DotDims.WF S1000x1433 S1433x256 S1000x256 [1] [0] [0] [1] [] []
  gather_S50000x256_S850000x1_S850000x256_1_0_n_n_0_1_1256_wf : GatherDims.WF S50000x256 S850000x1 S850000x256 [1] [0] [] [0] [] 1 ![1, 256]
  scatter_S50000x256_S850000x1_S850000x256_1_0_0_1_wf : ScatterDims.WF S50000x256 S850000x1 S850000x256 [1] [0] [0] 1
  dot_S2000x256_S256x256_S2000x256_1_0_0_1_n_n_wf : DotDims.WF S2000x256 S256x256 S2000x256 [1] [0] [0] [1] [] []
  dot_S2000x256_S256x7_S2000x7_1_0_0_1_n_n_wf : DotDims.WF S2000x256 S256x7 S2000x7 [1] [0] [0] [1] [] []
  gather_S50000x7_S850000x1_S850000x7_1_0_n_n_0_1_17_wf : GatherDims.WF S50000x7 S850000x1 S850000x7 [1] [0] [] [0] [] 1 ![1, 7]
  scatter_S50000x7_S850000x1_S850000x7_1_0_0_1_wf : ScatterDims.WF S50000x7 S850000x1 S850000x7 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1000x1433.size a ≤ S50000x1433.size a
  hwx0_0 : ∀ i : grid0.Coords, EltTy.bits .f32 = 32 ∨ (Rect.block (s := S50000x1433) S1000x1433.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1433x256.size a ≤ S1433x256.size a
  hwx0_1 : ∀ i : grid0.Coords, EltTy.bits .f32 = 32 ∨ (Rect.block (s := S1433x256) S1433x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1000x256.size a ≤ S50000x256.size a
  hwx0_2 : ∀ i : grid0.Coords, EltTy.bits .f32 = 32 ∨ (Rect.block (s := S50000x256) S1000x256.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x256.size a ≤ S50000x256.size a
  hwx1_0 : ∀ i : grid1.Coords, EltTy.bits .f32 = 32 ∨ (Rect.block (s := S50000x256) S2000x256.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x256.size a ≤ S1x256.size a
  hwx1_1 : ∀ i : grid1.Coords, EltTy.bits .f32 = 32 ∨ (Rect.block (s := S1x256) S1x256.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2000x256.size a ≤ S50000x256.size a
  hwx1_2 : ∀ i : grid1.Coords, EltTy.bits .f32 = 32 ∨ (Rect.block (s := S50000x256) S2000x256.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x256.size a ≤ S50000x256.size a
  hwx2_0 : ∀ i : grid2.Coords, EltTy.bits .f32 = 32 ∨ (Rect.block (s := S50000x256) S2000x256.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S256x256.size a ≤ S256x256.size a
  hwx2_1 : ∀ i : grid2.Coords, EltTy.bits .f32 = 32 ∨ (Rect.block (s := S256x256) S256x256.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S2000x256.size a ≤ S50000x256.size a
  hwx2_2 : ∀ i : grid2.Coords, EltTy.bits .f32 = 32 ∨ (Rect.block (s := S50000x256) S2000x256.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2000x256.size a ≤ S50000x256.size a
  hwx3_0 : ∀ i : grid3.Coords, EltTy.bits .f32 = 32 ∨ (Rect.block (s := S50000x256) S2000x256.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x256.size a ≤ S1x256.size a
  hwx3_1 : ∀ i : grid3.Coords, EltTy.bits .f32 = 32 ∨ (Rect.block (s := S1x256) S1x256.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S2000x256.size a ≤ S50000x256.size a
  hwx3_2 : ∀ i : grid3.Coords, EltTy.bits .f32 = 32 ∨ (Rect.block (s := S50000x256) S2000x256.size (cc3_transform_2 i) (hinb3_2 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S2000x256.size a ≤ S50000x256.size a
  hwx4_0 : ∀ i : grid4.Coords, EltTy.bits .f32 = 32 ∨ (Rect.block (s := S50000x256) S2000x256.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S256x7.size a ≤ S256x7.size a
  hwx4_1 : ∀ i : grid4.Coords, EltTy.bits .f32 = 32 ∨ (Rect.block (s := S256x7) S256x7.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S2000x7.size a ≤ S50000x7.size a
  hwx4_2 : ∀ i : grid4.Coords, EltTy.bits .f32 = 32 ∨ (Rect.block (s := S50000x7) S2000x7.size (cc4_transform_2 i) (hinb4_2 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S2000x7.size a ≤ S50000x7.size a
  hwx5_0 : ∀ i : grid5.Coords, EltTy.bits .f32 = 32 ∨ (Rect.block (s := S50000x7) S2000x7.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S1x7.size a ≤ S1x7.size a
  hwx5_1 : ∀ i : grid5.Coords, EltTy.bits .f32 = 32 ∨ (Rect.block (s := S1x7) S1x7.size (cc5_transform_1 i) (hinb5_1 i)).WholeWords (EltTy.packing .f32)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S2000x7.size a ≤ S50000x7.size a
  hwx5_2 : ∀ i : grid5.Coords, EltTy.bits .f32 = 32 ∨ (Rect.block (s := S50000x7) S2000x7.size (cc5_transform_2 i) (hinb5_2 i)).WholeWords (EltTy.packing .f32)

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def dot_S1000x1433_S1433x256_S1000x256_1_0_0_1_n_n : DotDims S1000x1433 S1433x256 S1000x256 where
  lhsContracting := [1]
  rhsContracting := [0]
  lhsNonContracting := [0]
  rhsNonContracting := [1]
  lhsBatch := []
  rhsBatch := []
  wf := dot_S1000x1433_S1433x256_S1000x256_1_0_0_1_n_n_wf
def gather_S50000x256_S850000x1_S850000x256_1_0_n_n_0_1_1256 : GatherDims S50000x256 S850000x1 S850000x256 where
  offsetDims := [1]
  collapsedSliceDims := [0]
  operandBatchingDims := []
  startIndicesBatchingDims := []
  startIndexMap := [0]
  indexVectorDim := 1
  sliceSizes := ![1, 256]
  wf := gather_S50000x256_S850000x1_S850000x256_1_0_n_n_0_1_1256_wf
def scatter_S50000x256_S850000x1_S850000x256_1_0_0_1 : ScatterDims S50000x256 S850000x1 S850000x256 where
  updateWindowDims := [1]
  insertedWindowDims := [0]
  scatterDimsToOperandDims := [0]
  indexVectorDim := 1
  wf := scatter_S50000x256_S850000x1_S850000x256_1_0_0_1_wf
def dot_S2000x256_S256x256_S2000x256_1_0_0_1_n_n : DotDims S2000x256 S256x256 S2000x256 where
  lhsContracting := [1]
  rhsContracting := [0]
  lhsNonContracting := [0]
  rhsNonContracting := [1]
  lhsBatch := []
  rhsBatch := []
  wf := dot_S2000x256_S256x256_S2000x256_1_0_0_1_n_n_wf
def dot_S2000x256_S256x7_S2000x7_1_0_0_1_n_n : DotDims S2000x256 S256x7 S2000x7 where
  lhsContracting := [1]
  rhsContracting := [0]
  lhsNonContracting := [0]
  rhsNonContracting := [1]
  lhsBatch := []
  rhsBatch := []
  wf := dot_S2000x256_S256x7_S2000x7_1_0_0_1_n_n_wf
def gather_S50000x7_S850000x1_S850000x7_1_0_n_n_0_1_17 : GatherDims S50000x7 S850000x1 S850000x7 where
  offsetDims := [1]
  collapsedSliceDims := [0]
  operandBatchingDims := []
  startIndicesBatchingDims := []
  startIndexMap := [0]
  indexVectorDim := 1
  sliceSizes := ![1, 7]
  wf := gather_S50000x7_S850000x1_S850000x7_1_0_n_n_0_1_17_wf
def scatter_S50000x7_S850000x1_S850000x7_1_0_0_1 : ScatterDims S50000x7 S850000x1 S850000x7 where
  updateWindowDims := [1]
  insertedWindowDims := [0]
  scatterDimsToOperandDims := [0]
  indexVectorDim := 1
  wf := scatter_S50000x7_S850000x1_S850000x7_1_0_0_1_wf

abbrev win0_0 : Pipeline.Window sig grid0 :=
  Pipeline.Window.ofSpec (Memref.whole main_arg0) S1000x1433.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S1433x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v31) S1000x256.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v44) S2000x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v45) S1x256.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v46) S2000x256.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v46) S2000x256.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg4) S256x256.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v47) S2000x256.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v60) S2000x256.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v61) S1x256.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v62) S2000x256.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev win4_0 : Pipeline.Window sig grid4 :=
  Pipeline.Window.ofSpec (Memref.whole main_v62) S2000x256.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_arg6) S256x7.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v63) S2000x7.size cc4_transform_2 reads4_2 true false 2 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

abbrev win5_0 : Pipeline.Window sig grid5 :=
  Pipeline.Window.ofSpec (Memref.whole main_v76) S2000x7.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v77) S1x7.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v78) S2000x7.size cc5_transform_2 reads5_2 true false 2 stage5_2 sem5_2
    hrank5 hreads5_2 hinb5_2 nbuf5_2 (Memref.isWhole_whole _) hwx5_2 hstage5_2

abbrev win5 : Fin 3 → Pipeline.Window sig grid5 := fun | 0 => win5_0 | 1 => win5_1 | 2 => win5_2 | ⟨_ + 3, h⟩ => absurd h (Nat.not_lt.2 (Nat.le_add_left _ _))
abbrev spec5 : Fin 3 → Pipeline.WinSpec sig grid5.rank := fun w => (win5 w).toWinSpec

class Facts : Prop extends Facts₀ where

variable [Facts]
-- ==== ReferenceIdeal.lean ====
abbrev S50000x1433 : Shape := ⟨2, ![50000, 1433]⟩
abbrev S2x800000 : Shape := ⟨2, ![2, 800000]⟩
abbrev S1433x256 : Shape := ⟨2, ![1433, 256]⟩
abbrev S256 : Shape := ⟨1, ![256]⟩
abbrev S256x256 : Shape := ⟨2, ![256, 256]⟩
abbrev S256x7 : Shape := ⟨2, ![256, 7]⟩
abbrev S7 : Shape := ⟨1, ![7]⟩
abbrev S1x800000 : Shape := ⟨2, ![1, 800000]⟩
abbrev S800000 : Shape := ⟨1, ![800000]⟩
abbrev S50000 : Shape := ⟨1, ![50000]⟩
abbrev S850000 : Shape := ⟨1, ![850000]⟩
abbrev S_ : Shape := ⟨0, ![]⟩
abbrev S850000x1 : Shape := ⟨2, ![850000, 1]⟩
abbrev S50000x256 : Shape := ⟨2, ![50000, 256]⟩
abbrev S850000x256 : Shape := ⟨2, ![850000, 256]⟩
abbrev S1x256 : Shape := ⟨2, ![1, 256]⟩
abbrev S50000x7 : Shape := ⟨2, ![50000, 7]⟩
abbrev S850000x7 : Shape := ⟨2, ![850000, 7]⟩
abbrev S1x7 : Shape := ⟨2, ![1, 7]⟩
abbrev S50000x1 : Shape := ⟨2, ![50000, 1]⟩

abbrev nBuf : Space → Nat
  | .hbm => 130
  | .vmem => 0
  | .smem => 0
  | _ => 0

abbrev hbmTy0_0 (i : Nat) : BufTy := match i % 128 with
  | 0 => ⟨S50000x1433, .f32⟩
  | 1 => ⟨S2x800000, .i32⟩
  | 2 => ⟨S1433x256, .f32⟩
  | 3 => ⟨S256, .f32⟩
  | 4 => ⟨S256x256, .f32⟩
  | 5 => ⟨S256, .f32⟩
  | 6 => ⟨S256x7, .f32⟩
  | 7 => ⟨S7, .f32⟩
  | 8 => ⟨S1x800000, .i32⟩
  | 9 => ⟨S800000, .i32⟩
  | 10 => ⟨S50000, .i32⟩
  | 11 => ⟨S850000, .i32⟩
  | 12 => ⟨S1x800000, .i32⟩
  | 13 => ⟨S800000, .i32⟩
  | 14 => ⟨S50000, .i32⟩
  | 15 => ⟨S850000, .i32⟩
  | 16 => ⟨S_, .f32⟩
  | 17 => ⟨S850000, .f32⟩
  | 18 => ⟨S_, .f32⟩
  | 19 => ⟨S50000, .f32⟩
  | 20 => ⟨S850000x1, .i32⟩
  | 21 => ⟨S50000, .f32⟩
  | 22 => ⟨S_, .f32⟩
  | 23 => ⟨S50000, .f32⟩
  | 24 => ⟨S50000, .i1⟩
  | 25 => ⟨S50000, .f32⟩
  | 26 => ⟨S_, .f32⟩
  | 27 => ⟨S_, .f32⟩
  | 28 => ⟨S50000, .f32⟩
  | 29 => ⟨S50000, .f32⟩
  | 30 => ⟨S_, .i32⟩
  | 31 => ⟨S850000, .i32⟩
  | 32 => ⟨S850000, .i1⟩
  | 33 => ⟨S_, .i32⟩
  | 34 => ⟨S850000, .i32⟩
  | 35 => ⟨S850000, .i32⟩
  | 36 => ⟨S850000, .i32⟩
  | 37 => ⟨S850000x1, .i32⟩
  | 38 => ⟨S850000, .f32⟩
  | 39 => ⟨S_, .i32⟩
  | 40 => ⟨S850000, .i32⟩
  | 41 => ⟨S850000, .i1⟩
  | 42 => ⟨S_, .i32⟩
  | 43 => ⟨S850000, .i32⟩
  | 44 => ⟨S850000, .i32⟩
  | 45 => ⟨S850000, .i32⟩
  | 46 => ⟨S850000x1, .i32⟩
  | 47 => ⟨S850000, .f32⟩
  | 48 => ⟨S850000, .f32⟩
  | 49 => ⟨S50000x256, .f32⟩
  | 50 => ⟨S_, .i32⟩
  | 51 => ⟨S850000, .i32⟩
  | 52 => ⟨S850000, .i1⟩
  | 53 => ⟨S_, .i32⟩
  | 54 => ⟨S850000, .i32⟩
  | 55 => ⟨S850000, .i32⟩
  | 56 => ⟨S850000, .i32⟩
  | 57 => ⟨S850000x1, .i32⟩
  | 58 => ⟨S850000x256, .f32⟩
  | 59 => ⟨S850000x1, .f32⟩
  | 60 => ⟨S850000x256, .f32⟩
  | 61 => ⟨S850000x256, .f32⟩
  | 62 => ⟨S_, .f32⟩
  | 63 => ⟨S50000x256, .f32⟩
  | 64 => ⟨S850000x1, .i32⟩
  | 65 => ⟨S50000x256, .f32⟩
  | 66 => ⟨S1x256, .f32⟩
  | 67 => ⟨S50000x256, .f32⟩
  | 68 => ⟨S50000x256, .f32⟩
  | 69 => ⟨S_, .f32⟩
  | 70 => ⟨S50000x256, .f32⟩
  | 71 => ⟨S50000x256, .f32⟩
  | 72 => ⟨S50000x256, .f32⟩
  | 73 => ⟨S_, .i32⟩
  | 74 => ⟨S850000, .i32⟩
  | 75 => ⟨S850000, .i1⟩
  | 76 => ⟨S_, .i32⟩
  | 77 => ⟨S850000, .i32⟩
  | 78 => ⟨S850000, .i32⟩
  | 79 => ⟨S850000, .i32⟩
  | 80 => ⟨S850000x1, .i32⟩
  | 81 => ⟨S850000x256, .f32⟩
  | 82 => ⟨S850000x1, .f32⟩
  | 83 => ⟨S850000x256, .f32⟩
  | 84 => ⟨S850000x256, .f32⟩
  | 85 => ⟨S_, .f32⟩
  | 86 => ⟨S50000x256, .f32⟩
  | 87 => ⟨S850000x1, .i32⟩
  | 88 => ⟨S50000x256, .f32⟩
  | 89 => ⟨S1x256, .f32⟩
  | 90 => ⟨S50000x256, .f32⟩
  | 91 => ⟨S50000x256, .f32⟩
  | 92 => ⟨S_, .f32⟩
  | 93 => ⟨S50000x256, .f32⟩
  | 94 => ⟨S50000x256, .f32⟩
  | 95 => ⟨S50000x7, .f32⟩
  | 96 => ⟨S_, .i32⟩
  | 97 => ⟨S850000, .i32⟩
  | 98 => ⟨S850000, .i1⟩
  | 99 => ⟨S_, .i32⟩
  | 100 => ⟨S850000, .i32⟩
  | 101 => ⟨S850000, .i32⟩
  | 102 => ⟨S850000, .i32⟩
  | 103 => ⟨S850000x1, .i32⟩
  | 104 => ⟨S850000x7, .f32⟩
  | 105 => ⟨S850000x1, .f32⟩
  | 106 => ⟨S850000x7, .f32⟩
  | 107 => ⟨S850000x7, .f32⟩
  | 108 => ⟨S_, .f32⟩
  | 109 => ⟨S50000x7, .f32⟩
  | 110 => ⟨S850000x1, .i32⟩
  | 111 => ⟨S50000x7, .f32⟩
  | 112 => ⟨S1x7, .f32⟩
  | 113 => ⟨S50000x7, .f32⟩
  | 114 => ⟨S50000x7, .f32⟩
  | 115 => ⟨S_, .f32⟩
  | 116 => ⟨S50000, .f32⟩
  | 117 => ⟨S_, .f32⟩
  | 118 => ⟨S50000, .f32⟩
  | 119 => ⟨S50000, .f32⟩
  | 120 => ⟨S50000x1, .f32⟩
  | 121 => ⟨S50000x7, .f32⟩
  | 122 => ⟨S50000x7, .f32⟩
  | 123 => ⟨S50000x7, .f32⟩
  | 124 => ⟨S_, .f32⟩
  | 125 => ⟨S50000, .f32⟩
  | 126 => ⟨S50000x1, .f32⟩
  | 127 => ⟨S50000x1, .f32⟩
  | _ => ⟨S50000x1433, .f32⟩

abbrev hbmTy0_1 (i : Nat) : BufTy := match i % 128 with
  | 0 => ⟨S50000x7, .f32⟩
  | 1 => ⟨S50000x7, .f32⟩
  | _ => ⟨S50000x1433, .f32⟩

abbrev hbmTy (i : Nat) : BufTy := match i / 128 with
  | 0 => hbmTy0_0 i
  | 1 => hbmTy0_1 i
  | _ => ⟨S50000x1433, .f32⟩

abbrev bufTy : (tb : Table) → Fin (tcTables nBuf tb) → BufTy
  | .hbm, ⟨i, _⟩ => hbmTy i
  | _, _ => ⟨S50000x1433, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst : Ref sig .tc := ⟨.hbm, 16, rfl⟩
abbrev main_v8 : Ref sig .tc := ⟨.hbm, 17, rfl⟩
abbrev main_cst_0 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_cst_1 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_cst_2 : Ref sig .tc := ⟨.hbm, 26, rfl⟩
abbrev main_call0_v0 : Ref sig .tc := ⟨.hbm, 27, rfl⟩
abbrev main_call0_v1 : Ref sig .tc := ⟨.hbm, 28, rfl⟩
abbrev main_v15 : Ref sig .tc := ⟨.hbm, 29, rfl⟩
abbrev main_c : Ref sig .tc := ⟨.hbm, 30, rfl⟩
abbrev main_v16 : Ref sig .tc := ⟨.hbm, 31, rfl⟩
abbrev main_v17 : Ref sig .tc := ⟨.hbm, 32, rfl⟩
abbrev main_c_3 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_c_4 : Ref sig .tc := ⟨.hbm, 39, rfl⟩
abbrev main_v23 : Ref sig .tc := ⟨.hbm, 40, rfl⟩
abbrev main_v24 : Ref sig .tc := ⟨.hbm, 41, rfl⟩
abbrev main_c_5 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_c_6 : Ref sig .tc := ⟨.hbm, 50, rfl⟩
abbrev main_v32 : Ref sig .tc := ⟨.hbm, 51, rfl⟩
abbrev main_v33 : Ref sig .tc := ⟨.hbm, 52, rfl⟩
abbrev main_c_7 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_cst_8 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_call1_cst : Ref sig .tc := ⟨.hbm, 69, rfl⟩
abbrev main_call1_v0 : Ref sig .tc := ⟨.hbm, 70, rfl⟩
abbrev main_v48 : Ref sig .tc := ⟨.hbm, 71, rfl⟩
abbrev main_v49 : Ref sig .tc := ⟨.hbm, 72, rfl⟩
abbrev main_c_9 : Ref sig .tc := ⟨.hbm, 73, rfl⟩
abbrev main_v50 : Ref sig .tc := ⟨.hbm, 74, rfl⟩
abbrev main_v51 : Ref sig .tc := ⟨.hbm, 75, rfl⟩
abbrev main_c_10 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_cst_11 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_call2_cst : Ref sig .tc := ⟨.hbm, 92, rfl⟩
abbrev main_call2_v0 : Ref sig .tc := ⟨.hbm, 93, rfl⟩
abbrev main_v66 : Ref sig .tc := ⟨.hbm, 94, rfl⟩
abbrev main_v67 : Ref sig .tc := ⟨.hbm, 95, rfl⟩
abbrev main_c_12 : Ref sig .tc := ⟨.hbm, 96, rfl⟩
abbrev main_v68 : Ref sig .tc := ⟨.hbm, 97, rfl⟩
abbrev main_v69 : Ref sig .tc := ⟨.hbm, 98, rfl⟩
abbrev main_c_13 : Ref sig .tc := ⟨.hbm, 99, rfl⟩
abbrev main_v70 : Ref sig .tc := ⟨.hbm, 100, rfl⟩
abbrev main_v71 : Ref sig .tc := ⟨.hbm, 101, rfl⟩
abbrev main_v72 : Ref sig .tc := ⟨.hbm, 102, rfl⟩
abbrev main_v73 : Ref sig .tc := ⟨.hbm, 103, rfl⟩
abbrev main_v74 : Ref sig .tc := ⟨.hbm, 104, rfl⟩
abbrev main_v75 : Ref sig .tc := ⟨.hbm, 105, rfl⟩
abbrev main_v76 : Ref sig .tc := ⟨.hbm, 106, rfl⟩
abbrev main_v77 : Ref sig .tc := ⟨.hbm, 107, rfl⟩
abbrev main_cst_14 : Ref sig .tc := ⟨.hbm, 108, rfl⟩
abbrev main_v78 : Ref sig .tc := ⟨.hbm, 109, rfl⟩
abbrev main_v79 : Ref sig .tc := ⟨.hbm, 110, rfl⟩
abbrev main_v80 : Ref sig .tc := ⟨.hbm, 111, rfl⟩
abbrev main_v81 : Ref sig .tc := ⟨.hbm, 112, rfl⟩
abbrev main_v82 : Ref sig .tc := ⟨.hbm, 113, rfl⟩
abbrev main_v83 : Ref sig .tc := ⟨.hbm, 114, rfl⟩
abbrev main_call3_cst : Ref sig .tc := ⟨.hbm, 115, rfl⟩
abbrev main_call3_v0 : Ref sig .tc := ⟨.hbm, 116, rfl⟩
abbrev main_call3_cst_0 : Ref sig .tc := ⟨.hbm, 117, rfl⟩
abbrev main_call3_v1 : Ref sig .tc := ⟨.hbm, 118, rfl⟩
abbrev main_call3_v2 : Ref sig .tc := ⟨.hbm, 119, rfl⟩
abbrev main_call3_v3 : Ref sig .tc := ⟨.hbm, 120, rfl⟩
abbrev main_call3_v4 : Ref sig .tc := ⟨.hbm, 121, rfl⟩
abbrev main_call3_v5 : Ref sig .tc := ⟨.hbm, 122, rfl⟩
abbrev main_call3_v6 : Ref sig .tc := ⟨.hbm, 123, rfl⟩
abbrev main_call3_cst_1 : Ref sig .tc := ⟨.hbm, 124, rfl⟩
abbrev main_call3_v7 : Ref sig .tc := ⟨.hbm, 125, rfl⟩
abbrev main_call3_v8 : Ref sig .tc := ⟨.hbm, 126, rfl⟩
abbrev main_call3_v9 : Ref sig .tc := ⟨.hbm, 127, rfl⟩
abbrev main_call3_v10 : Ref sig .tc := ⟨.hbm, 128, rfl⟩
abbrev main_v84 : Ref sig .tc := ⟨.hbm, 129, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  bcast_S850000x1_S850000x256_0_1 : S850000x1.BroadcastsInDim S850000x256 (![0, 1] : Fin 2 → Fin S850000x256.rank)
  bcast_S_S50000x256 : S_.BroadcastsInDim S50000x256 (![] : Fin 0 → Fin S50000x256.rank)
  bcast_S256_S1x256_1 : S256.BroadcastsInDim S1x256 (![1] : Fin 1 → Fin S1x256.rank)
  bcast_S1x256_S50000x256_0_1 : S1x256.BroadcastsInDim S50000x256 (![0, 1] : Fin 2 → Fin S50000x256.rank)
  bcast_S850000x1_S850000x7_0_1 : S850000x1.BroadcastsInDim S850000x7 (![0, 1] : Fin 2 → Fin S850000x7.rank)
  bcast_S_S50000x7 : S_.BroadcastsInDim S50000x7 (![] : Fin 0 → Fin S50000x7.rank)
  bcast_S7_S1x7_1 : S7.BroadcastsInDim S1x7 (![1] : Fin 1 → Fin S1x7.rank)
  bcast_S1x7_S50000x7_0_1 : S1x7.BroadcastsInDim S50000x7 (![0, 1] : Fin 2 → Fin S50000x7.rank)
  reducesTo_S50000x7_S50000_d1 : S50000x7.ReducesTo [1] S50000
  h_S_ : 0 < S_.numel
  bcast_S50000_S50000x1_0 : S50000.BroadcastsInDim S50000x1 (![0] : Fin 1 → Fin S50000x1.rank)
  bcast_S50000x1_S50000x7_0_1 : S50000x1.BroadcastsInDim S50000x7 (![0, 1] : Fin 2 → Fin S50000x7.rank)
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  dot_S50000x1433_S1433x256_S50000x256_1_0_0_1_n_n_wf : DotDims.WF S50000x1433 S1433x256 S50000x256 [1] [0] [0] [1] [] []
  gather_S50000x256_S850000x1_S850000x256_1_0_n_n_0_1_1256_wf : GatherDims.WF S50000x256 S850000x1 S850000x256 [1] [0] [] [0] [] 1 ![1, 256]
  scatter_S50000x256_S850000x1_S850000x256_1_0_0_1_wf : ScatterDims.WF S50000x256 S850000x1 S850000x256 [1] [0] [0] 1
  dot_S50000x256_S256x256_S50000x256_1_0_0_1_n_n_wf : DotDims.WF S50000x256 S256x256 S50000x256 [1] [0] [0] [1] [] []
  dot_S50000x256_S256x7_S50000x7_1_0_0_1_n_n_wf : DotDims.WF S50000x256 S256x7 S50000x7 [1] [0] [0] [1] [] []
  gather_S50000x7_S850000x1_S850000x7_1_0_n_n_0_1_17_wf : GatherDims.WF S50000x7 S850000x1 S850000x7 [1] [0] [] [0] [] 1 ![1, 7]
  scatter_S50000x7_S850000x1_S850000x7_1_0_0_1_wf : ScatterDims.WF S50000x7 S850000x1 S850000x7 [1] [0] [0] 1

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def dot_S50000x1433_S1433x256_S50000x256_1_0_0_1_n_n : DotDims S50000x1433 S1433x256 S50000x256 where
  lhsContracting := [1]
  rhsContracting := [0]
  lhsNonContracting := [0]
  rhsNonContracting := [1]
  lhsBatch := []
  rhsBatch := []
  wf := dot_S50000x1433_S1433x256_S50000x256_1_0_0_1_n_n_wf
def gather_S50000x256_S850000x1_S850000x256_1_0_n_n_0_1_1256 : GatherDims S50000x256 S850000x1 S850000x256 where
  offsetDims := [1]
  collapsedSliceDims := [0]
  operandBatchingDims := []
  startIndicesBatchingDims := []
  startIndexMap := [0]
  indexVectorDim := 1
  sliceSizes := ![1, 256]
  wf := gather_S50000x256_S850000x1_S850000x256_1_0_n_n_0_1_1256_wf
def scatter_S50000x256_S850000x1_S850000x256_1_0_0_1 : ScatterDims S50000x256 S850000x1 S850000x256 where
  updateWindowDims := [1]
  insertedWindowDims := [0]
  scatterDimsToOperandDims := [0]
  indexVectorDim := 1
  wf := scatter_S50000x256_S850000x1_S850000x256_1_0_0_1_wf
def dot_S50000x256_S256x256_S50000x256_1_0_0_1_n_n : DotDims S50000x256 S256x256 S50000x256 where
  lhsContracting := [1]
  rhsContracting := [0]
  lhsNonContracting := [0]
  rhsNonContracting := [1]
  lhsBatch := []
  rhsBatch := []
  wf := dot_S50000x256_S256x256_S50000x256_1_0_0_1_n_n_wf
def dot_S50000x256_S256x7_S50000x7_1_0_0_1_n_n : DotDims S50000x256 S256x7 S50000x7 where
  lhsContracting := [1]
  rhsContracting := [0]
  lhsNonContracting := [0]
  rhsNonContracting := [1]
  lhsBatch := []
  rhsBatch := []
  wf := dot_S50000x256_S256x7_S50000x7_1_0_0_1_n_n_wf
def gather_S50000x7_S850000x1_S850000x7_1_0_n_n_0_1_17 : GatherDims S50000x7 S850000x1 S850000x7 where
  offsetDims := [1]
  collapsedSliceDims := [0]
  operandBatchingDims := []
  startIndicesBatchingDims := []
  startIndexMap := [0]
  indexVectorDim := 1
  sliceSizes := ![1, 7]
  wf := gather_S50000x7_S850000x1_S850000x7_1_0_n_n_0_1_17_wf
def scatter_S50000x7_S850000x1_S850000x7_1_0_0_1 : ScatterDims S50000x7 S850000x1 S850000x7 where
  updateWindowDims := [1]
  insertedWindowDims := [0]
  scatterDimsToOperandDims := [0]
  indexVectorDim := 1
  wf := scatter_S50000x7_S850000x1_S850000x7_1_0_0_1_wf

class Facts : Prop extends Facts₀ where

variable [Facts]
-- ==== Proof.KRun.lean ====
/-
  The kernel program's run with every buffer named.  @main is a chain of host stretches and six pipelined regions; the
  launch over that chain ends in a state whose every unscoped TensorCore buffer holds the last boundary's contents
  `W13`: the fold, from the launch memory, of each stretch's operations and of each region's write-backs.  The frame
  certificate reads only the argument buffers off that state; here the whole state is kept.
-/
import proofs.«154728_j29686813950829_1_alg».proof.Proof.Gen.KernelIdeal.Frame

set_option maxRecDepth 16384

noncomputable section

namespace Cert.KernelIdeal.KVal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates, nothing faulting, with every unscoped TensorCore buffer at the
    last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W13 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W13 m ρ c b)
    (hfin := fun c s' => by
      iintro ⟨⟨Hh, -⟩, HSI⟩
      unfold StableHlo.held
      imodintro
      iapply (pointsTo_read_all (Pipeline.ucRefs τ sig) (fun b => (((c : Thread nD τ)).1, b)) (W13 m ρ c) s')
      isplitl [Hh] <;> iassumption)
    (hQ := fun s h => h)

end Cert.KernelIdeal.KVal

end
-- ==== Proof.Spec.lean ====
/-
  The network both programs compute, as one function of the argument arrays, stage by stage.

  A graph convolution with self loops: the edge list `e : [2, 800000]` gives the source nodes `rowOf e` and the target
  nodes `colOf e` of 850000 edges (the 800000 listed ones, then one loop `v → v` per node).  The degree of a node is the
  number of edges that end in it, `dinvOf` its inverse square root (zero where the degree is not positive), and an
  edge `k` weighs `normOf k = dinv (row k) * dinv (col k)`.  A layer maps node features `h` to
  `agg h = Σ_{k : col k = v} h (row k) * norm k` (a row gather, a scaling and a scatter-add), after a linear map and
  before a bias (and a rectifier on the first two layers); the result is the row-wise log-softmax of the third layer.

  Each stage is written with the host operations of the printed reference, so that a program's composed term is this
  function by unfolding.
-/
import proofs.«154728_j29686813950829_1_alg».proof.ReferenceIdeal

noncomputable section

namespace Cert.Spec

open Idealize.ShloMosaic Cert.ReferenceIdeal

variable {F : FTy → Type} [FloatOps F] [Facts₀]
open Facts₀

/-- An array of 32-bit integers of shape `S`. -/
abbrev IA (F : FTy → Type) (S : Shape) := (⟨S, .i32⟩ : BufTy).Contents (Elt F)
/-- An array of floats of shape `S`. -/
abbrev FA (F : FTy → Type) (S : Shape) := (⟨S, .f32⟩ : BufTy).Contents (Elt F)

/-- Source node of every edge: row 0 of the edge list, then the nodes themselves. -/
def rowOf (e : IA F S2x800000) : IA F S850000 :=
  concatenate S850000 0 [⟨S800000, shapeCast S800000 (extractStridedSlice S1x800000 ![0, 0] e slices_S2x800000_S1x800000_0_0) shapeCasts_S1x800000_S800000⟩, ⟨S50000, iotaInDim S50000 32 0⟩] concatenates_S800000_S50000_S850000_d0

/-- Target node of every edge: row 1 of the edge list, then the nodes themselves. -/
def colOf (e : IA F S2x800000) : IA F S850000 :=
  concatenate S850000 0 [⟨S800000, shapeCast S800000 (extractStridedSlice S1x800000 ![1, 0] e slices_S2x800000_S1x800000_1_0) shapeCasts_S1x800000_S800000⟩, ⟨S50000, iotaInDim S50000 32 0⟩] concatenates_S800000_S50000_S850000_d0

/-- Node numbers as a column of gather indices, a negative number counted from the end. -/
def wrapIdx (v : IA F S850000) : IA F S850000x1 :=
  broadcastInDim S850000x1 ![0] bcast_S850000_S850000x1_0
    (select (cmpi .slt v (broadcastInDim S850000 ![] bcast_S_S850000 (constantI S_ 32 0#32)))
      (addi v (broadcastInDim S850000 ![] bcast_S_S850000 (constantI S_ 32 50000#32))) v)

/-- Node numbers as a column of scatter indices. -/
def colIdx (v : IA F S850000) : IA F S850000x1 :=
  broadcastInDim S850000x1 ![0] bcast_S850000_S850000x1_0 v

/-- The number of edges ending in each node. -/
def degOf (col : IA F S850000) : FA F S50000 :=
  Host.scatterAdd scatter_S50000_S850000x1_S850000_n_0_0_1
    (broadcastInDim S50000 ![] bcast_S_S50000 (constant (F := F) S_ .f32 0x00000000#32))
    (colIdx col)
    (broadcastInDim S850000 ![] bcast_S_S850000 (constant (F := F) S_ .f32 0x3F800000#32))

/-- The inverse square root of the degree, zero where the degree is not positive. -/
def dinvOf (col : IA F S850000) : FA F S50000 :=
  select (cmpf .ogt (degOf col) (broadcastInDim S50000 ![] bcast_S_S50000 (constant (F := F) S_ .f32 0x00000000#32)))
    (Host.rsqrt (degOf col))
    (broadcastInDim S50000 ![] bcast_S_S50000 (constant (F := F) S_ .f32 0x00000000#32))

/-- The weight of every edge. -/
def normOf (row col : IA F S850000) : FA F S850000 :=
  mulf (Host.gather gather_S50000_S850000x1_S850000_n_0_n_n_0_1_1 (dinvOf col) (wrapIdx row))
    (Host.gather gather_S50000_S850000x1_S850000_n_0_n_n_0_1_1 (dinvOf col) (wrapIdx col))

/-- One aggregation over 256 features: gather the source rows, weigh them, add them into the target rows. -/
def agg256 (h : FA F S50000x256) (row col : IA F S850000) (norm : FA F S850000) : FA F S50000x256 :=
  Host.scatterAdd scatter_S50000x256_S850000x1_S850000x256_1_0_0_1
    (broadcastInDim S50000x256 ![] bcast_S_S50000x256 (constant (F := F) S_ .f32 0x00000000#32))
    (colIdx col)
    (mulf (Host.gather gather_S50000x256_S850000x1_S850000x256_1_0_n_n_0_1_1256 h (wrapIdx row))
      (broadcastInDim S850000x256 ![0, 1] bcast_S850000x1_S850000x256_0_1 (broadcastInDim S850000x1 ![0] bcast_S850000_S850000x1_0 norm)))

/-- The same aggregation over 7 features. -/
def agg7 (h : FA F S50000x7) (row col : IA F S850000) (norm : FA F S850000) : FA F S50000x7 :=
  Host.scatterAdd scatter_S50000x7_S850000x1_S850000x7_1_0_0_1
    (broadcastInDim S50000x7 ![] bcast_S_S50000x7 (constant (F := F) S_ .f32 0x00000000#32))
    (colIdx col)
    (mulf (Host.gather gather_S50000x7_S850000x1_S850000x7_1_0_n_n_0_1_17 h (wrapIdx row))
      (broadcastInDim S850000x7 ![0, 1] bcast_S850000x1_S850000x7_0_1 (broadcastInDim S850000x1 ![0] bcast_S850000_S850000x1_0 norm)))

/-- The three linear maps. -/
def lin1 (x : FA F S50000x1433) (w : FA F S1433x256) : FA F S50000x256 :=
  Host.dotGeneral dot_S50000x1433_S1433x256_S50000x256_1_0_0_1_n_n none x w
def lin2 (x : FA F S50000x256) (w : FA F S256x256) : FA F S50000x256 :=
  Host.dotGeneral dot_S50000x256_S256x256_S50000x256_1_0_0_1_n_n none x w
def lin3 (x : FA F S50000x256) (w : FA F S256x7) : FA F S50000x7 :=
  Host.dotGeneral dot_S50000x256_S256x7_S50000x7_1_0_0_1_n_n none x w

/-- Add a bias to every row, then clamp at zero from below. -/
def biasRelu (a : FA F S50000x256) (b : FA F S256) : FA F S50000x256 :=
  maximumf (addf a (broadcastInDim S50000x256 ![0, 1] bcast_S1x256_S50000x256_0_1 (broadcastInDim S1x256 ![1] bcast_S256_S1x256_1 b)))
    (broadcastInDim S50000x256 ![] bcast_S_S50000x256 (constant (F := F) S_ .f32 0x00000000#32))

/-- Add a bias to every row. -/
def bias7 (a : FA F S50000x7) (b : FA F S7) : FA F S50000x7 :=
  addf a (broadcastInDim S50000x7 ![0, 1] bcast_S1x7_S50000x7_0_1 (broadcastInDim S1x7 ![1] bcast_S7_S1x7_1 b))

/-- A row minus its maximum. -/
def shifted (z : FA F S50000x7) : FA F S50000x7 :=
  subf z (broadcastInDim S50000x7 ![0, 1] bcast_S50000x1_S50000x7_0_1 (broadcastInDim S50000x1 ![0] bcast_S50000_S50000x1_0
    (maximumf (broadcastInDim S50000 ![] bcast_S_S50000 (constant (F := F) S_ .f32 0xFF800000#32))
      (Host.reduce FloatOps.maximumf z (constant (F := F) S_ .f32 0xFF800000#32) reducesTo_S50000x7_S50000_d1 h_S_))))

/-- The row-wise log-softmax. -/
def logSoftmax (z : FA F S50000x7) : FA F S50000x7 :=
  subf (shifted z) (broadcastInDim S50000x7 ![0, 1] bcast_S50000x1_S50000x7_0_1 (Host.log (broadcastInDim S50000x1 ![0] bcast_S50000_S50000x1_0
    (Host.reduceAdd (Host.exp (shifted z)) (constant (F := F) S_ .f32 0x00000000#32) reducesTo_S50000x7_S50000_d1 h_S_))))

/-- The whole network, over any three linear maps and any three row-wise epilogues. -/
def netOver
    (l1 : FA F S50000x1433 → FA F S1433x256 → FA F S50000x256) (l2 : FA F S50000x256 → FA F S256x256 → FA F S50000x256)
    (l3 : FA F S50000x256 → FA F S256x7 → FA F S50000x7)
    (a1 a2 : FA F S50000x256 → FA F S256 → FA F S50000x256) (a3 : FA F S50000x7 → FA F S7 → FA F S50000x7)
    (x : FA F S50000x1433) (e : IA F S2x800000) (w1 : FA F S1433x256) (b1 : FA F S256) (w2 : FA F S256x256) (b2 : FA F S256)
    (w3 : FA F S256x7) (b3 : FA F S7) : FA F S50000x7 :=
  logSoftmax (a3 (agg7 (l3 (a2 (agg256 (l2 (a1 (agg256 (l1 x w1) (rowOf e) (colOf e) (normOf (rowOf e) (colOf e))) b1) w2)
    (rowOf e) (colOf e) (normOf (rowOf e) (colOf e))) b2) w3) (rowOf e) (colOf e) (normOf (rowOf e) (colOf e))) b3)

/-- The network of the reference. -/
def net (x : FA F S50000x1433) (e : IA F S2x800000) (w1 : FA F S1433x256) (b1 : FA F S256) (w2 : FA F S256x256) (b2 : FA F S256)
    (w3 : FA F S256x7) (b3 : FA F S7) : FA F S50000x7 :=
  netOver lin1 lin2 lin3 biasRelu biasRelu bias7 x e w1 b1 w2 b2 w3 b3

end Cert.Spec

end
-- ==== Proof.LibMatRead.lean ====
/-
  Two matrix products read at an index, over the extended reals, for any dimension record with the stated axes: the
  product that contracts the second axis of both operands (rows against rows), and the one that contracts the second
  axis of the left with the first of the right (rows against columns). Into a zero accumulator each is the plain sum
  over the shared axis of the products of the entries; the contraction's index type has one coordinate, and the sum is
  re-indexed by it.
-/
import Idealize.ShloMosaic.PureOps.Ideal.Laws
import Idealize.ShloMosaic.Lib.ValueIdx

noncomputable section
open scoped BigOperators
open Idealize.ShloMosaic Idealize.ShloMosaic.ValueIdx

namespace Cert.MatRead

/-- A product that contracts the second axis of both operands, into a zero accumulator, read at an index: the sum over
    the shared axis of row `a` of the left operand times row `b` of the right. -/
theorem matmul_rows_apply {m k n : Nat} {φ₁ φ₂ : FTy}
    (d : DotDims ⟨2, ![m, k]⟩ ⟨2, ![n, k]⟩ ⟨2, ![m, n]⟩)
    (hlc : d.lhsContracting = [1]) (hrc : d.rhsContracting = [1])
    (hln : d.lhsNonContracting = [0]) (hrn : d.rhsNonContracting = [0])
    (hlb : d.lhsBatch = []) (hrb : d.rhsBatch = [])
    (prec : Option ContractPrecision)
    (A : FVec Ideal ⟨2, ![m, k]⟩ φ₁) (B : FVec Ideal ⟨2, ![n, k]⟩ φ₂) (a : Fin m) (b : Fin n) :
    FloatOps.matmul d prec A B (constant ⟨2, ![m, n]⟩ .f32 0x00000000#32) (ix2 a b)
      = ∑ c : Fin k, A (ix2 a c) * B (ix2 b c) := by
  have hr1 : d.contr.rank = 1 := by rw [d.rank_contr, hlc]; rfl
  have hs : d.contr.size ⟨0, by omega⟩ = k := by
    have h := d.size_contr 0 (by rw [hlc]; exact Nat.one_pos)
    simp only [hlc] at h
    exact h
  have key0 : ∀ (i : Nat) (h : i < 2), i = 0 → ((ix2 a b ⟨i, h⟩).val : Nat) = a.val := by
    intro i h hi; subst hi; rfl
  have key1 : ∀ (i : Nat) (h : i < 2), i = 1 → ((ix2 a b ⟨i, h⟩).val : Nat) = b.val := by
    intro i h hi; subst hi; rfl
  rw [Ideal.matmul_constant_zero_apply, ← Equiv.sum_comp (contrEquiv1 d k hr1 hs).symm]
  refine Finset.sum_congr rfl fun c _ => ?_
  have c2 := contrEquiv1_symm_val d k hr1 hs c
  have l2 : d.lhsIdx (ix2 a b) ((contrEquiv1 d k hr1 hs).symm c) = ix2 a c := by
    funext ax; apply Fin.ext
    match ax with
    | ⟨0, _⟩ => simp [DotDims.lhsIdx, hlc, hln, hlb]; exact key0 _ _ (by simp [hlb, hln])
    | ⟨1, _⟩ => exact (d.lhsIdx_val_of_single hlc _ _).trans c2
  have r2 : d.rhsIdx (ix2 a b) ((contrEquiv1 d k hr1 hs).symm c) = ix2 b c := by
    funext ax; apply Fin.ext
    match ax with
    | ⟨0, _⟩ => simp [DotDims.rhsIdx, hrc, hrn, hrb]; exact key1 _ _ (by simp [hlb, hln, hrn])
    | ⟨1, _⟩ => exact (d.rhsIdx_val_of_single hrc _ _).trans c2
  rw [l2, r2]

/-- A product that contracts the second axis of the left operand with the first of the right, into a zero accumulator,
    read at an index: row `a` of the left operand times column `b` of the right. -/
theorem matmul_row_col_apply {m k n : Nat} {φ₁ φ₂ : FTy}
    (d : DotDims ⟨2, ![m, k]⟩ ⟨2, ![k, n]⟩ ⟨2, ![m, n]⟩)
    (hlc : d.lhsContracting = [1]) (hrc : d.rhsContracting = [0])
    (hln : d.lhsNonContracting = [0]) (hrn : d.rhsNonContracting = [1])
    (hlb : d.lhsBatch = []) (hrb : d.rhsBatch = [])
    (prec : Option ContractPrecision)
    (A : FVec Ideal ⟨2, ![m, k]⟩ φ₁) (B : FVec Ideal ⟨2, ![k, n]⟩ φ₂) (a : Fin m) (b : Fin n) :
    FloatOps.matmul d prec A B (constant ⟨2, ![m, n]⟩ .f32 0x00000000#32) (ix2 a b)
      = ∑ c : Fin k, A (ix2 a c) * B (ix2 c b) := by
  have hr1 : d.contr.rank = 1 := by rw [d.rank_contr, hlc]; rfl
  have hs : d.contr.size ⟨0, by omega⟩ = k := by
    have h := d.size_contr 0 (by rw [hlc]; exact Nat.one_pos)
    simp only [hlc] at h
    exact h
  have key0 : ∀ (i : Nat) (h : i < 2), i = 0 → ((ix2 a b ⟨i, h⟩).val : Nat) = a.val := by
    intro i h hi; subst hi; rfl
  have key1 : ∀ (i : Nat) (h : i < 2), i = 1 → ((ix2 a b ⟨i, h⟩).val : Nat) = b.val := by
    intro i h hi; subst hi; rfl
  rw [Ideal.matmul_constant_zero_apply, ← Equiv.sum_comp (contrEquiv1 d k hr1 hs).symm]
  refine Finset.sum_congr rfl fun c _ => ?_
  have c2 := contrEquiv1_symm_val d k hr1 hs c
  have l2 : d.lhsIdx (ix2 a b) ((contrEquiv1 d k hr1 hs).symm c) = ix2 a c := by
    funext ax; apply Fin.ext
    match ax with
    | ⟨0, _⟩ => simp [DotDims.lhsIdx, hlc, hln, hlb]; exact key0 _ _ (by simp [hlb, hln])
    | ⟨1, _⟩ => exact (d.lhsIdx_val_of_single hlc _ _).trans c2
  have r2 : d.rhsIdx (ix2 a b) ((contrEquiv1 d k hr1 hs).symm c) = ix2 c b := by
    funext ax; apply Fin.ext
    match ax with
    | ⟨0, _⟩ => exact (d.rhsIdx_val_of_single hrc _ _).trans c2
    | ⟨1, _⟩ => simp [DotDims.rhsIdx, hrc, hrn, hrb]; exact key1 _ _ (by simp [hlb, hln, hrn])
  rw [l2, r2]

end Cert.MatRead
-- ==== Proof.LibDotRead.lean ====
/-
  A host `dot_general` that contracts the second axis of its left operand with the first axis of its right operand,
  read at an index over the extended reals, for any dimension record with those axes: the plain sum over the shared
  axis of row `a` of the left operand times column `b` of the right. The contraction's index type has one coordinate,
  and the sum is re-indexed by it.
-/
import Idealize.ShloMosaic.PureOps.Ideal.Laws
import Idealize.ShloMosaic.Lib.ValueIdx

noncomputable section
open scoped BigOperators
open Idealize.ShloMosaic Idealize.ShloMosaic.ValueIdx

namespace Cert.DotRead

/-- A host product of a matrix `[m, k]` with a matrix `[k, n]`, read at `(a, b)`: the sum over the shared axis of
    `A (a, c) * B (c, b)`. -/
theorem dot_row_col_apply {m k n : Nat} {φ₁ φ₂ : FTy}
    (d : DotDims ⟨2, ![m, k]⟩ ⟨2, ![k, n]⟩ ⟨2, ![m, n]⟩)
    (hlc : d.lhsContracting = [1]) (hrc : d.rhsContracting = [0])
    (hln : d.lhsNonContracting = [0]) (hrn : d.rhsNonContracting = [1])
    (hlb : d.lhsBatch = []) (hrb : d.rhsBatch = [])
    (prec : Option ContractPrecision)
    (A : FVec Ideal ⟨2, ![m, k]⟩ φ₁) (B : FVec Ideal ⟨2, ![k, n]⟩ φ₂) (a : Fin m) (b : Fin n) :
    Host.dotGeneral d prec A B (ix2 a b) = ∑ c : Fin k, A (ix2 a c) * B (ix2 c b) := by
  have hr1 : d.contr.rank = 1 := by rw [d.rank_contr, hlc]; rfl
  have hs : d.contr.size ⟨0, by omega⟩ = k := by
    have h := d.size_contr 0 (by rw [hlc]; exact Nat.one_pos)
    simp only [hlc] at h
    exact h
  have key0 : ∀ (i : Nat) (h : i < 2), i = 0 → ((ix2 a b ⟨i, h⟩).val : Nat) = a.val := by
    intro i h hi; subst hi; rfl
  have key1 : ∀ (i : Nat) (h : i < 2), i = 1 → ((ix2 a b ⟨i, h⟩).val : Nat) = b.val := by
    intro i h hi; subst hi; rfl
  simp only [Host.dotGeneral]
  rw [Ideal.dotGeneral_apply, ← Equiv.sum_comp (contrEquiv1 d k hr1 hs).symm]
  refine Finset.sum_congr rfl fun c _ => ?_
  have c2 := contrEquiv1_symm_val d k hr1 hs c
  have l2 : d.lhsIdx (ix2 a b) ((contrEquiv1 d k hr1 hs).symm c) = ix2 a c := by
    funext ax; apply Fin.ext
    match ax with
    | ⟨0, _⟩ => simp [DotDims.lhsIdx, hlc, hln, hlb]; exact key0 _ _ (by simp [hlb, hln])
    | ⟨1, _⟩ => exact (d.lhsIdx_val_of_single hlc _ _).trans c2
  have r2 : d.rhsIdx (ix2 a b) ((contrEquiv1 d k hr1 hs).symm c) = ix2 c b := by
    funext ax; apply Fin.ext
    match ax with
    | ⟨0, _⟩ => exact (d.rhsIdx_val_of_single hrc _ _).trans c2
    | ⟨1, _⟩ => simp [DotDims.rhsIdx, hrc, hrn, hrb]; exact key1 _ _ (by simp [hlb, hln, hrn])
  rw [l2, r2]

end Cert.DotRead
-- ==== Proof.Reg0.lean ====
/-
  Region 0: a matrix product tiled over rows.  Grid point `t` loads rows `t·1000 … t·1000+999` of the left operand and the
  whole right operand, and stores their product (into a zero accumulator, the operands' change of float format the
  identity on the extended reals) as the same rows of the result.  Entry `(r, q)` of a block is the sum over the shared
  axis of `X (t·1000+r, k) · W (k, q)`, which is entry `(t·1000+r, q)` of the whole product; the 50 blocks tile the result,
  so after the region the result array IS the product of the two arrays the region found.
-/
import proofs.«154728_j29686813950829_1_alg».proof.Proof.Gen.KernelIdeal.Frame
import proofs.«154728_j29686813950829_1_alg».proof.Proof.Gen.ReferenceIdeal
import proofs.«154728_j29686813950829_1_alg».proof.Proof.Spec
import proofs.«154728_j29686813950829_1_alg».proof.Proof.LibMatRead
import proofs.«154728_j29686813950829_1_alg».proof.Proof.LibDotRead
import Idealize.ShloMosaic.Lib.Pipeline.Value

set_option maxRecDepth 16384

noncomputable section

namespace Cert.KernelIdeal.Reg0

open Cert.KernelIdeal Cert.KernelIdeal.Gen Idealize.ShloMosaic Idealize.ShloMosaic.TcCoe Idealize.SL.Sem Idealize.ShloMosaic.ValueIdx
open Idealize.ShloMosaic.Pipeline (Dat)
open scoped BigOperators

variable (V : (c : Dev nD) → (b : Ref sig .tc) → Buf (Elt Ideal) ((c : Thread nD τ).loc b))

theorem hz : (![0, 0] : Fin 2 → Nat) = fun _ => 0 := funext fun a => by fin_cases a <;> rfl

/-- The body's product at an entry of the block: a plain sum over the shared axis. -/
theorem pay_apply (x0 : Vec Ideal S1000x1433 .f32) (x1 : Vec Ideal S1433x256 .f32) (r : Fin 1000) (q : Fin 256) :
    k0_pay1 x0 x1 (ix2 r q) = ∑ k : Fin 1433, x0 (ix2 r k) * x1 (ix2 k q) := by
  unfold k0_pay1
  exact Cert.MatRead.matmul_row_col_apply dot_S1000x1433_S1433x256_S1000x256_1_0_0_1_n_n rfl rfl rfl rfl rfl rfl none _ _ r q

/-- The printed index maps over the grid: the left operand and the result move down one block per point, the right
    operand stays. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

theorem npts : cfg0.N = 50 := N_0

/-- What point `t` writes back is block `t` of the product of the two arrays as the region finds them. -/
theorem flushed_eq (c : Dev nD) (t : Fin cfg0.N) :
    (dat0 V c).flushed 2 t = ((cfg0.win 2).blk t).view.read (Elt Ideal) (Cert.Spec.lin1 (V c main_arg0) (V c main_arg2)) := by
  show (cfg0.win 2).cut (grid0.coords t) ((dat0 V c).after 2 t) = _
  rw [after0_2]
  unfold out0_2
  rw [View.canon_unit_zero hz]
  simp only [View.ld_unit_zero (S := S1000x1433) hz, View.ld_unit_zero (S := S1433x256) hz]
  obtain ⟨e0, e1, e2, e3, e4, e5⟩ := idx_facts t
  have hN := npts
  have htl : t.val < 50 := hN ▸ t.isLt
  funext j
  obtain ⟨r, q, rfl⟩ : ∃ (r : Fin 1000) (q : Fin 256), j = ix2 r q := ⟨j 0, j 1, eq_ix2 j⟩
  have hr : t.val * 1000 + r.val < 50000 := by have := r.isLt; omega
  show k0_pay1 (iblk0 V c 0 t) (iblk0 V c 1 t) (ix2 r q) = Cert.Spec.lin1 (V c main_arg0) (V c main_arg2) (((cfg0.win 2).blk t).view.emb (ix2 r q))
  have he : ((cfg0.win 2).blk t).view.emb (ix2 r q) = ix2 (⟨t.val * 1000 + r.val, hr⟩ : Fin 50000) q := by
    funext a; apply Fin.ext
    match a with
    | ⟨0, _⟩ => show win0_2.index t (0 : Fin 2) * 1000 + 1 * r.val = t.val * 1000 + r.val; omega
    | ⟨1, _⟩ => show win0_2.index t (1 : Fin 2) * 256 + 1 * q.val = q.val; omega
  rw [he]
  refine (pay_apply _ _ r q).trans ?_
  unfold Cert.Spec.lin1
  refine Eq.trans ?_ (Cert.DotRead.dot_row_col_apply Cert.ReferenceIdeal.dot_S50000x1433_S1433x256_S50000x256_1_0_0_1_n_n rfl rfl rfl rfl rfl rfl none _ _ _ _).symm
  refine Finset.sum_congr rfl fun k _ => ?_
  have h0 : ((cfg0.win 0).blk t).view.emb (ix2 r k) = ix2 (⟨t.val * 1000 + r.val, hr⟩ : Fin 50000) k := by
    funext a; apply Fin.ext
    match a with
    | ⟨0, _⟩ => show win0_0.index t (0 : Fin 2) * 1000 + 1 * r.val = t.val * 1000 + r.val; omega
    | ⟨1, _⟩ => show win0_0.index t (1 : Fin 2) * 1433 + 1 * k.val = k.val; omega
  have h1 : ((cfg0.win 1).blk t).view.emb (ix2 k q) = ix2 k q := by
    funext a; apply Fin.ext
    match a with
    | ⟨0, _⟩ => show win0_1.index t (0 : Fin 2) * 1433 + 1 * k.val = k.val; omega
    | ⟨1, _⟩ => show win0_1.index t (1 : Fin 2) * 256 + 1 * q.val = q.val; omega
  exact congrArg₂ (· * ·) (congrArg (V c main_arg0 : S50000x1433.Idx → EReal) h0) (congrArg (V c main_arg2 : S1433x256.Idx → EReal) h1)

/-- An index of the result is in point `t`'s block iff each coordinate is in the block's range on its axis. -/
theorem mem_blk (t : Fin cfg0.N) (i : S50000x256.Idx) :
    i ∈ ((cfg0.win 2).blk t).view.set ↔ ∀ a : Fin 2, win0_2.index t a * S1000x256.size a ≤ (i a).val ∧ (i a).val < win0_2.index t a * S1000x256.size a + S1000x256.size a := by
  show i ∈ ((View.whole main_v31).slice (win0_2.rect t)).set ↔ _
  rw [View.set_slice_whole, Rect.mem_set_unit]
  exact Iff.rfl

/-- Every row of the result is in the block of the point numbered by the row's quotient by 1000. -/
theorem cover (i : S50000x256.Idx) : ∃ t : Fin cfg0.N, (cfg0.win 2).flush t = true ∧ i ∈ ((cfg0.win 2).blk t).view.set := by
  have hi0 : (i 0).val < 50000 := (i 0).isLt
  have hi1 : (i 1).val < 256 := (i 1).isLt
  have hN := npts
  let t : Fin cfg0.N := ⟨(i 0).val / 1000, by rw [hN]; omega⟩
  obtain ⟨e0, e1, e2, e3, e4, e5⟩ := idx_facts t
  have ht : t.val = (i 0).val / 1000 := rfl
  refine ⟨t, flush0_2 t, ?_⟩
  rw [mem_blk]
  intro a
  match a with
  | ⟨0, _⟩ => show win0_2.index t (0 : Fin 2) * 1000 ≤ (i 0).val ∧ (i 0).val < win0_2.index t (0 : Fin 2) * 1000 + 1000; omega
  | ⟨1, _⟩ => show win0_2.index t (1 : Fin 2) * 256 ≤ (i 1).val ∧ (i 1).val < win0_2.index t (1 : Fin 2) * 256 + 256; omega

/-- After the region its result array is the product of the two arrays it found. -/
theorem final (c : Dev nD) : (dat0 V c).arrAt 2 cfg0.N = Cert.Spec.lin1 (V c main_arg0) (V c main_arg2) :=
  (dat0 V c).arrAt_eq_of_cover 2 _ (fun t _ => flushed_eq V c t) cover

end Cert.KernelIdeal.Reg0

end
-- ==== Proof.LibRowBias.lean ====
/-
  A vector of `b` entries laid over the rows of an `[a, b]` array, read at an index: the host's two-step broadcast
  `[b] → [1, b] → [a, b]` reads, at `(p, c)`, the vector at `c`; so does the vector reshaped to `[1, b]` at `(0, c)`.
-/
import Idealize.ShloMosaic.Lib.Pipeline.Value
import Idealize.ShloMosaic.Lib.ValueIdx
import Idealize.ShloMosaic.Lib.ValueLayout

noncomputable section
open Idealize.ShloMosaic Idealize.ShloMosaic.ValueIdx

namespace Cert.RowBias

variable {α : Type}

/-- A `[b]` vector broadcast to `[1, b]` along axis 1 reads, at `(u, c)`, the vector at `c`. -/
theorem bcast_b_1b_apply {b : ℕ} (x : (⟨1, ![b]⟩ : Shape).Idx → α) (dims : Fin 1 → Fin 2) (hd : dims 0 = 1)
    (h : (⟨1, ![b]⟩ : Shape).BroadcastsInDim ⟨2, ![1, b]⟩ dims) (u : Fin 1) (c : Fin b) :
    broadcastInDim ⟨2, ![1, b]⟩ dims h x (ix2 u c) = x (ix1 c) := by
  refine broadcastInDim_apply dims h x (ix2 u c) (ix1 c) fun ax => ?_
  match ax with
  | ⟨0, _⟩ =>
    show c.val = if b = 1 then 0 else ((ix2 u c) (dims 0)).val
    rw [hd]
    split
    · have := c.isLt; omega
    · rfl

/-- A `[1, b]` array broadcast to `[a, b]` along both axes reads, at `(p, c)`, its one row at `c`. -/
theorem bcast_1b_ab_apply {a b : ℕ} (y : (⟨2, ![1, b]⟩ : Shape).Idx → α) (dims : Fin 2 → Fin 2) (hd0 : dims 0 = 0) (hd1 : dims 1 = 1)
    (h : (⟨2, ![1, b]⟩ : Shape).BroadcastsInDim ⟨2, ![a, b]⟩ dims) (p : Fin a) (c : Fin b) :
    broadcastInDim ⟨2, ![a, b]⟩ dims h y (ix2 p c) = y (ix2 (0 : Fin 1) c) := by
  refine broadcastInDim_apply dims h y (ix2 p c) (ix2 (0 : Fin 1) c) fun ax => ?_
  match ax with
  | ⟨0, _⟩ => rfl
  | ⟨1, _⟩ =>
    show c.val = if b = 1 then 0 else ((ix2 p c) (dims 1)).val
    rw [hd1]
    split
    · have := c.isLt; omega
    · rfl

/-- The host's bias row: `[b] → [1, b] → [a, b]`, read at `(p, c)`, is the vector at `c`. -/
theorem bias_rows_apply {a b : ℕ} (x : (⟨1, ![b]⟩ : Shape).Idx → α) (d0 : Fin 1 → Fin 2) (hd : d0 0 = 1)
    (h0 : (⟨1, ![b]⟩ : Shape).BroadcastsInDim ⟨2, ![1, b]⟩ d0) (d1 : Fin 2 → Fin 2) (hd0 : d1 0 = 0) (hd1 : d1 1 = 1)
    (h1 : (⟨2, ![1, b]⟩ : Shape).BroadcastsInDim ⟨2, ![a, b]⟩ d1) (p : Fin a) (c : Fin b) :
    broadcastInDim ⟨2, ![a, b]⟩ d1 h1 (broadcastInDim ⟨2, ![1, b]⟩ d0 h0 x) (ix2 p c) = x (ix1 c) :=
  (bcast_1b_ab_apply _ d1 hd0 hd1 h1 p c).trans (bcast_b_1b_apply x d0 hd h0 0 c)

end Cert.RowBias
-- ==== Proof.Reg1.lean ====
/-
  Region 1: a bias added to every row, then a clamp at zero from below, tiled over rows.  Grid point `t` loads rows
  `t·2000 … t·2000+1999` of the matrix and the one-row bias, and stores, at `(r, q)`, `max (A (t·2000+r, q) + B (0, q)) 0`: the
  same function of the array index in every block.  The 25 blocks tile the result, so after the region the result array
  is that function of the two arrays the region found; with the bias row a reshaped vector it is the host's epilogue.
-/
import proofs.«154728_j29686813950829_1_alg».proof.Proof.Gen.KernelIdeal.Frame
import proofs.«154728_j29686813950829_1_alg».proof.Proof.Gen.ReferenceIdeal
import proofs.«154728_j29686813950829_1_alg».proof.Proof.Spec
import proofs.«154728_j29686813950829_1_alg».proof.Proof.LibRowBias
import Idealize.ShloMosaic.Lib.Pipeline.Value
import Idealize.ShloMosaic.Lib.ValueLayout
import Idealize.ShloMosaic.Lib.IdealHost

set_option maxRecDepth 16384

noncomputable section

namespace Cert.KernelIdeal.Reg1

open Cert.KernelIdeal Cert.KernelIdeal.Gen Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The body's value at an entry of the block. -/
theorem pay_apply (x0 : Vec Ideal S2000x256 .f32) (x1 : Vec Ideal S1x256 .f32) (r : Fin 2000) (q : Fin 256) :
    k1_pay1 x0 x1 (ix2 r q) = max (x0 (ix2 r q) + x1 (ix2 (0 : Fin 1) q)) (Ideal.ofBits .f32 0x00000000#32) := by
  unfold k1_pay1
  show max (shapeCast S2000x256 x0 shapeCasts_S2000x256_S2000x256 (ix2 r q) + broadcastTo S2000x256 (shapeCast S1x256 x1 shapeCasts_S1x256_S1x256) broadcasts_S1x256_S2000x256 (ix2 r q)) (Ideal.ofBits .f32 0x00000000#32) = _
  rw [shapeCast_self, shapeCast_self, broadcastTo_1b_ab_apply]

/-- The row-wise epilogue over a one-row bias, as a function of the array index. -/
def rowAct (A : S50000x256.Idx → EReal) (B : S1x256.Idx → EReal) : S50000x256.Idx → EReal :=
  fun i => max (A i + B (ix2 (0 : Fin 1) (i 1))) (Ideal.ofBits .f32 0x00000000#32)

/-- The printed index maps over the grid: the matrix and the result move down one block per point, the bias stays. -/
theorem idx_facts : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

theorem npts : cfg1.N = 25 := N_1

/-- What point `t` writes back is block `t` of the epilogue of the two arrays as the region finds them. -/
theorem flushed_eq (c : Dev nD) (t : Fin cfg1.N) :
    (dat1 V c).flushed 2 t = ((cfg1.win 2).blk t).view.read (Elt Ideal) (rowAct (V c main_v44) (V c main_v45)) := by
  show (cfg1.win 2).cut (grid1.coords t) ((dat1 V c).after 2 t) = _
  rw [after1_2]
  unfold out1_2
  rw [View.canon_unit_zero hz]
  simp only [View.ld_unit_zero (S := S2000x256) hz, View.ld_unit_zero (S := S1x256) hz]
  obtain ⟨e0, e1, e2, e3, e4, e5⟩ := idx_facts t
  have hN := npts
  have htl : t.val < 25 := hN ▸ t.isLt
  funext j
  obtain ⟨r, q, rfl⟩ : ∃ (r : Fin 2000) (q : Fin 256), j = ix2 r q := ⟨j 0, j 1, eq_ix2 j⟩
  have hr : t.val * 2000 + r.val < 50000 := by have := r.isLt; omega
  show k1_pay1 (iblk1 V c 0 t) (iblk1 V c 1 t) (ix2 r q) = rowAct (V c main_v44) (V c main_v45) (((cfg1.win 2).blk t).view.emb (ix2 r q))
  have he : ((cfg1.win 2).blk t).view.emb (ix2 r q) = ix2 (⟨t.val * 2000 + r.val, hr⟩ : Fin 50000) q := by
    funext a; apply Fin.ext
    match a with
    | ⟨0, _⟩ => show win1_2.index t (0 : Fin 2) * 2000 + 1 * r.val = t.val * 2000 + r.val; omega
    | ⟨1, _⟩ => show win1_2.index t (1 : Fin 2) * 256 + 1 * q.val = q.val; omega
  rw [he]
  refine (pay_apply _ _ r q).trans ?_
  have h0 : ((cfg1.win 0).blk t).view.emb (ix2 r q) = ix2 (⟨t.val * 2000 + r.val, hr⟩ : Fin 50000) q := by
    funext a; apply Fin.ext
    match a with
    | ⟨0, _⟩ => show win1_0.index t (0 : Fin 2) * 2000 + 1 * r.val = t.val * 2000 + r.val; omega
    | ⟨1, _⟩ => show win1_0.index t (1 : Fin 2) * 256 + 1 * q.val = q.val; omega
  have h1 : ((cfg1.win 1).blk t).view.emb (ix2 (0 : Fin 1) q) = ix2 (0 : Fin 1) q := by
    funext a; apply Fin.ext
    match a with
    | ⟨0, _⟩ => show win1_1.index t (0 : Fin 2) * 1 + 1 * 0 = 0; omega
    | ⟨1, _⟩ => show win1_1.index t (1 : Fin 2) * 256 + 1 * q.val = q.val; omega
  have hA : iblk1 V c 0 t (ix2 r q) = (V c main_v44 : S50000x256.Idx → EReal) (ix2 (⟨t.val * 2000 + r.val, hr⟩ : Fin 50000) q) :=
    congrArg (V c main_v44 : S50000x256.Idx → EReal) h0
  have hB : iblk1 V c 1 t (ix2 (0 : Fin 1) q) = (V c main_v45 : S1x256.Idx → EReal) (ix2 (0 : Fin 1) q) :=
    congrArg (V c main_v45 : S1x256.Idx → EReal) h1
  rw [hA, hB]
  rfl

/-- An index of the result is in point `t`'s block iff each coordinate is in the block's range on its axis. -/
theorem mem_blk (t : Fin cfg1.N) (i : S50000x256.Idx) :
    i ∈ ((cfg1.win 2).blk t).view.set ↔ ∀ a : Fin 2, win1_2.index t a * S2000x256.size a ≤ (i a).val ∧ (i a).val < win1_2.index t a * S2000x256.size a + S2000x256.size a := by
  show i ∈ ((View.whole main_v46).slice (win1_2.rect t)).set ↔ _
  rw [View.set_slice_whole, Rect.mem_set_unit]
  exact Iff.rfl

/-- Every row of the result is in the block of the point numbered by the row's quotient by 2000. -/
theorem cover (i : S50000x256.Idx) : ∃ t : Fin cfg1.N, (cfg1.win 2).flush t = true ∧ i ∈ ((cfg1.win 2).blk t).view.set := by
  have hi0 : (i 0).val < 50000 := (i 0).isLt
  have hi1 : (i 1).val < 256 := (i 1).isLt
  have hN := npts
  let t : Fin cfg1.N := ⟨(i 0).val / 2000, by rw [hN]; omega⟩
  obtain ⟨e0, e1, e2, e3, e4, e5⟩ := idx_facts t
  have ht : t.val = (i 0).val / 2000 := rfl
  refine ⟨t, flush1_2 t, ?_⟩
  rw [mem_blk]
  intro a
  match a with
  | ⟨0, _⟩ => show win1_2.index t (0 : Fin 2) * 2000 ≤ (i 0).val ∧ (i 0).val < win1_2.index t (0 : Fin 2) * 2000 + 2000; omega
  | ⟨1, _⟩ => show win1_2.index t (1 : Fin 2) * 256 ≤ (i 1).val ∧ (i 1).val < win1_2.index t (1 : Fin 2) * 256 + 256; omega

/-- After the region its result array is the epilogue of the two arrays it found. -/
theorem final (c : Dev nD) : (dat1 V c).arrAt 2 cfg1.N = rowAct (V c main_v44) (V c main_v45) :=
  (dat1 V c).arrAt_eq_of_cover 2 _ (fun t _ => flushed_eq V c t) cover

/-- Over a bias row that is a reshaped vector, the epilogue is the host's: the vector laid over the rows, the sum clamped at zero. -/
theorem rowAct_reshape (A : S50000x256.Idx → EReal) (b : Cert.ReferenceIdeal.S256.Idx → EReal) (h : Cert.ReferenceIdeal.S256.ShapeCasts Cert.ReferenceIdeal.S1x256) :
    rowAct A (shapeCast Cert.ReferenceIdeal.S1x256 b h) = Cert.Spec.biasRelu (F := Ideal) A b := by
  funext i
  obtain ⟨r, q, rfl⟩ : ∃ (r : Fin 50000) (q : Fin 256), i = ix2 r q := ⟨i 0, i 1, eq_ix2 i⟩
  unfold Cert.Spec.biasRelu rowAct
  show max (A (ix2 r q) + shapeCast Cert.ReferenceIdeal.S1x256 b h (ix2 (0 : Fin 1) q)) (Ideal.ofBits .f32 0x00000000#32)
      = max (A (ix2 r q) + broadcastInDim Cert.ReferenceIdeal.S50000x256 ![0, 1] _ (broadcastInDim Cert.ReferenceIdeal.S1x256 ![1] _ b) (ix2 r q))
          (broadcastInDim Cert.ReferenceIdeal.S50000x256 ![] _ (constant (F := Ideal) Cert.ReferenceIdeal.S_ .f32 0x00000000#32) (ix2 r q))
  rw [shapeCast_a_1a_apply, Cert.RowBias.bias_rows_apply b _ rfl _ _ rfl rfl, broadcastInDim_scalar_apply]
  rfl

end Cert.KernelIdeal.Reg1

end
-- ==== Proof.Reg2.lean ====
/-
  Region 2: a matrix product tiled over rows.  Grid point `t` loads rows `t·2000 … t·2000+1999` of the left operand and the
  whole right operand, and stores their product (into a zero accumulator, the operands' change of float format the
  identity on the extended reals) as the same rows of the result.  Entry `(r, q)` of a block is the sum over the shared
  axis of `X (t·2000+r, k) · W (k, q)`, which is entry `(t·2000+r, q)` of the whole product; the 25 blocks tile the result,
  so after the region the result array IS the product of the two arrays the region found.
-/
import proofs.«154728_j29686813950829_1_alg».proof.Proof.Gen.KernelIdeal.Frame
import proofs.«154728_j29686813950829_1_alg».proof.Proof.Gen.ReferenceIdeal
import proofs.«154728_j29686813950829_1_alg».proof.Proof.Spec
import proofs.«154728_j29686813950829_1_alg».proof.Proof.LibMatRead
import proofs.«154728_j29686813950829_1_alg».proof.Proof.LibDotRead
import Idealize.ShloMosaic.Lib.Pipeline.Value

set_option maxRecDepth 16384

noncomputable section

namespace Cert.KernelIdeal.Reg2

open Cert.KernelIdeal Cert.KernelIdeal.Gen Idealize.ShloMosaic Idealize.ShloMosaic.TcCoe Idealize.SL.Sem Idealize.ShloMosaic.ValueIdx
open Idealize.ShloMosaic.Pipeline (Dat)
open scoped BigOperators

variable (V : (c : Dev nD) → (b : Ref sig .tc) → Buf (Elt Ideal) ((c : Thread nD τ).loc b))

theorem hz : (![0, 0] : Fin 2 → Nat) = fun _ => 0 := funext fun a => by fin_cases a <;> rfl

/-- The body's product at an entry of the block: a plain sum over the shared axis. -/
theorem pay_apply (x0 : Vec Ideal S2000x256 .f32) (x1 : Vec Ideal S256x256 .f32) (r : Fin 2000) (q : Fin 256) :
    k2_pay1 x0 x1 (ix2 r q) = ∑ k : Fin 256, x0 (ix2 r k) * x1 (ix2 k q) := by
  unfold k2_pay1
  refine (Cert.MatRead.matmul_row_col_apply dot_S2000x256_S256x256_S2000x256_1_0_0_1_n_n rfl rfl rfl rfl rfl rfl none _ _ r q).trans ?_
  refine Finset.sum_congr rfl fun k _ => ?_
  show shapeCast S2000x256 x0 shapeCasts_S2000x256_S2000x256 (ix2 r k) * x1 (ix2 k q) = _
  rw [shapeCast_self]

/-- The printed index maps over the grid: the left operand and the result move down one block per point, the right
    operand stays. -/
theorem idx_facts : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

theorem npts : cfg2.N = 25 := N_2

/-- What point `t` writes back is block `t` of the product of the two arrays as the region finds them. -/
theorem flushed_eq (c : Dev nD) (t : Fin cfg2.N) :
    (dat2 V c).flushed 2 t = ((cfg2.win 2).blk t).view.read (Elt Ideal) (Cert.Spec.lin2 (V c main_v46) (V c main_arg4)) := by
  show (cfg2.win 2).cut (grid2.coords t) ((dat2 V c).after 2 t) = _
  rw [after2_2]
  unfold out2_2
  rw [View.canon_unit_zero hz]
  simp only [View.ld_unit_zero (S := S2000x256) hz, View.ld_unit_zero (S := S256x256) hz]
  obtain ⟨e0, e1, e2, e3, e4, e5⟩ := idx_facts t
  have hN := npts
  have htl : t.val < 25 := hN ▸ t.isLt
  funext j
  obtain ⟨r, q, rfl⟩ : ∃ (r : Fin 2000) (q : Fin 256), j = ix2 r q := ⟨j 0, j 1, eq_ix2 j⟩
  have hr : t.val * 2000 + r.val < 50000 := by have := r.isLt; omega
  show k2_pay1 (iblk2 V c 0 t) (iblk2 V c 1 t) (ix2 r q) = Cert.Spec.lin2 (V c main_v46) (V c main_arg4) (((cfg2.win 2).blk t).view.emb (ix2 r q))
  have he : ((cfg2.win 2).blk t).view.emb (ix2 r q) = ix2 (⟨t.val * 2000 + r.val, hr⟩ : Fin 50000) q := by
    funext a; apply Fin.ext
    match a with
    | ⟨0, _⟩ => show win2_2.index t (0 : Fin 2) * 2000 + 1 * r.val = t.val * 2000 + r.val; omega
    | ⟨1, _⟩ => show win2_2.index t (1 : Fin 2) * 256 + 1 * q.val = q.val; omega
  rw [he]
  refine (pay_apply _ _ r q).trans ?_
  unfold Cert.Spec.lin2
  refine Eq.trans ?_ (Cert.DotRead.dot_row_col_apply Cert.ReferenceIdeal.dot_S50000x256_S256x256_S50000x256_1_0_0_1_n_n rfl rfl rfl rfl rfl rfl none _ _ _ _).symm
  refine Finset.sum_congr rfl fun k _ => ?_
  have h0 : ((cfg2.win 0).blk t).view.emb (ix2 r k) = ix2 (⟨t.val * 2000 + r.val, hr⟩ : Fin 50000) k := by
    funext a; apply Fin.ext
    match a with
    | ⟨0, _⟩ => show win2_0.index t (0 : Fin 2) * 2000 + 1 * r.val = t.val * 2000 + r.val; omega
    | ⟨1, _⟩ => show win2_0.index t (1 : Fin 2) * 256 + 1 * k.val = k.val; omega
  have h1 : ((cfg2.win 1).blk t).view.emb (ix2 k q) = ix2 k q := by
    funext a; apply Fin.ext
    match a with
    | ⟨0, _⟩ => show win2_1.index t (0 : Fin 2) * 256 + 1 * k.val = k.val; omega
    | ⟨1, _⟩ => show win2_1.index t (1 : Fin 2) * 256 + 1 * q.val = q.val; omega
  exact congrArg₂ (· * ·) (congrArg (V c main_v46 : S50000x256.Idx → EReal) h0) (congrArg (V c main_arg4 : S256x256.Idx → EReal) h1)

/-- An index of the result is in point `t`'s block iff each coordinate is in the block's range on its axis. -/
theorem mem_blk (t : Fin cfg2.N) (i : S50000x256.Idx) :
    i ∈ ((cfg2.win 2).blk t).view.set ↔ ∀ a : Fin 2, win2_2.index t a * S2000x256.size a ≤ (i a).val ∧ (i a).val < win2_2.index t a * S2000x256.size a + S2000x256.size a := by
  show i ∈ ((View.whole main_v47).slice (win2_2.rect t)).set ↔ _
  rw [View.set_slice_whole, Rect.mem_set_unit]
  exact Iff.rfl

/-- Every row of the result is in the block of the point numbered by the row's quotient by 2000. -/
theorem cover (i : S50000x256.Idx) : ∃ t : Fin cfg2.N, (cfg2.win 2).flush t = true ∧ i ∈ ((cfg2.win 2).blk t).view.set := by
  have hi0 : (i 0).val < 50000 := (i 0).isLt
  have hi1 : (i 1).val < 256 := (i 1).isLt
  have hN := npts
  let t : Fin cfg2.N := ⟨(i 0).val / 2000, by rw [hN]; omega⟩
  obtain ⟨e0, e1, e2, e3, e4, e5⟩ := idx_facts t
  have ht : t.val = (i 0).val / 2000 := rfl
  refine ⟨t, flush2_2 t, ?_⟩
  rw [mem_blk]
  intro a
  match a with
  | ⟨0, _⟩ => show win2_2.index t (0 : Fin 2) * 2000 ≤ (i 0).val ∧ (i 0).val < win2_2.index t (0 : Fin 2) * 2000 + 2000; omega
  | ⟨1, _⟩ => show win2_2.index t (1 : Fin 2) * 256 ≤ (i 1).val ∧ (i 1).val < win2_2.index t (1 : Fin 2) * 256 + 256; omega

/-- After the region its result array is the product of the two arrays it found. -/
theorem final (c : Dev nD) : (dat2 V c).arrAt 2 cfg2.N = Cert.Spec.lin2 (V c main_v46) (V c main_arg4) :=
  (dat2 V c).arrAt_eq_of_cover 2 _ (fun t _ => flushed_eq V c t) cover

end Cert.KernelIdeal.Reg2

end
-- ==== Proof.Reg3.lean ====
/-
  Region 3: a bias added to every row, then a clamp at zero from below, tiled over rows.  Grid point `t` loads rows
  `t·2000 … t·2000+1999` of the matrix and the one-row bias, and stores, at `(r, q)`, `max (A (t·2000+r, q) + B (0, q)) 0`: the
  same function of the array index in every block.  The 25 blocks tile the result, so after the region the result array
  is that function of the two arrays the region found; with the bias row a reshaped vector it is the host's epilogue.
-/
import proofs.«154728_j29686813950829_1_alg».proof.Proof.Gen.KernelIdeal.Frame
import proofs.«154728_j29686813950829_1_alg».proof.Proof.Gen.ReferenceIdeal
import proofs.«154728_j29686813950829_1_alg».proof.Proof.Spec
import proofs.«154728_j29686813950829_1_alg».proof.Proof.LibRowBias
import Idealize.ShloMosaic.Lib.Pipeline.Value
import Idealize.ShloMosaic.Lib.ValueLayout
import Idealize.ShloMosaic.Lib.IdealHost

set_option maxRecDepth 16384

noncomputable section

namespace Cert.KernelIdeal.Reg3

open Cert.KernelIdeal Cert.KernelIdeal.Gen Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The body's value at an entry of the block. -/
theorem pay_apply (x0 : Vec Ideal S2000x256 .f32) (x1 : Vec Ideal S1x256 .f32) (r : Fin 2000) (q : Fin 256) :
    k3_pay1 x0 x1 (ix2 r q) = max (x0 (ix2 r q) + x1 (ix2 (0 : Fin 1) q)) (Ideal.ofBits .f32 0x00000000#32) := by
  unfold k3_pay1
  show max (shapeCast S2000x256 x0 shapeCasts_S2000x256_S2000x256 (ix2 r q) + broadcastTo S2000x256 (shapeCast S1x256 x1 shapeCasts_S1x256_S1x256) broadcasts_S1x256_S2000x256 (ix2 r q)) (Ideal.ofBits .f32 0x00000000#32) = _
  rw [shapeCast_self, shapeCast_self, broadcastTo_1b_ab_apply]

/-- The row-wise epilogue over a one-row bias, as a function of the array index. -/
def rowAct (A : S50000x256.Idx → EReal) (B : S1x256.Idx → EReal) : S50000x256.Idx → EReal :=
  fun i => max (A i + B (ix2 (0 : Fin 1) (i 1))) (Ideal.ofBits .f32 0x00000000#32)

/-- The printed index maps over the grid: the matrix and the result move down one block per point, the bias stays. -/
theorem idx_facts : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = t.val ∧ win3_2.index t (1 : Fin 2) = 0 :=
  (by decide +kernel : ∀ t : Fin grid3.N, _)

theorem npts : cfg3.N = 25 := N_3

/-- What point `t` writes back is block `t` of the epilogue of the two arrays as the region finds them. -/
theorem flushed_eq (c : Dev nD) (t : Fin cfg3.N) :
    (dat3 V c).flushed 2 t = ((cfg3.win 2).blk t).view.read (Elt Ideal) (rowAct (V c main_v60) (V c main_v61)) := by
  show (cfg3.win 2).cut (grid3.coords t) ((dat3 V c).after 2 t) = _
  rw [after3_2]
  unfold out3_2
  rw [View.canon_unit_zero hz]
  simp only [View.ld_unit_zero (S := S2000x256) hz, View.ld_unit_zero (S := S1x256) hz]
  obtain ⟨e0, e1, e2, e3, e4, e5⟩ := idx_facts t
  have hN := npts
  have htl : t.val < 25 := hN ▸ t.isLt
  funext j
  obtain ⟨r, q, rfl⟩ : ∃ (r : Fin 2000) (q : Fin 256), j = ix2 r q := ⟨j 0, j 1, eq_ix2 j⟩
  have hr : t.val * 2000 + r.val < 50000 := by have := r.isLt; omega
  show k3_pay1 (iblk3 V c 0 t) (iblk3 V c 1 t) (ix2 r q) = rowAct (V c main_v60) (V c main_v61) (((cfg3.win 2).blk t).view.emb (ix2 r q))
  have he : ((cfg3.win 2).blk t).view.emb (ix2 r q) = ix2 (⟨t.val * 2000 + r.val, hr⟩ : Fin 50000) q := by
    funext a; apply Fin.ext
    match a with
    | ⟨0, _⟩ => show win3_2.index t (0 : Fin 2) * 2000 + 1 * r.val = t.val * 2000 + r.val; omega
    | ⟨1, _⟩ => show win3_2.index t (1 : Fin 2) * 256 + 1 * q.val = q.val; omega
  rw [he]
  refine (pay_apply _ _ r q).trans ?_
  have h0 : ((cfg3.win 0).blk t).view.emb (ix2 r q) = ix2 (⟨t.val * 2000 + r.val, hr⟩ : Fin 50000) q := by
    funext a; apply Fin.ext
    match a with
    | ⟨0, _⟩ => show win3_0.index t (0 : Fin 2) * 2000 + 1 * r.val = t.val * 2000 + r.val; omega
    | ⟨1, _⟩ => show win3_0.index t (1 : Fin 2) * 256 + 1 * q.val = q.val; omega
  have h1 : ((cfg3.win 1).blk t).view.emb (ix2 (0 : Fin 1) q) = ix2 (0 : Fin 1) q := by
    funext a; apply Fin.ext
    match a with
    | ⟨0, _⟩ => show win3_1.index t (0 : Fin 2) * 1 + 1 * 0 = 0; omega
    | ⟨1, _⟩ => show win3_1.index t (1 : Fin 2) * 256 + 1 * q.val = q.val; omega
  have hA : iblk3 V c 0 t (ix2 r q) = (V c main_v60 : S50000x256.Idx → EReal) (ix2 (⟨t.val * 2000 + r.val, hr⟩ : Fin 50000) q) :=
    congrArg (V c main_v60 : S50000x256.Idx → EReal) h0
  have hB : iblk3 V c 1 t (ix2 (0 : Fin 1) q) = (V c main_v61 : S1x256.Idx → EReal) (ix2 (0 : Fin 1) q) :=
    congrArg (V c main_v61 : S1x256.Idx → EReal) h1
  rw [hA, hB]
  rfl

/-- An index of the result is in point `t`'s block iff each coordinate is in the block's range on its axis. -/
theorem mem_blk (t : Fin cfg3.N) (i : S50000x256.Idx) :
    i ∈ ((cfg3.win 2).blk t).view.set ↔ ∀ a : Fin 2, win3_2.index t a * S2000x256.size a ≤ (i a).val ∧ (i a).val < win3_2.index t a * S2000x256.size a + S2000x256.size a := by
  show i ∈ ((View.whole main_v62).slice (win3_2.rect t)).set ↔ _
  rw [View.set_slice_whole, Rect.mem_set_unit]
  exact Iff.rfl

/-- Every row of the result is in the block of the point numbered by the row's quotient by 2000. -/
theorem cover (i : S50000x256.Idx) : ∃ t : Fin cfg3.N, (cfg3.win 2).flush t = true ∧ i ∈ ((cfg3.win 2).blk t).view.set := by
  have hi0 : (i 0).val < 50000 := (i 0).isLt
  have hi1 : (i 1).val < 256 := (i 1).isLt
  have hN := npts
  let t : Fin cfg3.N := ⟨(i 0).val / 2000, by rw [hN]; omega⟩
  obtain ⟨e0, e1, e2, e3, e4, e5⟩ := idx_facts t
  have ht : t.val = (i 0).val / 2000 := rfl
  refine ⟨t, flush3_2 t, ?_⟩
  rw [mem_blk]
  intro a
  match a with
  | ⟨0, _⟩ => show win3_2.index t (0 : Fin 2) * 2000 ≤ (i 0).val ∧ (i 0).val < win3_2.index t (0 : Fin 2) * 2000 + 2000; omega
  | ⟨1, _⟩ => show win3_2.index t (1 : Fin 2) * 256 ≤ (i 1).val ∧ (i 1).val < win3_2.index t (1 : Fin 2) * 256 + 256; omega

/-- After the region its result array is the epilogue of the two arrays it found. -/
theorem final (c : Dev nD) : (dat3 V c).arrAt 2 cfg3.N = rowAct (V c main_v60) (V c main_v61) :=
  (dat3 V c).arrAt_eq_of_cover 2 _ (fun t _ => flushed_eq V c t) cover

/-- Over a bias row that is a reshaped vector, the epilogue is the host's: the vector laid over the rows, the sum clamped at zero. -/
theorem rowAct_reshape (A : S50000x256.Idx → EReal) (b : Cert.ReferenceIdeal.S256.Idx → EReal) (h : Cert.ReferenceIdeal.S256.ShapeCasts Cert.ReferenceIdeal.S1x256) :
    rowAct A (shapeCast Cert.ReferenceIdeal.S1x256 b h) = Cert.Spec.biasRelu (F := Ideal) A b := by
  funext i
  obtain ⟨r, q, rfl⟩ : ∃ (r : Fin 50000) (q : Fin 256), i = ix2 r q := ⟨i 0, i 1, eq_ix2 i⟩
  unfold Cert.Spec.biasRelu rowAct
  show max (A (ix2 r q) + shapeCast Cert.ReferenceIdeal.S1x256 b h (ix2 (0 : Fin 1) q)) (Ideal.ofBits .f32 0x00000000#32)
      = max (A (ix2 r q) + broadcastInDim Cert.ReferenceIdeal.S50000x256 ![0, 1] _ (broadcastInDim Cert.ReferenceIdeal.S1x256 ![1] _ b) (ix2 r q))
          (broadcastInDim Cert.ReferenceIdeal.S50000x256 ![] _ (constant (F := Ideal) Cert.ReferenceIdeal.S_ .f32 0x00000000#32) (ix2 r q))
  rw [shapeCast_a_1a_apply, Cert.RowBias.bias_rows_apply b _ rfl _ _ rfl rfl, broadcastInDim_scalar_apply]
  rfl

end Cert.KernelIdeal.Reg3

end
-- ==== Proof.Reg4.lean ====
/-
  Region 4: a matrix product tiled over rows.  Grid point `t` loads rows `t·2000 … t·2000+1999` of the left operand and the
  whole right operand, and stores their product (into a zero accumulator, the operands' change of float format the
  identity on the extended reals) as the same rows of the result.  Entry `(r, q)` of a block is the sum over the shared
  axis of `X (t·2000+r, k) · W (k, q)`, which is entry `(t·2000+r, q)` of the whole product; the 25 blocks tile the result,
  so after the region the result array IS the product of the two arrays the region found.
-/
import proofs.«154728_j29686813950829_1_alg».proof.Proof.Gen.KernelIdeal.Frame
import proofs.«154728_j29686813950829_1_alg».proof.Proof.Gen.ReferenceIdeal
import proofs.«154728_j29686813950829_1_alg».proof.Proof.Spec
import proofs.«154728_j29686813950829_1_alg».proof.Proof.LibMatRead
import proofs.«154728_j29686813950829_1_alg».proof.Proof.LibDotRead
import Idealize.ShloMosaic.Lib.Pipeline.Value

set_option maxRecDepth 16384

noncomputable section

namespace Cert.KernelIdeal.Reg4

open Cert.KernelIdeal Cert.KernelIdeal.Gen Idealize.ShloMosaic Idealize.ShloMosaic.TcCoe Idealize.SL.Sem Idealize.ShloMosaic.ValueIdx
open Idealize.ShloMosaic.Pipeline (Dat)
open scoped BigOperators

variable (V : (c : Dev nD) → (b : Ref sig .tc) → Buf (Elt Ideal) ((c : Thread nD τ).loc b))

theorem hz : (![0, 0] : Fin 2 → Nat) = fun _ => 0 := funext fun a => by fin_cases a <;> rfl

/-- The body's product at an entry of the block: a plain sum over the shared axis. -/
theorem pay_apply (x0 : Vec Ideal S2000x256 .f32) (x1 : Vec Ideal S256x7 .f32) (r : Fin 2000) (q : Fin 7) :
    k4_pay1 x0 x1 (ix2 r q) = ∑ k : Fin 256, x0 (ix2 r k) * x1 (ix2 k q) := by
  unfold k4_pay1
  refine (Cert.MatRead.matmul_row_col_apply dot_S2000x256_S256x7_S2000x7_1_0_0_1_n_n rfl rfl rfl rfl rfl rfl none _ _ r q).trans ?_
  refine Finset.sum_congr rfl fun k _ => ?_
  show shapeCast S2000x256 x0 shapeCasts_S2000x256_S2000x256 (ix2 r k) * x1 (ix2 k q) = _
  rw [shapeCast_self]

/-- The printed index maps over the grid: the left operand and the result move down one block per point, the right
    operand stays. -/
theorem idx_facts : ∀ t : Fin cfg4.N, win4_0.index t (0 : Fin 2) = t.val ∧ win4_0.index t (1 : Fin 2) = 0
    ∧ win4_1.index t (0 : Fin 2) = 0 ∧ win4_1.index t (1 : Fin 2) = 0
    ∧ win4_2.index t (0 : Fin 2) = t.val ∧ win4_2.index t (1 : Fin 2) = 0 :=
  (by decide +kernel : ∀ t : Fin grid4.N, _)

theorem npts : cfg4.N = 25 := N_4

/-- What point `t` writes back is block `t` of the product of the two arrays as the region finds them. -/
theorem flushed_eq (c : Dev nD) (t : Fin cfg4.N) :
    (dat4 V c).flushed 2 t = ((cfg4.win 2).blk t).view.read (Elt Ideal) (Cert.Spec.lin3 (V c main_v62) (V c main_arg6)) := by
  show (cfg4.win 2).cut (grid4.coords t) ((dat4 V c).after 2 t) = _
  rw [after4_2]
  unfold out4_2
  rw [View.canon_unit_zero hz]
  simp only [View.ld_unit_zero (S := S2000x256) hz, View.ld_unit_zero (S := S256x7) hz]
  obtain ⟨e0, e1, e2, e3, e4, e5⟩ := idx_facts t
  have hN := npts
  have htl : t.val < 25 := hN ▸ t.isLt
  funext j
  obtain ⟨r, q, rfl⟩ : ∃ (r : Fin 2000) (q : Fin 7), j = ix2 r q := ⟨j 0, j 1, eq_ix2 j⟩
  have hr : t.val * 2000 + r.val < 50000 := by have := r.isLt; omega
  show k4_pay1 (iblk4 V c 0 t) (iblk4 V c 1 t) (ix2 r q) = Cert.Spec.lin3 (V c main_v62) (V c main_arg6) (((cfg4.win 2).blk t).view.emb (ix2 r q))
  have he : ((cfg4.win 2).blk t).view.emb (ix2 r q) = ix2 (⟨t.val * 2000 + r.val, hr⟩ : Fin 50000) q := by
    funext a; apply Fin.ext
    match a with
    | ⟨0, _⟩ => show win4_2.index t (0 : Fin 2) * 2000 + 1 * r.val = t.val * 2000 + r.val; omega
    | ⟨1, _⟩ => show win4_2.index t (1 : Fin 2) * 7 + 1 * q.val = q.val; omega
  rw [he]
  refine (pay_apply _ _ r q).trans ?_
  unfold Cert.Spec.lin3
  refine Eq.trans ?_ (Cert.DotRead.dot_row_col_apply Cert.ReferenceIdeal.dot_S50000x256_S256x7_S50000x7_1_0_0_1_n_n rfl rfl rfl rfl rfl rfl none _ _ _ _).symm
  refine Finset.sum_congr rfl fun k _ => ?_
  have h0 : ((cfg4.win 0).blk t).view.emb (ix2 r k) = ix2 (⟨t.val * 2000 + r.val, hr⟩ : Fin 50000) k := by
    funext a; apply Fin.ext
    match a with
    | ⟨0, _⟩ => show win4_0.index t (0 : Fin 2) * 2000 + 1 * r.val = t.val * 2000 + r.val; omega
    | ⟨1, _⟩ => show win4_0.index t (1 : Fin 2) * 256 + 1 * k.val = k.val; omega
  have h1 : ((cfg4.win 1).blk t).view.emb (ix2 k q) = ix2 k q := by
    funext a; apply Fin.ext
    match a with
    | ⟨0, _⟩ => show win4_1.index t (0 : Fin 2) * 256 + 1 * k.val = k.val; omega
    | ⟨1, _⟩ => show win4_1.index t (1 : Fin 2) * 7 + 1 * q.val = q.val; omega
  exact congrArg₂ (· * ·) (congrArg (V c main_v62 : S50000x256.Idx → EReal) h0) (congrArg (V c main_arg6 : S256x7.Idx → EReal) h1)

/-- An index of the result is in point `t`'s block iff each coordinate is in the block's range on its axis. -/
theorem mem_blk (t : Fin cfg4.N) (i : S50000x7.Idx) :
    i ∈ ((cfg4.win 2).blk t).view.set ↔ ∀ a : Fin 2, win4_2.index t a * S2000x7.size a ≤ (i a).val ∧ (i a).val < win4_2.index t a * S2000x7.size a + S2000x7.size a := by
  show i ∈ ((View.whole main_v63).slice (win4_2.rect t)).set ↔ _
  rw [View.set_slice_whole, Rect.mem_set_unit]
  exact Iff.rfl

/-- Every row of the result is in the block of the point numbered by the row's quotient by 2000. -/
theorem cover (i : S50000x7.Idx) : ∃ t : Fin cfg4.N, (cfg4.win 2).flush t = true ∧ i ∈ ((cfg4.win 2).blk t).view.set := by
  have hi0 : (i 0).val < 50000 := (i 0).isLt
  have hi1 : (i 1).val < 7 := (i 1).isLt
  have hN := npts
  let t : Fin cfg4.N := ⟨(i 0).val / 2000, by rw [hN]; omega⟩
  obtain ⟨e0, e1, e2, e3, e4, e5⟩ := idx_facts t
  have ht : t.val = (i 0).val / 2000 := rfl
  refine ⟨t, flush4_2 t, ?_⟩
  rw [mem_blk]
  intro a
  match a with
  | ⟨0, _⟩ => show win4_2.index t (0 : Fin 2) * 2000 ≤ (i 0).val ∧ (i 0).val < win4_2.index t (0 : Fin 2) * 2000 + 2000; omega
  | ⟨1, _⟩ => show win4_2.index t (1 : Fin 2) * 7 ≤ (i 1).val ∧ (i 1).val < win4_2.index t (1 : Fin 2) * 7 + 7; omega

/-- After the region its result array is the product of the two arrays it found. -/
theorem final (c : Dev nD) : (dat4 V c).arrAt 2 cfg4.N = Cert.Spec.lin3 (V c main_v62) (V c main_arg6) :=
  (dat4 V c).arrAt_eq_of_cover 2 _ (fun t _ => flushed_eq V c t) cover

end Cert.KernelIdeal.Reg4

end
-- ==== Proof.Reg5.lean ====
/-
  Region 5: a bias added to every row, tiled over rows.  Grid point `t` loads rows
  `t·2000 … t·2000+1999` of the matrix and the one-row bias, and stores, at `(r, q)`, `A (t·2000+r, q) + B (0, q)`: the
  same function of the array index in every block.  The 25 blocks tile the result, so after the region the result array
  is that function of the two arrays the region found; with the bias row a reshaped vector it is the host's epilogue.
-/
import proofs.«154728_j29686813950829_1_alg».proof.Proof.Gen.KernelIdeal.Frame
import proofs.«154728_j29686813950829_1_alg».proof.Proof.Gen.ReferenceIdeal
import proofs.«154728_j29686813950829_1_alg».proof.Proof.Spec
import proofs.«154728_j29686813950829_1_alg».proof.Proof.LibRowBias
import Idealize.ShloMosaic.Lib.Pipeline.Value
import Idealize.ShloMosaic.Lib.ValueLayout
import Idealize.ShloMosaic.Lib.IdealHost

set_option maxRecDepth 16384

noncomputable section

namespace Cert.KernelIdeal.Reg5

open Cert.KernelIdeal Cert.KernelIdeal.Gen Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The body's value at an entry of the block. -/
theorem pay_apply (x0 : Vec Ideal S2000x7 .f32) (x1 : Vec Ideal S1x7 .f32) (r : Fin 2000) (q : Fin 7) :
    k5_pay1 x0 x1 (ix2 r q) = x0 (ix2 r q) + x1 (ix2 (0 : Fin 1) q) := by
  unfold k5_pay1
  show shapeCast S2000x7 x0 shapeCasts_S2000x7_S2000x7 (ix2 r q) + broadcastTo S2000x7 (shapeCast S1x7 x1 shapeCasts_S1x7_S1x7) broadcasts_S1x7_S2000x7 (ix2 r q) = _
  rw [shapeCast_self, shapeCast_self, broadcastTo_1b_ab_apply]

/-- The row-wise epilogue over a one-row bias, as a function of the array index. -/
def rowAct (A : S50000x7.Idx → EReal) (B : S1x7.Idx → EReal) : S50000x7.Idx → EReal :=
  fun i => A i + B (ix2 (0 : Fin 1) (i 1))

/-- The printed index maps over the grid: the matrix and the result move down one block per point, the bias stays. -/
theorem idx_facts : ∀ t : Fin cfg5.N, win5_0.index t (0 : Fin 2) = t.val ∧ win5_0.index t (1 : Fin 2) = 0
    ∧ win5_1.index t (0 : Fin 2) = 0 ∧ win5_1.index t (1 : Fin 2) = 0
    ∧ win5_2.index t (0 : Fin 2) = t.val ∧ win5_2.index t (1 : Fin 2) = 0 :=
  (by decide +kernel : ∀ t : Fin grid5.N, _)

theorem npts : cfg5.N = 25 := N_5

/-- What point `t` writes back is block `t` of the epilogue of the two arrays as the region finds them. -/
theorem flushed_eq (c : Dev nD) (t : Fin cfg5.N) :
    (dat5 V c).flushed 2 t = ((cfg5.win 2).blk t).view.read (Elt Ideal) (rowAct (V c main_v76) (V c main_v77)) := by
  show (cfg5.win 2).cut (grid5.coords t) ((dat5 V c).after 2 t) = _
  rw [after5_2]
  unfold out5_2
  rw [View.canon_unit_zero hz]
  simp only [View.ld_unit_zero (S := S2000x7) hz, View.ld_unit_zero (S := S1x7) hz]
  obtain ⟨e0, e1, e2, e3, e4, e5⟩ := idx_facts t
  have hN := npts
  have htl : t.val < 25 := hN ▸ t.isLt
  funext j
  obtain ⟨r, q, rfl⟩ : ∃ (r : Fin 2000) (q : Fin 7), j = ix2 r q := ⟨j 0, j 1, eq_ix2 j⟩
  have hr : t.val * 2000 + r.val < 50000 := by have := r.isLt; omega
  show k5_pay1 (iblk5 V c 0 t) (iblk5 V c 1 t) (ix2 r q) = rowAct (V c main_v76) (V c main_v77) (((cfg5.win 2).blk t).view.emb (ix2 r q))
  have he : ((cfg5.win 2).blk t).view.emb (ix2 r q) = ix2 (⟨t.val * 2000 + r.val, hr⟩ : Fin 50000) q := by
    funext a; apply Fin.ext
    match a with
    | ⟨0, _⟩ => show win5_2.index t (0 : Fin 2) * 2000 + 1 * r.val = t.val * 2000 + r.val; omega
    | ⟨1, _⟩ => show win5_2.index t (1 : Fin 2) * 7 + 1 * q.val = q.val; omega
  rw [he]
  refine (pay_apply _ _ r q).trans ?_
  have h0 : ((cfg5.win 0).blk t).view.emb (ix2 r q) = ix2 (⟨t.val * 2000 + r.val, hr⟩ : Fin 50000) q := by
    funext a; apply Fin.ext
    match a with
    | ⟨0, _⟩ => show win5_0.index t (0 : Fin 2) * 2000 + 1 * r.val = t.val * 2000 + r.val; omega
    | ⟨1, _⟩ => show win5_0.index t (1 : Fin 2) * 7 + 1 * q.val = q.val; omega
  have h1 : ((cfg5.win 1).blk t).view.emb (ix2 (0 : Fin 1) q) = ix2 (0 : Fin 1) q := by
    funext a; apply Fin.ext
    match a with
    | ⟨0, _⟩ => show win5_1.index t (0 : Fin 2) * 1 + 1 * 0 = 0; omega
    | ⟨1, _⟩ => show win5_1.index t (1 : Fin 2) * 7 + 1 * q.val = q.val; omega
  have hA : iblk5 V c 0 t (ix2 r q) = (V c main_v76 : S50000x7.Idx → EReal) (ix2 (⟨t.val * 2000 + r.val, hr⟩ : Fin 50000) q) :=
    congrArg (V c main_v76 : S50000x7.Idx → EReal) h0
  have hB : iblk5 V c 1 t (ix2 (0 : Fin 1) q) = (V c main_v77 : S1x7.Idx → EReal) (ix2 (0 : Fin 1) q) :=
    congrArg (V c main_v77 : S1x7.Idx → EReal) h1
  rw [hA, hB]
  rfl

/-- An index of the result is in point `t`'s block iff each coordinate is in the block's range on its axis. -/
theorem mem_blk (t : Fin cfg5.N) (i : S50000x7.Idx) :
    i ∈ ((cfg5.win 2).blk t).view.set ↔ ∀ a : Fin 2, win5_2.index t a * S2000x7.size a ≤ (i a).val ∧ (i a).val < win5_2.index t a * S2000x7.size a + S2000x7.size a := by
  show i ∈ ((View.whole main_v78).slice (win5_2.rect t)).set ↔ _
  rw [View.set_slice_whole, Rect.mem_set_unit]
  exact Iff.rfl

/-- Every row of the result is in the block of the point numbered by the row's quotient by 2000. -/
theorem cover (i : S50000x7.Idx) : ∃ t : Fin cfg5.N, (cfg5.win 2).flush t = true ∧ i ∈ ((cfg5.win 2).blk t).view.set := by
  have hi0 : (i 0).val < 50000 := (i 0).isLt
  have hi1 : (i 1).val < 7 := (i 1).isLt
  have hN := npts
  let t : Fin cfg5.N := ⟨(i 0).val / 2000, by rw [hN]; omega⟩
  obtain ⟨e0, e1, e2, e3, e4, e5⟩ := idx_facts t
  have ht : t.val = (i 0).val / 2000 := rfl
  refine ⟨t, flush5_2 t, ?_⟩
  rw [mem_blk]
  intro a
  match a with
  | ⟨0, _⟩ => show win5_2.index t (0 : Fin 2) * 2000 ≤ (i 0).val ∧ (i 0).val < win5_2.index t (0 : Fin 2) * 2000 + 2000; omega
  | ⟨1, _⟩ => show win5_2.index t (1 : Fin 2) * 7 ≤ (i 1).val ∧ (i 1).val < win5_2.index t (1 : Fin 2) * 7 + 7; omega

/-- After the region its result array is the epilogue of the two arrays it found. -/
theorem final (c : Dev nD) : (dat5 V c).arrAt 2 cfg5.N = rowAct (V c main_v76) (V c main_v77) :=
  (dat5 V c).arrAt_eq_of_cover 2 _ (fun t _ => flushed_eq V c t) cover

/-- Over a bias row that is a reshaped vector, the epilogue is the host's: the vector laid over the rows. -/
theorem rowAct_reshape (A : S50000x7.Idx → EReal) (b : Cert.ReferenceIdeal.S7.Idx → EReal) (h : Cert.ReferenceIdeal.S7.ShapeCasts Cert.ReferenceIdeal.S1x7) :
    rowAct A (shapeCast Cert.ReferenceIdeal.S1x7 b h) = Cert.Spec.bias7 (F := Ideal) A b := by
  funext i
  obtain ⟨r, q, rfl⟩ : ∃ (r : Fin 50000) (q : Fin 7), i = ix2 r q := ⟨i 0, i 1, eq_ix2 i⟩
  unfold Cert.Spec.bias7 rowAct
  show A (ix2 r q) + shapeCast Cert.ReferenceIdeal.S1x7 b h (ix2 (0 : Fin 1) q)
      = A (ix2 r q) + broadcastInDim Cert.ReferenceIdeal.S50000x7 ![0, 1] _ (broadcastInDim Cert.ReferenceIdeal.S1x7 ![1] _ b) (ix2 r q)
  rw [shapeCast_a_1a_apply, Cert.RowBias.bias_rows_apply b _ rfl _ _ rfl rfl]

end Cert.KernelIdeal.Reg5

end
-- ==== Proof.LibTRef.lean ====
/-
  A typed reference's two transports cancel: contents carried to the buffer's own type and back are the contents.
-/
import Idealize.ShloMosaic.Lib.StableHlo

noncomputable section

namespace Idealize.ShloMosaic.StableHlo.TRef

variable {sig : RefSig} {Val : EltTy → Type} {T : BufTy}

/-- Carrying contents to the buffer's type and back is the identity. -/
theorem ofBuf_toBuf (x : TRef sig T) (v : T.Contents Val) : x.ofBuf (x.toBuf v) = v := by
  obtain ⟨r, h, _, _⟩ := x; subst h; rfl

/-- Carrying contents from the buffer's type and back is the identity. -/
theorem toBuf_ofBuf (x : TRef sig T) (v : x.ref.ty.Contents Val) : x.toBuf (x.ofBuf v) = v := by
  obtain ⟨r, h, _, _⟩ := x; subst h; rfl

end Idealize.ShloMosaic.StableHlo.TRef
-- ==== Proof.KChain.lean ====
/-
  The kernel program's result buffer, read back through the chain of boundaries.  Between regions the host
  operations are the reference's own (the edge weights; per layer a row gather, a scaling and a scatter-add; at the end
  the log-softmax), so each stretch's results are the network's stages of the contents it starts from; each region's
  result array is the product, or the row-wise epilogue, of the arrays it finds (the six region modules); every other
  buffer passes a region or a stretch unchanged unless written.  Composed from the launch memory, the result buffer
  holds `Spec.net` of the argument arrays.
-/
import proofs.«154728_j29686813950829_1_alg».proof.Proof.Reg0
import proofs.«154728_j29686813950829_1_alg».proof.Proof.Reg1
import proofs.«154728_j29686813950829_1_alg».proof.Proof.Reg2
import proofs.«154728_j29686813950829_1_alg».proof.Proof.Reg3
import proofs.«154728_j29686813950829_1_alg».proof.Proof.Reg4
import proofs.«154728_j29686813950829_1_alg».proof.Proof.Reg5
import proofs.«154728_j29686813950829_1_alg».proof.Proof.LibTRef
import Idealize.ShloMosaic.Lib.StableHlo.Run

set_option maxRecDepth 16384

noncomputable section

namespace Cert.KernelIdeal.KChain

open Cert.KernelIdeal Cert.KernelIdeal.Gen Idealize.ShloMosaic Idealize.ShloMosaic.TcCoe Idealize.SL.Sem Idealize.ShloMosaic.StableHlo

/-! ## The host stretches, from any contents -/

section Stretches
variable {F : FTy → Type} [FloatOps F]

/-! ### Before region 0: the edge weights -/

theorem k0_v3 (W : Valuation τ sig (Elt F)) : StableHlo.after (hostOps0_2 (F := F)) (StableHlo.after hostOps0_1 (StableHlo.after hostOps0 W)) (Proc.devRef .tc main_v3) = Cert.Spec.rowOf (W (Proc.devRef .tc main_arg1)) := by
  after_results_simp
  rfl
theorem k0_v7 (W : Valuation τ sig (Elt F)) : StableHlo.after (hostOps0_2 (F := F)) (StableHlo.after hostOps0_1 (StableHlo.after hostOps0 W)) (Proc.devRef .tc main_v7) = Cert.Spec.colOf (W (Proc.devRef .tc main_arg1)) := by
  after_results_simp
  rfl
set_option maxHeartbeats 4000000 in
theorem k0_v30 (W : Valuation τ sig (Elt F)) : StableHlo.after (hostOps0_2 (F := F)) (StableHlo.after hostOps0_1 (StableHlo.after hostOps0 W)) (Proc.devRef .tc main_v30)
    = Cert.Spec.normOf (Cert.Spec.rowOf (W (Proc.devRef .tc main_arg1))) (Cert.Spec.colOf (W (Proc.devRef .tc main_arg1))) := by
  after_results_simp
  rfl
theorem k0_arg0 (W : Valuation τ sig (Elt F)) : StableHlo.after (hostOps0_2 (F := F)) (StableHlo.after hostOps0_1 (StableHlo.after hostOps0 W)) (Proc.devRef .tc main_arg0) = W (Proc.devRef .tc main_arg0) := by
  after_results_simp
theorem k0_arg2 (W : Valuation τ sig (Elt F)) : StableHlo.after (hostOps0_2 (F := F)) (StableHlo.after hostOps0_1 (StableHlo.after hostOps0 W)) (Proc.devRef .tc main_arg2) = W (Proc.devRef .tc main_arg2) := by
  after_results_simp
theorem k0_arg3 (W : Valuation τ sig (Elt F)) : StableHlo.after (hostOps0_2 (F := F)) (StableHlo.after hostOps0_1 (StableHlo.after hostOps0 W)) (Proc.devRef .tc main_arg3) = W (Proc.devRef .tc main_arg3) := by
  after_results_simp
theorem k0_arg4 (W : Valuation τ sig (Elt F)) : StableHlo.after (hostOps0_2 (F := F)) (StableHlo.after hostOps0_1 (StableHlo.after hostOps0 W)) (Proc.devRef .tc main_arg4) = W (Proc.devRef .tc main_arg4) := by
  after_results_simp
theorem k0_arg5 (W : Valuation τ sig (Elt F)) : StableHlo.after (hostOps0_2 (F := F)) (StableHlo.after hostOps0_1 (StableHlo.after hostOps0 W)) (Proc.devRef .tc main_arg5) = W (Proc.devRef .tc main_arg5) := by
  after_results_simp
theorem k0_arg6 (W : Valuation τ sig (Elt F)) : StableHlo.after (hostOps0_2 (F := F)) (StableHlo.after hostOps0_1 (StableHlo.after hostOps0 W)) (Proc.devRef .tc main_arg6) = W (Proc.devRef .tc main_arg6) := by
  after_results_simp
theorem k0_arg7 (W : Valuation τ sig (Elt F)) : StableHlo.after (hostOps0_2 (F := F)) (StableHlo.after hostOps0_1 (StableHlo.after hostOps0 W)) (Proc.devRef .tc main_arg7) = W (Proc.devRef .tc main_arg7) := by
  after_results_simp

/-! ### Between regions 0 and 1: the first aggregation, and the bias as a row -/

theorem k1_v44 (W : Valuation τ sig (Elt F)) : StableHlo.after (hostOps1 (F := F)) W (Proc.devRef .tc main_v44)
    = Cert.Spec.agg256 (W (Proc.devRef .tc main_v31)) (W (Proc.devRef .tc main_v3)) (W (Proc.devRef .tc main_v7)) (W (Proc.devRef .tc main_v30)) := by
  after_results_simp
  rfl
theorem k1_v45 (W : Valuation τ sig (Elt F)) : StableHlo.after (hostOps1 (F := F)) W (Proc.devRef .tc main_v45)
    = shapeCast S1x256 (W (Proc.devRef .tc main_arg3)) shapeCasts_S256_S1x256 := by
  after_results_simp
  rfl
theorem k1_v3 (W : Valuation τ sig (Elt F)) : StableHlo.after (hostOps1 (F := F)) W (Proc.devRef .tc main_v3) = W (Proc.devRef .tc main_v3) := by
  after_results_simp
theorem k1_v7 (W : Valuation τ sig (Elt F)) : StableHlo.after (hostOps1 (F := F)) W (Proc.devRef .tc main_v7) = W (Proc.devRef .tc main_v7) := by
  after_results_simp
theorem k1_v30 (W : Valuation τ sig (Elt F)) : StableHlo.after (hostOps1 (F := F)) W (Proc.devRef .tc main_v30) = W (Proc.devRef .tc main_v30) := by
  after_results_simp
theorem k1_arg4 (W : Valuation τ sig (Elt F)) : StableHlo.after (hostOps1 (F := F)) W (Proc.devRef .tc main_arg4) = W (Proc.devRef .tc main_arg4) := by
  after_results_simp
theorem k1_arg5 (W : Valuation τ sig (Elt F)) : StableHlo.after (hostOps1 (F := F)) W (Proc.devRef .tc main_arg5) = W (Proc.devRef .tc main_arg5) := by
  after_results_simp
theorem k1_arg6 (W : Valuation τ sig (Elt F)) : StableHlo.after (hostOps1 (F := F)) W (Proc.devRef .tc main_arg6) = W (Proc.devRef .tc main_arg6) := by
  after_results_simp
theorem k1_arg7 (W : Valuation τ sig (Elt F)) : StableHlo.after (hostOps1 (F := F)) W (Proc.devRef .tc main_arg7) = W (Proc.devRef .tc main_arg7) := by
  after_results_simp

/-! ### Between regions 2 and 3 -/

theorem k3_v60 (W : Valuation τ sig (Elt F)) : StableHlo.after (hostOps3 (F := F)) W (Proc.devRef .tc main_v60)
    = Cert.Spec.agg256 (W (Proc.devRef .tc main_v47)) (W (Proc.devRef .tc main_v3)) (W (Proc.devRef .tc main_v7)) (W (Proc.devRef .tc main_v30)) := by
  after_results_simp
  rfl
theorem k3_v61 (W : Valuation τ sig (Elt F)) : StableHlo.after (hostOps3 (F := F)) W (Proc.devRef .tc main_v61)
    = shapeCast S1x256 (W (Proc.devRef .tc main_arg5)) shapeCasts_S256_S1x256 := by
  after_results_simp
  rfl
theorem k3_v3 (W : Valuation τ sig (Elt F)) : StableHlo.after (hostOps3 (F := F)) W (Proc.devRef .tc main_v3) = W (Proc.devRef .tc main_v3) := by
  after_results_simp
theorem k3_v7 (W : Valuation τ sig (Elt F)) : StableHlo.after (hostOps3 (F := F)) W (Proc.devRef .tc main_v7) = W (Proc.devRef .tc main_v7) := by
  after_results_simp
theorem k3_v30 (W : Valuation τ sig (Elt F)) : StableHlo.after (hostOps3 (F := F)) W (Proc.devRef .tc main_v30) = W (Proc.devRef .tc main_v30) := by
  after_results_simp
theorem k3_arg6 (W : Valuation τ sig (Elt F)) : StableHlo.after (hostOps3 (F := F)) W (Proc.devRef .tc main_arg6) = W (Proc.devRef .tc main_arg6) := by
  after_results_simp
theorem k3_arg7 (W : Valuation τ sig (Elt F)) : StableHlo.after (hostOps3 (F := F)) W (Proc.devRef .tc main_arg7) = W (Proc.devRef .tc main_arg7) := by
  after_results_simp

/-! ### Between regions 4 and 5 -/

theorem k5_v76 (W : Valuation τ sig (Elt F)) : StableHlo.after (hostOps5 (F := F)) W (Proc.devRef .tc main_v76)
    = Cert.Spec.agg7 (W (Proc.devRef .tc main_v63)) (W (Proc.devRef .tc main_v3)) (W (Proc.devRef .tc main_v7)) (W (Proc.devRef .tc main_v30)) := by
  after_results_simp
  rfl
theorem k5_v77 (W : Valuation τ sig (Elt F)) : StableHlo.after (hostOps5 (F := F)) W (Proc.devRef .tc main_v77)
    = shapeCast S1x7 (W (Proc.devRef .tc main_arg7)) shapeCasts_S7_S1x7 := by
  after_results_simp
  rfl

/-! ### After region 5: the log-softmax -/

theorem k6_v79 (W : Valuation τ sig (Elt F)) : StableHlo.after (hostOps6 (F := F)) W (Proc.devRef .tc main_v79) = Cert.Spec.logSoftmax (W (Proc.devRef .tc main_v78)) := by
  after_results_simp
  simp only [TRef.ofBuf_toBuf]
  rfl

end Stretches

/-! ## The regions, at the run's boundaries -/

variable (m : (ℓ : Loc nD τ sig) → Buf (Elt Ideal) ℓ) (ρ : Dev nD → PrngReg) (c : Dev nD)

theorem r0_v31 : (W4 m ρ c (Proc.devRef .tc main_v31)) = Cert.Spec.lin1 (StableHlo.after hostOps0_2 (StableHlo.after hostOps0_1 (StableHlo.after hostOps0 (W0 m ρ c))) (Proc.devRef .tc main_arg0)) (StableHlo.after hostOps0_2 (StableHlo.after hostOps0_1 (StableHlo.after hostOps0 (W0 m ρ c))) (Proc.devRef .tc main_arg2)) :=
  (W4_arr m ρ c 2).trans (Reg0.final (V3 m ρ) c)
theorem r0_v3 : (W4 m ρ c (Proc.devRef .tc main_v3)) = (StableHlo.after hostOps0_2 (StableHlo.after hostOps0_1 (StableHlo.after hostOps0 (W0 m ρ c))) (Proc.devRef .tc main_v3)) := W4_of_ne m ρ c main_v3 (by decide)
theorem r0_v7 : (W4 m ρ c (Proc.devRef .tc main_v7)) = (StableHlo.after hostOps0_2 (StableHlo.after hostOps0_1 (StableHlo.after hostOps0 (W0 m ρ c))) (Proc.devRef .tc main_v7)) := W4_of_ne m ρ c main_v7 (by decide)
theorem r0_v30 : (W4 m ρ c (Proc.devRef .tc main_v30)) = (StableHlo.after hostOps0_2 (StableHlo.after hostOps0_1 (StableHlo.after hostOps0 (W0 m ρ c))) (Proc.devRef .tc main_v30)) := W4_of_ne m ρ c main_v30 (by decide)
theorem r0_arg3 : (W4 m ρ c (Proc.devRef .tc main_arg3)) = (StableHlo.after hostOps0_2 (StableHlo.after hostOps0_1 (StableHlo.after hostOps0 (W0 m ρ c))) (Proc.devRef .tc main_arg3)) := W4_of_ne m ρ c main_arg3 (by decide)
theorem r0_arg4 : (W4 m ρ c (Proc.devRef .tc main_arg4)) = (StableHlo.after hostOps0_2 (StableHlo.after hostOps0_1 (StableHlo.after hostOps0 (W0 m ρ c))) (Proc.devRef .tc main_arg4)) := W4_of_ne m ρ c main_arg4 (by decide)
theorem r0_arg5 : (W4 m ρ c (Proc.devRef .tc main_arg5)) = (StableHlo.after hostOps0_2 (StableHlo.after hostOps0_1 (StableHlo.after hostOps0 (W0 m ρ c))) (Proc.devRef .tc main_arg5)) := W4_of_ne m ρ c main_arg5 (by decide)
theorem r0_arg6 : (W4 m ρ c (Proc.devRef .tc main_arg6)) = (StableHlo.after hostOps0_2 (StableHlo.after hostOps0_1 (StableHlo.after hostOps0 (W0 m ρ c))) (Proc.devRef .tc main_arg6)) := W4_of_ne m ρ c main_arg6 (by decide)
theorem r0_arg7 : (W4 m ρ c (Proc.devRef .tc main_arg7)) = (StableHlo.after hostOps0_2 (StableHlo.after hostOps0_1 (StableHlo.after hostOps0 (W0 m ρ c))) (Proc.devRef .tc main_arg7)) := W4_of_ne m ρ c main_arg7 (by decide)

theorem r1_v46 : (W6 m ρ c (Proc.devRef .tc main_v46)) = Reg1.rowAct (StableHlo.after hostOps1 (W4 m ρ c) (Proc.devRef .tc main_v44)) (StableHlo.after hostOps1 (W4 m ρ c) (Proc.devRef .tc main_v45)) :=
  (W6_arr m ρ c 2).trans (Reg1.final (V5 m ρ) c)
theorem r1_v3 : (W6 m ρ c (Proc.devRef .tc main_v3)) = (StableHlo.after hostOps1 (W4 m ρ c) (Proc.devRef .tc main_v3)) := W6_of_ne m ρ c main_v3 (by decide)
theorem r1_v7 : (W6 m ρ c (Proc.devRef .tc main_v7)) = (StableHlo.after hostOps1 (W4 m ρ c) (Proc.devRef .tc main_v7)) := W6_of_ne m ρ c main_v7 (by decide)
theorem r1_v30 : (W6 m ρ c (Proc.devRef .tc main_v30)) = (StableHlo.after hostOps1 (W4 m ρ c) (Proc.devRef .tc main_v30)) := W6_of_ne m ρ c main_v30 (by decide)
theorem r1_arg4 : (W6 m ρ c (Proc.devRef .tc main_arg4)) = (StableHlo.after hostOps1 (W4 m ρ c) (Proc.devRef .tc main_arg4)) := W6_of_ne m ρ c main_arg4 (by decide)
theorem r1_arg5 : (W6 m ρ c (Proc.devRef .tc main_arg5)) = (StableHlo.after hostOps1 (W4 m ρ c) (Proc.devRef .tc main_arg5)) := W6_of_ne m ρ c main_arg5 (by decide)
theorem r1_arg6 : (W6 m ρ c (Proc.devRef .tc main_arg6)) = (StableHlo.after hostOps1 (W4 m ρ c) (Proc.devRef .tc main_arg6)) := W6_of_ne m ρ c main_arg6 (by decide)
theorem r1_arg7 : (W6 m ρ c (Proc.devRef .tc main_arg7)) = (StableHlo.after hostOps1 (W4 m ρ c) (Proc.devRef .tc main_arg7)) := W6_of_ne m ρ c main_arg7 (by decide)

theorem r2_v47 : (W7 m ρ c (Proc.devRef .tc main_v47)) = Cert.Spec.lin2 (W6 m ρ c (Proc.devRef .tc main_v46)) (W6 m ρ c (Proc.devRef .tc main_arg4)) :=
  (W7_arr m ρ c 2).trans (Reg2.final (V6 m ρ) c)
theorem r2_v3 : (W7 m ρ c (Proc.devRef .tc main_v3)) = (W6 m ρ c (Proc.devRef .tc main_v3)) := W7_of_ne m ρ c main_v3 (by decide)
theorem r2_v7 : (W7 m ρ c (Proc.devRef .tc main_v7)) = (W6 m ρ c (Proc.devRef .tc main_v7)) := W7_of_ne m ρ c main_v7 (by decide)
theorem r2_v30 : (W7 m ρ c (Proc.devRef .tc main_v30)) = (W6 m ρ c (Proc.devRef .tc main_v30)) := W7_of_ne m ρ c main_v30 (by decide)
theorem r2_arg5 : (W7 m ρ c (Proc.devRef .tc main_arg5)) = (W6 m ρ c (Proc.devRef .tc main_arg5)) := W7_of_ne m ρ c main_arg5 (by decide)
theorem r2_arg6 : (W7 m ρ c (Proc.devRef .tc main_arg6)) = (W6 m ρ c (Proc.devRef .tc main_arg6)) := W7_of_ne m ρ c main_arg6 (by decide)
theorem r2_arg7 : (W7 m ρ c (Proc.devRef .tc main_arg7)) = (W6 m ρ c (Proc.devRef .tc main_arg7)) := W7_of_ne m ρ c main_arg7 (by decide)

theorem r3_v62 : (W9 m ρ c (Proc.devRef .tc main_v62)) = Reg3.rowAct (StableHlo.after hostOps3 (W7 m ρ c) (Proc.devRef .tc main_v60)) (StableHlo.after hostOps3 (W7 m ρ c) (Proc.devRef .tc main_v61)) :=
  (W9_arr m ρ c 2).trans (Reg3.final (V8 m ρ) c)
theorem r3_v3 : (W9 m ρ c (Proc.devRef .tc main_v3)) = (StableHlo.after hostOps3 (W7 m ρ c) (Proc.devRef .tc main_v3)) := W9_of_ne m ρ c main_v3 (by decide)
theorem r3_v7 : (W9 m ρ c (Proc.devRef .tc main_v7)) = (StableHlo.after hostOps3 (W7 m ρ c) (Proc.devRef .tc main_v7)) := W9_of_ne m ρ c main_v7 (by decide)
theorem r3_v30 : (W9 m ρ c (Proc.devRef .tc main_v30)) = (StableHlo.after hostOps3 (W7 m ρ c) (Proc.devRef .tc main_v30)) := W9_of_ne m ρ c main_v30 (by decide)
theorem r3_arg6 : (W9 m ρ c (Proc.devRef .tc main_arg6)) = (StableHlo.after hostOps3 (W7 m ρ c) (Proc.devRef .tc main_arg6)) := W9_of_ne m ρ c main_arg6 (by decide)
theorem r3_arg7 : (W9 m ρ c (Proc.devRef .tc main_arg7)) = (StableHlo.after hostOps3 (W7 m ρ c) (Proc.devRef .tc main_arg7)) := W9_of_ne m ρ c main_arg7 (by decide)

theorem r4_v63 : (W10 m ρ c (Proc.devRef .tc main_v63)) = Cert.Spec.lin3 (W9 m ρ c (Proc.devRef .tc main_v62)) (W9 m ρ c (Proc.devRef .tc main_arg6)) :=
  (W10_arr m ρ c 2).trans (Reg4.final (V9 m ρ) c)
theorem r4_v3 : (W10 m ρ c (Proc.devRef .tc main_v3)) = (W9 m ρ c (Proc.devRef .tc main_v3)) := W10_of_ne m ρ c main_v3 (by decide)
theorem r4_v7 : (W10 m ρ c (Proc.devRef .tc main_v7)) = (W9 m ρ c (Proc.devRef .tc main_v7)) := W10_of_ne m ρ c main_v7 (by decide)
theorem r4_v30 : (W10 m ρ c (Proc.devRef .tc main_v30)) = (W9 m ρ c (Proc.devRef .tc main_v30)) := W10_of_ne m ρ c main_v30 (by decide)
theorem r4_arg7 : (W10 m ρ c (Proc.devRef .tc main_arg7)) = (W9 m ρ c (Proc.devRef .tc main_arg7)) := W10_of_ne m ρ c main_arg7 (by decide)

theorem r5_v78 : (W12 m ρ c (Proc.devRef .tc main_v78)) = Reg5.rowAct (StableHlo.after hostOps5 (W10 m ρ c) (Proc.devRef .tc main_v76)) (StableHlo.after hostOps5 (W10 m ρ c) (Proc.devRef .tc main_v77)) :=
  (W12_arr m ρ c 2).trans (Reg5.final (V11 m ρ) c)

/-! ## The result -/

set_option maxHeartbeats 4000000 in
/-- The result buffer at the last boundary is the network of the argument arrays as launched. -/
theorem result_eq : (W13 m ρ c (Proc.devRef .tc main_v79))
    = Cert.Spec.net (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) := by
  show StableHlo.after hostOps6 (W12 m ρ c) (Proc.devRef .tc main_v79) = _
  rw [k6_v79, r5_v78, k5_v76, k5_v77]
  rw [r4_v63, r4_v3, r4_v7, r4_v30, r4_arg7]
  rw [r3_v62, r3_arg6, r3_v3, r3_v7, r3_v30, r3_arg7]
  rw [k3_v60, k3_v61, k3_arg6, k3_v3, k3_v7, k3_v30, k3_arg7]
  rw [r2_v47, r2_v3, r2_v7, r2_v30, r2_arg5, r2_arg6, r2_arg7]
  rw [r1_v46, r1_arg4, r1_v3, r1_v7, r1_v30, r1_arg5, r1_arg6, r1_arg7]
  rw [k1_v44, k1_v45, k1_arg4, k1_v3, k1_v7, k1_v30, k1_arg5, k1_arg6, k1_arg7]
  rw [r0_v31, r0_v3, r0_v7, r0_v30, r0_arg3, r0_arg4, r0_arg5, r0_arg6, r0_arg7]
  rw [k0_arg0, k0_arg2, k0_v3, k0_v7, k0_v30, k0_arg3, k0_arg4, k0_arg5, k0_arg6, k0_arg7]
  rw [Reg5.rowAct_reshape, Reg3.rowAct_reshape, Reg1.rowAct_reshape]
  rfl

end Cert.KernelIdeal.KChain

end
-- ==== Proof.RefRun.lean ====
/-
  The reference's run, read back: its @main is a straight line of 122 host operations (the operations of a called
  function standing in the call's place), so every weakly fair execution terminates with each buffer at the fold of the
  operations' results over the launch contents; the result buffer's fold is the network `Spec.net` of the argument
  arrays, operation by operation, and no operation writes an argument.
-/
import proofs.«154728_j29686813950829_1_alg».proof.Proof.Gen.ReferenceIdeal
import proofs.«154728_j29686813950829_1_alg».proof.Proof.Spec
import proofs.«154728_j29686813950829_1_alg».proof.Proof.LibTRef
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- @main's 122 operations, in order (a called function's operations stand in its call's place, spelt `TRef.…`). -/
abbrev ops : List (HloOp τ sig (Elt F)) :=
  [ unary main_arg1 main_v0 ((extractStridedSlice S1x800000 ![0, 0] · slices_S2x800000_S1x800000_0_0) : (⟨S2x800000, .i32⟩ : BufTy).Contents (Elt F) → (⟨S1x800000, .i32⟩ : BufTy).Contents (Elt F)),
    reshape main_v0 main_v1 rfl shapeCasts_S1x800000_S800000,
    nullary main_v2 (iotaInDim S50000 32 0),
    binary main_v1 main_v2 main_v3 ((fun a b => concatenate S850000 0 [⟨S800000, a⟩, ⟨S50000, b⟩] concatenates_S800000_S50000_S850000_d0) : (⟨S800000, .i32⟩ : BufTy).Contents (Elt F) → (⟨S50000, .i32⟩ : BufTy).Contents (Elt F) → (⟨S850000, .i32⟩ : BufTy).Contents (Elt F)),
    unary main_arg1 main_v4 ((extractStridedSlice S1x800000 ![1, 0] · slices_S2x800000_S1x800000_1_0) : (⟨S2x800000, .i32⟩ : BufTy).Contents (Elt F) → (⟨S1x800000, .i32⟩ : BufTy).Contents (Elt F)),
    reshape main_v4 main_v5 rfl shapeCasts_S1x800000_S800000,
    nullary main_v6 (iotaInDim S50000 32 0),
    binary main_v5 main_v6 main_v7 ((fun a b => concatenate S850000 0 [⟨S800000, a⟩, ⟨S50000, b⟩] concatenates_S800000_S50000_S850000_d0) : (⟨S800000, .i32⟩ : BufTy).Contents (Elt F) → (⟨S50000, .i32⟩ : BufTy).Contents (Elt F) → (⟨S850000, .i32⟩ : BufTy).Contents (Elt F)),
    nullary main_cst (constant S_ .f32 0x3F800000#32),
    unary main_cst main_v8 (broadcastInDim S850000 ![] bcast_S_S850000 : (⟨S_, .f32⟩ : BufTy).Contents (Elt F) → (⟨S850000, .f32⟩ : BufTy).Contents (Elt F)),
    nullary main_cst_0 (constant S_ .f32 0x00000000#32),
    unary main_cst_0 main_v9 (broadcastInDim S50000 ![] bcast_S_S50000 : (⟨S_, .f32⟩ : BufTy).Contents (Elt F) → (⟨S50000, .f32⟩ : BufTy).Contents (Elt F)),
    unary main_v7 main_v10 (broadcastInDim S850000x1 ![0] bcast_S850000_S850000x1_0 : (⟨S850000, .i32⟩ : BufTy).Contents (Elt F) → (⟨S850000x1, .i32⟩ : BufTy).Contents (Elt F)),
    ternary main_v9 main_v10 main_v8 main_v11 ((fun x i u => Host.scatterAdd scatter_S50000_S850000x1_S850000_n_0_0_1 x i u) : (⟨S50000, .f32⟩ : BufTy).Contents (Elt F) → (⟨S850000x1, .i32⟩ : BufTy).Contents (Elt F) → (⟨S850000, .f32⟩ : BufTy).Contents (Elt F) → (⟨S50000, .f32⟩ : BufTy).Contents (Elt F)),
    nullary main_cst_1 (constant S_ .f32 0x00000000#32),
    unary main_cst_1 main_v12 (broadcastInDim S50000 ![] bcast_S_S50000 : (⟨S_, .f32⟩ : BufTy).Contents (Elt F) → (⟨S50000, .f32⟩ : BufTy).Contents (Elt F)),
    binary main_v11 main_v12 main_v13 (cmpf .ogt : (⟨S50000, .f32⟩ : BufTy).Contents (Elt F) → (⟨S50000, .f32⟩ : BufTy).Contents (Elt F) → (⟨S50000, .i1⟩ : BufTy).Contents (Elt F)),
    unary main_v11 main_v14 (Host.rsqrt : (⟨S50000, .f32⟩ : BufTy).Contents (Elt F) → (⟨S50000, .f32⟩ : BufTy).Contents (Elt F)),
    nullary main_cst_2 (constant S_ .f32 0x00000000#32),
    TRef.unary (TRef.of (T := ⟨S_, .f32⟩) main_cst_2) (TRef.of (T := ⟨S_, .f32⟩) main_call0_v0) id,
    TRef.unary (TRef.of (T := ⟨S_, .f32⟩) main_call0_v0) (TRef.of (T := ⟨S50000, .f32⟩) main_call0_v1) (broadcastInDim S50000 ![] bcast_S_S50000),
    TRef.ternary (TRef.of (T := ⟨S50000, .i1⟩) main_v13) (TRef.of (T := ⟨S50000, .f32⟩) main_v14) (TRef.of (T := ⟨S50000, .f32⟩) main_call0_v1) (TRef.of (T := ⟨S50000, .f32⟩) main_v15) select,
    nullary main_c (constantI S_ 32 0#32),
    unary main_c main_v16 (broadcastInDim S850000 ![] bcast_S_S850000 : (⟨S_, .i32⟩ : BufTy).Contents (Elt F) → (⟨S850000, .i32⟩ : BufTy).Contents (Elt F)),
    binary main_v3 main_v16 main_v17 (cmpi .slt : (⟨S850000, .i32⟩ : BufTy).Contents (Elt F) → (⟨S850000, .i32⟩ : BufTy).Contents (Elt F) → (⟨S850000, .i1⟩ : BufTy).Contents (Elt F)),
    nullary main_c_3 (constantI S_ 32 50000#32),
    unary main_c_3 main_v18 (broadcastInDim S850000 ![] bcast_S_S850000 : (⟨S_, .i32⟩ : BufTy).Contents (Elt F) → (⟨S850000, .i32⟩ : BufTy).Contents (Elt F)),
    binary main_v3 main_v18 main_v19 (addi : (⟨S850000, .i32⟩ : BufTy).Contents (Elt F) → (⟨S850000, .i32⟩ : BufTy).Contents (Elt F) → (⟨S850000, .i32⟩ : BufTy).Contents (Elt F)),
    ternary main_v17 main_v19 main_v3 main_v20 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    unary main_v20 main_v21 (broadcastInDim S850000x1 ![0] bcast_S850000_S850000x1_0 : (⟨S850000, .i32⟩ : BufTy).Contents (Elt F) → (⟨S850000x1, .i32⟩ : BufTy).Contents (Elt F)),
    binary main_v15 main_v21 main_v22 ((fun x i => Host.gather gather_S50000_S850000x1_S850000_n_0_n_n_0_1_1 x i) : (⟨S50000, .f32⟩ : BufTy).Contents (Elt F) → (⟨S850000x1, .i32⟩ : BufTy).Contents (Elt F) → (⟨S850000, .f32⟩ : BufTy).Contents (Elt F)),
    nullary main_c_4 (constantI S_ 32 0#32),
    unary main_c_4 main_v23 (broadcastInDim S850000 ![] bcast_S_S850000 : (⟨S_, .i32⟩ : BufTy).Contents (Elt F) → (⟨S850000, .i32⟩ : BufTy).Contents (Elt F)),
    binary main_v7 main_v23 main_v24 (cmpi .slt : (⟨S850000, .i32⟩ : BufTy).Contents (Elt F) → (⟨S850000, .i32⟩ : BufTy).Contents (Elt F) → (⟨S850000, .i1⟩ : BufTy).Contents (Elt F)),
    nullary main_c_5 (constantI S_ 32 50000#32),
    unary main_c_5 main_v25 (broadcastInDim S850000 ![] bcast_S_S850000 : (⟨S_, .i32⟩ : BufTy).Contents (Elt F) → (⟨S850000, .i32⟩ : BufTy).Contents (Elt F)),
    binary main_v7 main_v25 main_v26 (addi : (⟨S850000, .i32⟩ : BufTy).Contents (Elt F) → (⟨S850000, .i32⟩ : BufTy).Contents (Elt F) → (⟨S850000, .i32⟩ : BufTy).Contents (Elt F)),
    ternary main_v24 main_v26 main_v7 main_v27 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    unary main_v27 main_v28 (broadcastInDim S850000x1 ![0] bcast_S850000_S850000x1_0 : (⟨S850000, .i32⟩ : BufTy).Contents (Elt F) → (⟨S850000x1, .i32⟩ : BufTy).Contents (Elt F)),
    binary main_v15 main_v28 main_v29 ((fun x i => Host.gather gather_S50000_S850000x1_S850000_n_0_n_n_0_1_1 x i) : (⟨S50000, .f32⟩ : BufTy).Contents (Elt F) → (⟨S850000x1, .i32⟩ : BufTy).Contents (Elt F) → (⟨S850000, .f32⟩ : BufTy).Contents (Elt F)),
    binary main_v22 main_v29 main_v30 (mulf : (⟨S850000, .f32⟩ : BufTy).Contents (Elt F) → (⟨S850000, .f32⟩ : BufTy).Contents (Elt F) → (⟨S850000, .f32⟩ : BufTy).Contents (Elt F)),
    binary main_arg0 main_arg2 main_v31 ((fun l r => Host.dotGeneral dot_S50000x1433_S1433x256_S50000x256_1_0_0_1_n_n none l r) : (⟨S50000x1433, .f32⟩ : BufTy).Contents (Elt F) → (⟨S1433x256, .f32⟩ : BufTy).Contents (Elt F) → (⟨S50000x256, .f32⟩ : BufTy).Contents (Elt F)),
    nullary main_c_6 (constantI S_ 32 0#32),
    unary main_c_6 main_v32 (broadcastInDim S850000 ![] bcast_S_S850000 : (⟨S_, .i32⟩ : BufTy).Contents (Elt F) → (⟨S850000, .i32⟩ : BufTy).Contents (Elt F)),
    binary main_v3 main_v32 main_v33 (cmpi .slt : (⟨S850000, .i32⟩ : BufTy).Contents (Elt F) → (⟨S850000, .i32⟩ : BufTy).Contents (Elt F) → (⟨S850000, .i1⟩ : BufTy).Contents (Elt F)),
    nullary main_c_7 (constantI S_ 32 50000#32),
    unary main_c_7 main_v34 (broadcastInDim S850000 ![] bcast_S_S850000 : (⟨S_, .i32⟩ : BufTy).Contents (Elt F) → (⟨S850000, .i32⟩ : BufTy).Contents (Elt F)),
    binary main_v3 main_v34 main_v35 (addi : (⟨S850000, .i32⟩ : BufTy).Contents (Elt F) → (⟨S850000, .i32⟩ : BufTy).Contents (Elt F) → (⟨S850000, .i32⟩ : BufTy).Contents (Elt F)),
    ternary main_v33 main_v35 main_v3 main_v36 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    unary main_v36 main_v37 (broadcastInDim S850000x1 ![0] bcast_S850000_S850000x1_0 : (⟨S850000, .i32⟩ : BufTy).Contents (Elt F) → (⟨S850000x1, .i32⟩ : BufTy).Contents (Elt F)),
    binary main_v31 main_v37 main_v38 ((fun x i => Host.gather gather_S50000x256_S850000x1_S850000x256_1_0_n_n_0_1_1256 x i) : (⟨S50000x256, .f32⟩ : BufTy).Contents (Elt F) → (⟨S850000x1, .i32⟩ : BufTy).Contents (Elt F) → (⟨S850000x256, .f32⟩ : BufTy).Contents (Elt F)),
    unary main_v30 main_v39 (broadcastInDim S850000x1 ![0] bcast_S850000_S850000x1_0 : (⟨S850000, .f32⟩ : BufTy).Contents (Elt F) → (⟨S850000x1, .f32⟩ : BufTy).Contents (Elt F)),
    unary main_v39 main_v40 (broadcastInDim S850000x256 ![0, 1] bcast_S850000x1_S850000x256_0_1 : (⟨S850000x1, .f32⟩ : BufTy).Contents (Elt F) → (⟨S850000x256, .f32⟩ : BufTy).Contents (Elt F)),
    binary main_v38 main_v40 main_v41 (mulf : (⟨S850000x256, .f32⟩ : BufTy).Contents (Elt F) → (⟨S850000x256, .f32⟩ : BufTy).Contents (Elt F) → (⟨S850000x256, .f32⟩ : BufTy).Contents (Elt F)),
    nullary main_cst_8 (constant S_ .f32 0x00000000#32),
    unary main_cst_8 main_v42 (broadcastInDim S50000x256 ![] bcast_S_S50000x256 : (⟨S_, .f32⟩ : BufTy).Contents (Elt F) → (⟨S50000x256, .f32⟩ : BufTy).Contents (Elt F)),
    unary main_v7 main_v43 (broadcastInDim S850000x1 ![0] bcast_S850000_S850000x1_0 : (⟨S850000, .i32⟩ : BufTy).Contents (Elt F) → (⟨S850000x1, .i32⟩ : BufTy).Contents (Elt F)),
    ternary main_v42 main_v43 main_v41 main_v44 ((fun x i u => Host.scatterAdd scatter_S50000x256_S850000x1_S850000x256_1_0_0_1 x i u) : (⟨S50000x256, .f32⟩ : BufTy).Contents (Elt F) → (⟨S850000x1, .i32⟩ : BufTy).Contents (Elt F) → (⟨S850000x256, .f32⟩ : BufTy).Contents (Elt F) → (⟨S50000x256, .f32⟩ : BufTy).Contents (Elt F)),
    unary main_arg3 main_v45 (broadcastInDim S1x256 ![1] bcast_S256_S1x256_1 : (⟨S256, .f32⟩ : BufTy).Contents (Elt F) → (⟨S1x256, .f32⟩ : BufTy).Contents (Elt F)),
    unary main_v45 main_v46 (broadcastInDim S50000x256 ![0, 1] bcast_S1x256_S50000x256_0_1 : (⟨S1x256, .f32⟩ : BufTy).Contents (Elt F) → (⟨S50000x256, .f32⟩ : BufTy).Contents (Elt F)),
    binary main_v44 main_v46 main_v47 (addf : (⟨S50000x256, .f32⟩ : BufTy).Contents (Elt F) → (⟨S50000x256, .f32⟩ : BufTy).Contents (Elt F) → (⟨S50000x256, .f32⟩ : BufTy).Contents (Elt F)),
    TRef.nullary (TRef.of (T := ⟨S_, .f32⟩) main_call1_cst) (constant S_ .f32 0x00000000#32),
    TRef.unary (TRef.of (T := ⟨S_, .f32⟩) main_call1_cst) (TRef.of (T := ⟨S50000x256, .f32⟩) main_call1_v0) (broadcastInDim S50000x256 ![] bcast_S_S50000x256),
    TRef.binary (TRef.of (T := ⟨S50000x256, .f32⟩) main_v47) (TRef.of (T := ⟨S50000x256, .f32⟩) main_call1_v0) (TRef.of (T := ⟨S50000x256, .f32⟩) main_v48) maximumf,
    binary main_v48 main_arg4 main_v49 ((fun l r => Host.dotGeneral dot_S50000x256_S256x256_S50000x256_1_0_0_1_n_n none l r) : (⟨S50000x256, .f32⟩ : BufTy).Contents (Elt F) → (⟨S256x256, .f32⟩ : BufTy).Contents (Elt F) → (⟨S50000x256, .f32⟩ : BufTy).Contents (Elt F)),
    nullary main_c_9 (constantI S_ 32 0#32),
    unary main_c_9 main_v50 (broadcastInDim S850000 ![] bcast_S_S850000 : (⟨S_, .i32⟩ : BufTy).Contents (Elt F) → (⟨S850000, .i32⟩ : BufTy).Contents (Elt F)),
    binary main_v3 main_v50 main_v51 (cmpi .slt : (⟨S850000, .i32⟩ : BufTy).Contents (Elt F) → (⟨S850000, .i32⟩ : BufTy).Contents (Elt F) → (⟨S850000, .i1⟩ : BufTy).Contents (Elt F)),
    nullary main_c_10 (constantI S_ 32 50000#32),
    unary main_c_10 main_v52 (broadcastInDim S850000 ![] bcast_S_S850000 : (⟨S_, .i32⟩ : BufTy).Contents (Elt F) → (⟨S850000, .i32⟩ : BufTy).Contents (Elt F)),
    binary main_v3 main_v52 main_v53 (addi : (⟨S850000, .i32⟩ : BufTy).Contents (Elt F) → (⟨S850000, .i32⟩ : BufTy).Contents (Elt F) → (⟨S850000, .i32⟩ : BufTy).Contents (Elt F)),
    ternary main_v51 main_v53 main_v3 main_v54 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    unary main_v54 main_v55 (broadcastInDim S850000x1 ![0] bcast_S850000_S850000x1_0 : (⟨S850000, .i32⟩ : BufTy).Contents (Elt F) → (⟨S850000x1, .i32⟩ : BufTy).Contents (Elt F)),
    binary main_v49 main_v55 main_v56 ((fun x i => Host.gather gather_S50000x256_S850000x1_S850000x256_1_0_n_n_0_1_1256 x i) : (⟨S50000x256, .f32⟩ : BufTy).Contents (Elt F) → (⟨S850000x1, .i32⟩ : BufTy).Contents (Elt F) → (⟨S850000x256, .f32⟩ : BufTy).Contents (Elt F)),
    unary main_v30 main_v57 (broadcastInDim S850000x1 ![0] bcast_S850000_S850000x1_0 : (⟨S850000, .f32⟩ : BufTy).Contents (Elt F) → (⟨S850000x1, .f32⟩ : BufTy).Contents (Elt F)),
    unary main_v57 main_v58 (broadcastInDim S850000x256 ![0, 1] bcast_S850000x1_S850000x256_0_1 : (⟨S850000x1, .f32⟩ : BufTy).Contents (Elt F) → (⟨S850000x256, .f32⟩ : BufTy).Contents (Elt F)),
    binary main_v56 main_v58 main_v59 (mulf : (⟨S850000x256, .f32⟩ : BufTy).Contents (Elt F) → (⟨S850000x256, .f32⟩ : BufTy).Contents (Elt F) → (⟨S850000x256, .f32⟩ : BufTy).Contents (Elt F)),
    nullary main_cst_11 (constant S_ .f32 0x00000000#32),
    unary main_cst_11 main_v60 (broadcastInDim S50000x256 ![] bcast_S_S50000x256 : (⟨S_, .f32⟩ : BufTy).Contents (Elt F) → (⟨S50000x256, .f32⟩ : BufTy).Contents (Elt F)),
    unary main_v7 main_v61 (broadcastInDim S850000x1 ![0] bcast_S850000_S850000x1_0 : (⟨S850000, .i32⟩ : BufTy).Contents (Elt F) → (⟨S850000x1, .i32⟩ : BufTy).Contents (Elt F)),
    ternary main_v60 main_v61 main_v59 main_v62 ((fun x i u => Host.scatterAdd scatter_S50000x256_S850000x1_S850000x256_1_0_0_1 x i u) : (⟨S50000x256, .f32⟩ : BufTy).Contents (Elt F) → (⟨S850000x1, .i32⟩ : BufTy).Contents (Elt F) → (⟨S850000x256, .f32⟩ : BufTy).Contents (Elt F) → (⟨S50000x256, .f32⟩ : BufTy).Contents (Elt F)),
    unary main_arg5 main_v63 (broadcastInDim S1x256 ![1] bcast_S256_S1x256_1 : (⟨S256, .f32⟩ : BufTy).Contents (Elt F) → (⟨S1x256, .f32⟩ : BufTy).Contents (Elt F)),
    unary main_v63 main_v64 (broadcastInDim S50000x256 ![0, 1] bcast_S1x256_S50000x256_0_1 : (⟨S1x256, .f32⟩ : BufTy).Contents (Elt F) → (⟨S50000x256, .f32⟩ : BufTy).Contents (Elt F)),
    binary main_v62 main_v64 main_v65 (addf : (⟨S50000x256, .f32⟩ : BufTy).Contents (Elt F) → (⟨S50000x256, .f32⟩ : BufTy).Contents (Elt F) → (⟨S50000x256, .f32⟩ : BufTy).Contents (Elt F)),
    TRef.nullary (TRef.of (T := ⟨S_, .f32⟩) main_call2_cst) (constant S_ .f32 0x00000000#32),
    TRef.unary (TRef.of (T := ⟨S_, .f32⟩) main_call2_cst) (TRef.of (T := ⟨S50000x256, .f32⟩) main_call2_v0) (broadcastInDim S50000x256 ![] bcast_S_S50000x256),
    TRef.binary (TRef.of (T := ⟨S50000x256, .f32⟩) main_v65) (TRef.of (T := ⟨S50000x256, .f32⟩) main_call2_v0) (TRef.of (T := ⟨S50000x256, .f32⟩) main_v66) maximumf,
    binary main_v66 main_arg6 main_v67 ((fun l r => Host.dotGeneral dot_S50000x256_S256x7_S50000x7_1_0_0_1_n_n none l r) : (⟨S50000x256, .f32⟩ : BufTy).Contents (Elt F) → (⟨S256x7, .f32⟩ : BufTy).Contents (Elt F) → (⟨S50000x7, .f32⟩ : BufTy).Contents (Elt F)),
    nullary main_c_12 (constantI S_ 32 0#32),
    unary main_c_12 main_v68 (broadcastInDim S850000 ![] bcast_S_S850000 : (⟨S_, .i32⟩ : BufTy).Contents (Elt F) → (⟨S850000, .i32⟩ : BufTy).Contents (Elt F)),
    binary main_v3 main_v68 main_v69 (cmpi .slt : (⟨S850000, .i32⟩ : BufTy).Contents (Elt F) → (⟨S850000, .i32⟩ : BufTy).Contents (Elt F) → (⟨S850000, .i1⟩ : BufTy).Contents (Elt F)),
    nullary main_c_13 (constantI S_ 32 50000#32),
    unary main_c_13 main_v70 (broadcastInDim S850000 ![] bcast_S_S850000 : (⟨S_, .i32⟩ : BufTy).Contents (Elt F) → (⟨S850000, .i32⟩ : BufTy).Contents (Elt F)),
    binary main_v3 main_v70 main_v71 (addi : (⟨S850000, .i32⟩ : BufTy).Contents (Elt F) → (⟨S850000, .i32⟩ : BufTy).Contents (Elt F) → (⟨S850000, .i32⟩ : BufTy).Contents (Elt F)),
    ternary main_v69 main_v71 main_v3 main_v72 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    unary main_v72 main_v73 (broadcastInDim S850000x1 ![0] bcast_S850000_S850000x1_0 : (⟨S850000, .i32⟩ : BufTy).Contents (Elt F) → (⟨S850000x1, .i32⟩ : BufTy).Contents (Elt F)),
    binary main_v67 main_v73 main_v74 ((fun x i => Host.gather gather_S50000x7_S850000x1_S850000x7_1_0_n_n_0_1_17 x i) : (⟨S50000x7, .f32⟩ : BufTy).Contents (Elt F) → (⟨S850000x1, .i32⟩ : BufTy).Contents (Elt F) → (⟨S850000x7, .f32⟩ : BufTy).Contents (Elt F)),
    unary main_v30 main_v75 (broadcastInDim S850000x1 ![0] bcast_S850000_S850000x1_0 : (⟨S850000, .f32⟩ : BufTy).Contents (Elt F) → (⟨S850000x1, .f32⟩ : BufTy).Contents (Elt F)),
    unary main_v75 main_v76 (broadcastInDim S850000x7 ![0, 1] bcast_S850000x1_S850000x7_0_1 : (⟨S850000x1, .f32⟩ : BufTy).Contents (Elt F) → (⟨S850000x7, .f32⟩ : BufTy).Contents (Elt F)),
    binary main_v74 main_v76 main_v77 (mulf : (⟨S850000x7, .f32⟩ : BufTy).Contents (Elt F) → (⟨S850000x7, .f32⟩ : BufTy).Contents (Elt F) → (⟨S850000x7, .f32⟩ : BufTy).Contents (Elt F)),
    nullary main_cst_14 (constant S_ .f32 0x00000000#32),
    unary main_cst_14 main_v78 (broadcastInDim S50000x7 ![] bcast_S_S50000x7 : (⟨S_, .f32⟩ : BufTy).Contents (Elt F) → (⟨S50000x7, .f32⟩ : BufTy).Contents (Elt F)),
    unary main_v7 main_v79 (broadcastInDim S850000x1 ![0] bcast_S850000_S850000x1_0 : (⟨S850000, .i32⟩ : BufTy).Contents (Elt F) → (⟨S850000x1, .i32⟩ : BufTy).Contents (Elt F)),
    ternary main_v78 main_v79 main_v77 main_v80 ((fun x i u => Host.scatterAdd scatter_S50000x7_S850000x1_S850000x7_1_0_0_1 x i u) : (⟨S50000x7, .f32⟩ : BufTy).Contents (Elt F) → (⟨S850000x1, .i32⟩ : BufTy).Contents (Elt F) → (⟨S850000x7, .f32⟩ : BufTy).Contents (Elt F) → (⟨S50000x7, .f32⟩ : BufTy).Contents (Elt F)),
    unary main_arg7 main_v81 (broadcastInDim S1x7 ![1] bcast_S7_S1x7_1 : (⟨S7, .f32⟩ : BufTy).Contents (Elt F) → (⟨S1x7, .f32⟩ : BufTy).Contents (Elt F)),
    unary main_v81 main_v82 (broadcastInDim S50000x7 ![0, 1] bcast_S1x7_S50000x7_0_1 : (⟨S1x7, .f32⟩ : BufTy).Contents (Elt F) → (⟨S50000x7, .f32⟩ : BufTy).Contents (Elt F)),
    binary main_v80 main_v82 main_v83 (addf : (⟨S50000x7, .f32⟩ : BufTy).Contents (Elt F) → (⟨S50000x7, .f32⟩ : BufTy).Contents (Elt F) → (⟨S50000x7, .f32⟩ : BufTy).Contents (Elt F)),
    TRef.nullary (TRef.of (T := ⟨S_, .f32⟩) main_call3_cst) (constant S_ .f32 0xFF800000#32),
    TRef.binary (TRef.of (T := ⟨S50000x7, .f32⟩) main_v83) (TRef.of (T := ⟨S_, .f32⟩) main_call3_cst) (TRef.of (T := ⟨S50000, .f32⟩) main_call3_v0) (fun x v => Host.reduce FloatOps.maximumf x v reducesTo_S50000x7_S50000_d1 h_S_),
    TRef.nullary (TRef.of (T := ⟨S_, .f32⟩) main_call3_cst_0) (constant S_ .f32 0xFF800000#32),
    TRef.unary (TRef.of (T := ⟨S_, .f32⟩) main_call3_cst_0) (TRef.of (T := ⟨S50000, .f32⟩) main_call3_v1) (broadcastInDim S50000 ![] bcast_S_S50000),
    TRef.binary (TRef.of (T := ⟨S50000, .f32⟩) main_call3_v1) (TRef.of (T := ⟨S50000, .f32⟩) main_call3_v0) (TRef.of (T := ⟨S50000, .f32⟩) main_call3_v2) maximumf,
    TRef.unary (TRef.of (T := ⟨S50000, .f32⟩) main_call3_v2) (TRef.of (T := ⟨S50000x1, .f32⟩) main_call3_v3) (broadcastInDim S50000x1 ![0] bcast_S50000_S50000x1_0),
    TRef.unary (TRef.of (T := ⟨S50000x1, .f32⟩) main_call3_v3) (TRef.of (T := ⟨S50000x7, .f32⟩) main_call3_v4) (broadcastInDim S50000x7 ![0, 1] bcast_S50000x1_S50000x7_0_1),
    TRef.binary (TRef.of (T := ⟨S50000x7, .f32⟩) main_v83) (TRef.of (T := ⟨S50000x7, .f32⟩) main_call3_v4) (TRef.of (T := ⟨S50000x7, .f32⟩) main_call3_v5) subf,
    TRef.unary (TRef.of (T := ⟨S50000x7, .f32⟩) main_call3_v5) (TRef.of (T := ⟨S50000x7, .f32⟩) main_call3_v6) Host.exp,
    TRef.nullary (TRef.of (T := ⟨S_, .f32⟩) main_call3_cst_1) (constant S_ .f32 0x00000000#32),
    TRef.binary (TRef.of (T := ⟨S50000x7, .f32⟩) main_call3_v6) (TRef.of (T := ⟨S_, .f32⟩) main_call3_cst_1) (TRef.of (T := ⟨S50000, .f32⟩) main_call3_v7) (fun x v => Host.reduceAdd x v reducesTo_S50000x7_S50000_d1 h_S_),
    TRef.unary (TRef.of (T := ⟨S50000, .f32⟩) main_call3_v7) (TRef.of (T := ⟨S50000x1, .f32⟩) main_call3_v8) (broadcastInDim S50000x1 ![0] bcast_S50000_S50000x1_0),
    TRef.unary (TRef.of (T := ⟨S50000x1, .f32⟩) main_call3_v8) (TRef.of (T := ⟨S50000x1, .f32⟩) main_call3_v9) Host.log,
    TRef.unary (TRef.of (T := ⟨S50000x1, .f32⟩) main_call3_v9) (TRef.of (T := ⟨S50000x7, .f32⟩) main_call3_v10) (broadcastInDim S50000x7 ![0, 1] bcast_S50000x1_S50000x7_0_1),
    TRef.binary (TRef.of (T := ⟨S50000x7, .f32⟩) main_call3_v5) (TRef.of (T := ⟨S50000x7, .f32⟩) main_call3_v10) (TRef.of (T := ⟨S50000x7, .f32⟩) main_v84) subf ]

set_option maxRecDepth 8192 in
set_option maxHeartbeats 4000000 in
theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide
set_option maxRecDepth 8192 in
theorem ops_sub : (ops : List (HloOp τ sig (Elt F))).Forall fun op => op.bufs ⊆ tcRefs τ sig :=
  ⟨unary_bufs_sub .., reshape_bufs_sub .., nullary_bufs_sub .., binary_bufs_sub .., unary_bufs_sub .., reshape_bufs_sub .., nullary_bufs_sub .., binary_bufs_sub .., nullary_bufs_sub .., unary_bufs_sub .., nullary_bufs_sub .., unary_bufs_sub .., unary_bufs_sub .., ternary_bufs_sub .., nullary_bufs_sub .., unary_bufs_sub .., binary_bufs_sub .., unary_bufs_sub .., nullary_bufs_sub .., unary_bufs_sub .., unary_bufs_sub .., ternary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., binary_bufs_sub .., nullary_bufs_sub .., unary_bufs_sub .., binary_bufs_sub .., nullary_bufs_sub .., unary_bufs_sub .., binary_bufs_sub .., ternary_bufs_sub .., unary_bufs_sub .., binary_bufs_sub .., unary_bufs_sub .., unary_bufs_sub .., binary_bufs_sub .., nullary_bufs_sub .., unary_bufs_sub .., unary_bufs_sub .., ternary_bufs_sub .., unary_bufs_sub .., unary_bufs_sub .., binary_bufs_sub .., nullary_bufs_sub .., unary_bufs_sub .., binary_bufs_sub .., binary_bufs_sub .., nullary_bufs_sub .., unary_bufs_sub .., binary_bufs_sub .., nullary_bufs_sub .., unary_bufs_sub .., binary_bufs_sub .., ternary_bufs_sub .., unary_bufs_sub .., binary_bufs_sub .., unary_bufs_sub .., unary_bufs_sub .., binary_bufs_sub .., nullary_bufs_sub .., unary_bufs_sub .., unary_bufs_sub .., ternary_bufs_sub .., unary_bufs_sub .., unary_bufs_sub .., binary_bufs_sub .., nullary_bufs_sub .., unary_bufs_sub .., binary_bufs_sub .., binary_bufs_sub .., nullary_bufs_sub .., unary_bufs_sub .., binary_bufs_sub .., nullary_bufs_sub .., unary_bufs_sub .., binary_bufs_sub .., ternary_bufs_sub .., unary_bufs_sub .., binary_bufs_sub .., unary_bufs_sub .., unary_bufs_sub .., binary_bufs_sub .., nullary_bufs_sub .., unary_bufs_sub .., unary_bufs_sub .., ternary_bufs_sub .., unary_bufs_sub .., unary_bufs_sub .., binary_bufs_sub .., nullary_bufs_sub .., binary_bufs_sub .., nullary_bufs_sub .., unary_bufs_sub .., binary_bufs_sub .., unary_bufs_sub .., unary_bufs_sub .., binary_bufs_sub .., unary_bufs_sub .., nullary_bufs_sub .., binary_bufs_sub .., unary_bufs_sub .., unary_bufs_sub .., unary_bufs_sub .., binary_bufs_sub ..⟩

/-! ## The line in five stretches: the edge weights, the three layers, the log-softmax -/

/-- The first 41 operations: the edges' endpoints, the degrees, the weights. -/
abbrev seg0 : List (HloOp τ sig (Elt F)) :=
  [ unary main_arg1 main_v0 ((extractStridedSlice S1x800000 ![0, 0] · slices_S2x800000_S1x800000_0_0) : (⟨S2x800000, .i32⟩ : BufTy).Contents (Elt F) → (⟨S1x800000, .i32⟩ : BufTy).Contents (Elt F)),
    reshape main_v0 main_v1 rfl shapeCasts_S1x800000_S800000,
    nullary main_v2 (iotaInDim S50000 32 0),
    binary main_v1 main_v2 main_v3 ((fun a b => concatenate S850000 0 [⟨S800000, a⟩, ⟨S50000, b⟩] concatenates_S800000_S50000_S850000_d0) : (⟨S800000, .i32⟩ : BufTy).Contents (Elt F) → (⟨S50000, .i32⟩ : BufTy).Contents (Elt F) → (⟨S850000, .i32⟩ : BufTy).Contents (Elt F)),
    unary main_arg1 main_v4 ((extractStridedSlice S1x800000 ![1, 0] · slices_S2x800000_S1x800000_1_0) : (⟨S2x800000, .i32⟩ : BufTy).Contents (Elt F) → (⟨S1x800000, .i32⟩ : BufTy).Contents (Elt F)),
    reshape main_v4 main_v5 rfl shapeCasts_S1x800000_S800000,
    nullary main_v6 (iotaInDim S50000 32 0),
    binary main_v5 main_v6 main_v7 ((fun a b => concatenate S850000 0 [⟨S800000, a⟩, ⟨S50000, b⟩] concatenates_S800000_S50000_S850000_d0) : (⟨S800000, .i32⟩ : BufTy).Contents (Elt F) → (⟨S50000, .i32⟩ : BufTy).Contents (Elt F) → (⟨S850000, .i32⟩ : BufTy).Contents (Elt F)),
    nullary main_cst (constant S_ .f32 0x3F800000#32),
    unary main_cst main_v8 (broadcastInDim S850000 ![] bcast_S_S850000 : (⟨S_, .f32⟩ : BufTy).Contents (Elt F) → (⟨S850000, .f32⟩ : BufTy).Contents (Elt F)),
    nullary main_cst_0 (constant S_ .f32 0x00000000#32),
    unary main_cst_0 main_v9 (broadcastInDim S50000 ![] bcast_S_S50000 : (⟨S_, .f32⟩ : BufTy).Contents (Elt F) → (⟨S50000, .f32⟩ : BufTy).Contents (Elt F)),
    unary main_v7 main_v10 (broadcastInDim S850000x1 ![0] bcast_S850000_S850000x1_0 : (⟨S850000, .i32⟩ : BufTy).Contents (Elt F) → (⟨S850000x1, .i32⟩ : BufTy).Contents (Elt F)),
    ternary main_v9 main_v10 main_v8 main_v11 ((fun x i u => Host.scatterAdd scatter_S50000_S850000x1_S850000_n_0_0_1 x i u) : (⟨S50000, .f32⟩ : BufTy).Contents (Elt F) → (⟨S850000x1, .i32⟩ : BufTy).Contents (Elt F) → (⟨S850000, .f32⟩ : BufTy).Contents (Elt F) → (⟨S50000, .f32⟩ : BufTy).Contents (Elt F)),
    nullary main_cst_1 (constant S_ .f32 0x00000000#32),
    unary main_cst_1 main_v12 (broadcastInDim S50000 ![] bcast_S_S50000 : (⟨S_, .f32⟩ : BufTy).Contents (Elt F) → (⟨S50000, .f32⟩ : BufTy).Contents (Elt F)),
    binary main_v11 main_v12 main_v13 (cmpf .ogt : (⟨S50000, .f32⟩ : BufTy).Contents (Elt F) → (⟨S50000, .f32⟩ : BufTy).Contents (Elt F) → (⟨S50000, .i1⟩ : BufTy).Contents (Elt F)),
    unary main_v11 main_v14 (Host.rsqrt : (⟨S50000, .f32⟩ : BufTy).Contents (Elt F) → (⟨S50000, .f32⟩ : BufTy).Contents (Elt F)),
    nullary main_cst_2 (constant S_ .f32 0x00000000#32),
    TRef.unary (TRef.of (T := ⟨S_, .f32⟩) main_cst_2) (TRef.of (T := ⟨S_, .f32⟩) main_call0_v0) id,
    TRef.unary (TRef.of (T := ⟨S_, .f32⟩) main_call0_v0) (TRef.of (T := ⟨S50000, .f32⟩) main_call0_v1) (broadcastInDim S50000 ![] bcast_S_S50000),
    TRef.ternary (TRef.of (T := ⟨S50000, .i1⟩) main_v13) (TRef.of (T := ⟨S50000, .f32⟩) main_v14) (TRef.of (T := ⟨S50000, .f32⟩) main_call0_v1) (TRef.of (T := ⟨S50000, .f32⟩) main_v15) select,
    nullary main_c (constantI S_ 32 0#32),
    unary main_c main_v16 (broadcastInDim S850000 ![] bcast_S_S850000 : (⟨S_, .i32⟩ : BufTy).Contents (Elt F) → (⟨S850000, .i32⟩ : BufTy).Contents (Elt F)),
    binary main_v3 main_v16 main_v17 (cmpi .slt : (⟨S850000, .i32⟩ : BufTy).Contents (Elt F) → (⟨S850000, .i32⟩ : BufTy).Contents (Elt F) → (⟨S850000, .i1⟩ : BufTy).Contents (Elt F)),
    nullary main_c_3 (constantI S_ 32 50000#32),
    unary main_c_3 main_v18 (broadcastInDim S850000 ![] bcast_S_S850000 : (⟨S_, .i32⟩ : BufTy).Contents (Elt F) → (⟨S850000, .i32⟩ : BufTy).Contents (Elt F)),
    binary main_v3 main_v18 main_v19 (addi : (⟨S850000, .i32⟩ : BufTy).Contents (Elt F) → (⟨S850000, .i32⟩ : BufTy).Contents (Elt F) → (⟨S850000, .i32⟩ : BufTy).Contents (Elt F)),
    ternary main_v17 main_v19 main_v3 main_v20 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    unary main_v20 main_v21 (broadcastInDim S850000x1 ![0] bcast_S850000_S850000x1_0 : (⟨S850000, .i32⟩ : BufTy).Contents (Elt F) → (⟨S850000x1, .i32⟩ : BufTy).Contents (Elt F)),
    binary main_v15 main_v21 main_v22 ((fun x i => Host.gather gather_S50000_S850000x1_S850000_n_0_n_n_0_1_1 x i) : (⟨S50000, .f32⟩ : BufTy).Contents (Elt F) → (⟨S850000x1, .i32⟩ : BufTy).Contents (Elt F) → (⟨S850000, .f32⟩ : BufTy).Contents (Elt F)),
    nullary main_c_4 (constantI S_ 32 0#32),
    unary main_c_4 main_v23 (broadcastInDim S850000 ![] bcast_S_S850000 : (⟨S_, .i32⟩ : BufTy).Contents (Elt F) → (⟨S850000, .i32⟩ : BufTy).Contents (Elt F)),
    binary main_v7 main_v23 main_v24 (cmpi .slt : (⟨S850000, .i32⟩ : BufTy).Contents (Elt F) → (⟨S850000, .i32⟩ : BufTy).Contents (Elt F) → (⟨S850000, .i1⟩ : BufTy).Contents (Elt F)),
    nullary main_c_5 (constantI S_ 32 50000#32),
    unary main_c_5 main_v25 (broadcastInDim S850000 ![] bcast_S_S850000 : (⟨S_, .i32⟩ : BufTy).Contents (Elt F) → (⟨S850000, .i32⟩ : BufTy).Contents (Elt F)),
    binary main_v7 main_v25 main_v26 (addi : (⟨S850000, .i32⟩ : BufTy).Contents (Elt F) → (⟨S850000, .i32⟩ : BufTy).Contents (Elt F) → (⟨S850000, .i32⟩ : BufTy).Contents (Elt F)),
    ternary main_v24 main_v26 main_v7 main_v27 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    unary main_v27 main_v28 (broadcastInDim S850000x1 ![0] bcast_S850000_S850000x1_0 : (⟨S850000, .i32⟩ : BufTy).Contents (Elt F) → (⟨S850000x1, .i32⟩ : BufTy).Contents (Elt F)),
    binary main_v15 main_v28 main_v29 ((fun x i => Host.gather gather_S50000_S850000x1_S850000_n_0_n_n_0_1_1 x i) : (⟨S50000, .f32⟩ : BufTy).Contents (Elt F) → (⟨S850000x1, .i32⟩ : BufTy).Contents (Elt F) → (⟨S850000, .f32⟩ : BufTy).Contents (Elt F)),
    binary main_v22 main_v29 main_v30 (mulf : (⟨S850000, .f32⟩ : BufTy).Contents (Elt F) → (⟨S850000, .f32⟩ : BufTy).Contents (Elt F) → (⟨S850000, .f32⟩ : BufTy).Contents (Elt F)) ]
/-- Layer 1: the linear map, the aggregation, the bias and the clamp. -/
abbrev seg1 : List (HloOp τ sig (Elt F)) :=
  [ binary main_arg0 main_arg2 main_v31 ((fun l r => Host.dotGeneral dot_S50000x1433_S1433x256_S50000x256_1_0_0_1_n_n none l r) : (⟨S50000x1433, .f32⟩ : BufTy).Contents (Elt F) → (⟨S1433x256, .f32⟩ : BufTy).Contents (Elt F) → (⟨S50000x256, .f32⟩ : BufTy).Contents (Elt F)),
    nullary main_c_6 (constantI S_ 32 0#32),
    unary main_c_6 main_v32 (broadcastInDim S850000 ![] bcast_S_S850000 : (⟨S_, .i32⟩ : BufTy).Contents (Elt F) → (⟨S850000, .i32⟩ : BufTy).Contents (Elt F)),
    binary main_v3 main_v32 main_v33 (cmpi .slt : (⟨S850000, .i32⟩ : BufTy).Contents (Elt F) → (⟨S850000, .i32⟩ : BufTy).Contents (Elt F) → (⟨S850000, .i1⟩ : BufTy).Contents (Elt F)),
    nullary main_c_7 (constantI S_ 32 50000#32),
    unary main_c_7 main_v34 (broadcastInDim S850000 ![] bcast_S_S850000 : (⟨S_, .i32⟩ : BufTy).Contents (Elt F) → (⟨S850000, .i32⟩ : BufTy).Contents (Elt F)),
    binary main_v3 main_v34 main_v35 (addi : (⟨S850000, .i32⟩ : BufTy).Contents (Elt F) → (⟨S850000, .i32⟩ : BufTy).Contents (Elt F) → (⟨S850000, .i32⟩ : BufTy).Contents (Elt F)),
    ternary main_v33 main_v35 main_v3 main_v36 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    unary main_v36 main_v37 (broadcastInDim S850000x1 ![0] bcast_S850000_S850000x1_0 : (⟨S850000, .i32⟩ : BufTy).Contents (Elt F) → (⟨S850000x1, .i32⟩ : BufTy).Contents (Elt F)),
    binary main_v31 main_v37 main_v38 ((fun x i => Host.gather gather_S50000x256_S850000x1_S850000x256_1_0_n_n_0_1_1256 x i) : (⟨S50000x256, .f32⟩ : BufTy).Contents (Elt F) → (⟨S850000x1, .i32⟩ : BufTy).Contents (Elt F) → (⟨S850000x256, .f32⟩ : BufTy).Contents (Elt F)),
    unary main_v30 main_v39 (broadcastInDim S850000x1 ![0] bcast_S850000_S850000x1_0 : (⟨S850000, .f32⟩ : BufTy).Contents (Elt F) → (⟨S850000x1, .f32⟩ : BufTy).Contents (Elt F)),
    unary main_v39 main_v40 (broadcastInDim S850000x256 ![0, 1] bcast_S850000x1_S850000x256_0_1 : (⟨S850000x1, .f32⟩ : BufTy).Contents (Elt F) → (⟨S850000x256, .f32⟩ : BufTy).Contents (Elt F)),
    binary main_v38 main_v40 main_v41 (mulf : (⟨S850000x256, .f32⟩ : BufTy).Contents (Elt F) → (⟨S850000x256, .f32⟩ : BufTy).Contents (Elt F) → (⟨S850000x256, .f32⟩ : BufTy).Contents (Elt F)),
    nullary main_cst_8 (constant S_ .f32 0x00000000#32),
    unary main_cst_8 main_v42 (broadcastInDim S50000x256 ![] bcast_S_S50000x256 : (⟨S_, .f32⟩ : BufTy).Contents (Elt F) → (⟨S50000x256, .f32⟩ : BufTy).Contents (Elt F)),
    unary main_v7 main_v43 (broadcastInDim S850000x1 ![0] bcast_S850000_S850000x1_0 : (⟨S850000, .i32⟩ : BufTy).Contents (Elt F) → (⟨S850000x1, .i32⟩ : BufTy).Contents (Elt F)),
    ternary main_v42 main_v43 main_v41 main_v44 ((fun x i u => Host.scatterAdd scatter_S50000x256_S850000x1_S850000x256_1_0_0_1 x i u) : (⟨S50000x256, .f32⟩ : BufTy).Contents (Elt F) → (⟨S850000x1, .i32⟩ : BufTy).Contents (Elt F) → (⟨S850000x256, .f32⟩ : BufTy).Contents (Elt F) → (⟨S50000x256, .f32⟩ : BufTy).Contents (Elt F)),
    unary main_arg3 main_v45 (broadcastInDim S1x256 ![1] bcast_S256_S1x256_1 : (⟨S256, .f32⟩ : BufTy).Contents (Elt F) → (⟨S1x256, .f32⟩ : BufTy).Contents (Elt F)),
    unary main_v45 main_v46 (broadcastInDim S50000x256 ![0, 1] bcast_S1x256_S50000x256_0_1 : (⟨S1x256, .f32⟩ : BufTy).Contents (Elt F) → (⟨S50000x256, .f32⟩ : BufTy).Contents (Elt F)),
    binary main_v44 main_v46 main_v47 (addf : (⟨S50000x256, .f32⟩ : BufTy).Contents (Elt F) → (⟨S50000x256, .f32⟩ : BufTy).Contents (Elt F) → (⟨S50000x256, .f32⟩ : BufTy).Contents (Elt F)),
    TRef.nullary (TRef.of (T := ⟨S_, .f32⟩) main_call1_cst) (constant S_ .f32 0x00000000#32),
    TRef.unary (TRef.of (T := ⟨S_, .f32⟩) main_call1_cst) (TRef.of (T := ⟨S50000x256, .f32⟩) main_call1_v0) (broadcastInDim S50000x256 ![] bcast_S_S50000x256),
    TRef.binary (TRef.of (T := ⟨S50000x256, .f32⟩) main_v47) (TRef.of (T := ⟨S50000x256, .f32⟩) main_call1_v0) (TRef.of (T := ⟨S50000x256, .f32⟩) main_v48) maximumf ]
/-- Layer 2. -/
abbrev seg2 : List (HloOp τ sig (Elt F)) :=
  [ binary main_v48 main_arg4 main_v49 ((fun l r => Host.dotGeneral dot_S50000x256_S256x256_S50000x256_1_0_0_1_n_n none l r) : (⟨S50000x256, .f32⟩ : BufTy).Contents (Elt F) → (⟨S256x256, .f32⟩ : BufTy).Contents (Elt F) → (⟨S50000x256, .f32⟩ : BufTy).Contents (Elt F)),
    nullary main_c_9 (constantI S_ 32 0#32),
    unary main_c_9 main_v50 (broadcastInDim S850000 ![] bcast_S_S850000 : (⟨S_, .i32⟩ : BufTy).Contents (Elt F) → (⟨S850000, .i32⟩ : BufTy).Contents (Elt F)),
    binary main_v3 main_v50 main_v51 (cmpi .slt : (⟨S850000, .i32⟩ : BufTy).Contents (Elt F) → (⟨S850000, .i32⟩ : BufTy).Contents (Elt F) → (⟨S850000, .i1⟩ : BufTy).Contents (Elt F)),
    nullary main_c_10 (constantI S_ 32 50000#32),
    unary main_c_10 main_v52 (broadcastInDim S850000 ![] bcast_S_S850000 : (⟨S_, .i32⟩ : BufTy).Contents (Elt F) → (⟨S850000, .i32⟩ : BufTy).Contents (Elt F)),
    binary main_v3 main_v52 main_v53 (addi : (⟨S850000, .i32⟩ : BufTy).Contents (Elt F) → (⟨S850000, .i32⟩ : BufTy).Contents (Elt F) → (⟨S850000, .i32⟩ : BufTy).Contents (Elt F)),
    ternary main_v51 main_v53 main_v3 main_v54 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    unary main_v54 main_v55 (broadcastInDim S850000x1 ![0] bcast_S850000_S850000x1_0 : (⟨S850000, .i32⟩ : BufTy).Contents (Elt F) → (⟨S850000x1, .i32⟩ : BufTy).Contents (Elt F)),
    binary main_v49 main_v55 main_v56 ((fun x i => Host.gather gather_S50000x256_S850000x1_S850000x256_1_0_n_n_0_1_1256 x i) : (⟨S50000x256, .f32⟩ : BufTy).Contents (Elt F) → (⟨S850000x1, .i32⟩ : BufTy).Contents (Elt F) → (⟨S850000x256, .f32⟩ : BufTy).Contents (Elt F)),
    unary main_v30 main_v57 (broadcastInDim S850000x1 ![0] bcast_S850000_S850000x1_0 : (⟨S850000, .f32⟩ : BufTy).Contents (Elt F) → (⟨S850000x1, .f32⟩ : BufTy).Contents (Elt F)),
    unary main_v57 main_v58 (broadcastInDim S850000x256 ![0, 1] bcast_S850000x1_S850000x256_0_1 : (⟨S850000x1, .f32⟩ : BufTy).Contents (Elt F) → (⟨S850000x256, .f32⟩ : BufTy).Contents (Elt F)),
    binary main_v56 main_v58 main_v59 (mulf : (⟨S850000x256, .f32⟩ : BufTy).Contents (Elt F) → (⟨S850000x256, .f32⟩ : BufTy).Contents (Elt F) → (⟨S850000x256, .f32⟩ : BufTy).Contents (Elt F)),
    nullary main_cst_11 (constant S_ .f32 0x00000000#32),
    unary main_cst_11 main_v60 (broadcastInDim S50000x256 ![] bcast_S_S50000x256 : (⟨S_, .f32⟩ : BufTy).Contents (Elt F) → (⟨S50000x256, .f32⟩ : BufTy).Contents (Elt F)),
    unary main_v7 main_v61 (broadcastInDim S850000x1 ![0] bcast_S850000_S850000x1_0 : (⟨S850000, .i32⟩ : BufTy).Contents (Elt F) → (⟨S850000x1, .i32⟩ : BufTy).Contents (Elt F)),
    ternary main_v60 main_v61 main_v59 main_v62 ((fun x i u => Host.scatterAdd scatter_S50000x256_S850000x1_S850000x256_1_0_0_1 x i u) : (⟨S50000x256, .f32⟩ : BufTy).Contents (Elt F) → (⟨S850000x1, .i32⟩ : BufTy).Contents (Elt F) → (⟨S850000x256, .f32⟩ : BufTy).Contents (Elt F) → (⟨S50000x256, .f32⟩ : BufTy).Contents (Elt F)),
    unary main_arg5 main_v63 (broadcastInDim S1x256 ![1] bcast_S256_S1x256_1 : (⟨S256, .f32⟩ : BufTy).Contents (Elt F) → (⟨S1x256, .f32⟩ : BufTy).Contents (Elt F)),
    unary main_v63 main_v64 (broadcastInDim S50000x256 ![0, 1] bcast_S1x256_S50000x256_0_1 : (⟨S1x256, .f32⟩ : BufTy).Contents (Elt F) → (⟨S50000x256, .f32⟩ : BufTy).Contents (Elt F)),
    binary main_v62 main_v64 main_v65 (addf : (⟨S50000x256, .f32⟩ : BufTy).Contents (Elt F) → (⟨S50000x256, .f32⟩ : BufTy).Contents (Elt F) → (⟨S50000x256, .f32⟩ : BufTy).Contents (Elt F)),
    TRef.nullary (TRef.of (T := ⟨S_, .f32⟩) main_call2_cst) (constant S_ .f32 0x00000000#32),
    TRef.unary (TRef.of (T := ⟨S_, .f32⟩) main_call2_cst) (TRef.of (T := ⟨S50000x256, .f32⟩) main_call2_v0) (broadcastInDim S50000x256 ![] bcast_S_S50000x256),
    TRef.binary (TRef.of (T := ⟨S50000x256, .f32⟩) main_v65) (TRef.of (T := ⟨S50000x256, .f32⟩) main_call2_v0) (TRef.of (T := ⟨S50000x256, .f32⟩) main_v66) maximumf ]
/-- Layer 3: the linear map, the aggregation, the bias. -/
abbrev seg3 : List (HloOp τ sig (Elt F)) :=
  [ binary main_v66 main_arg6 main_v67 ((fun l r => Host.dotGeneral dot_S50000x256_S256x7_S50000x7_1_0_0_1_n_n none l r) : (⟨S50000x256, .f32⟩ : BufTy).Contents (Elt F) → (⟨S256x7, .f32⟩ : BufTy).Contents (Elt F) → (⟨S50000x7, .f32⟩ : BufTy).Contents (Elt F)),
    nullary main_c_12 (constantI S_ 32 0#32),
    unary main_c_12 main_v68 (broadcastInDim S850000 ![] bcast_S_S850000 : (⟨S_, .i32⟩ : BufTy).Contents (Elt F) → (⟨S850000, .i32⟩ : BufTy).Contents (Elt F)),
    binary main_v3 main_v68 main_v69 (cmpi .slt : (⟨S850000, .i32⟩ : BufTy).Contents (Elt F) → (⟨S850000, .i32⟩ : BufTy).Contents (Elt F) → (⟨S850000, .i1⟩ : BufTy).Contents (Elt F)),
    nullary main_c_13 (constantI S_ 32 50000#32),
    unary main_c_13 main_v70 (broadcastInDim S850000 ![] bcast_S_S850000 : (⟨S_, .i32⟩ : BufTy).Contents (Elt F) → (⟨S850000, .i32⟩ : BufTy).Contents (Elt F)),
    binary main_v3 main_v70 main_v71 (addi : (⟨S850000, .i32⟩ : BufTy).Contents (Elt F) → (⟨S850000, .i32⟩ : BufTy).Contents (Elt F) → (⟨S850000, .i32⟩ : BufTy).Contents (Elt F)),
    ternary main_v69 main_v71 main_v3 main_v72 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    unary main_v72 main_v73 (broadcastInDim S850000x1 ![0] bcast_S850000_S850000x1_0 : (⟨S850000, .i32⟩ : BufTy).Contents (Elt F) → (⟨S850000x1, .i32⟩ : BufTy).Contents (Elt F)),
    binary main_v67 main_v73 main_v74 ((fun x i => Host.gather gather_S50000x7_S850000x1_S850000x7_1_0_n_n_0_1_17 x i) : (⟨S50000x7, .f32⟩ : BufTy).Contents (Elt F) → (⟨S850000x1, .i32⟩ : BufTy).Contents (Elt F) → (⟨S850000x7, .f32⟩ : BufTy).Contents (Elt F)),
    unary main_v30 main_v75 (broadcastInDim S850000x1 ![0] bcast_S850000_S850000x1_0 : (⟨S850000, .f32⟩ : BufTy).Contents (Elt F) → (⟨S850000x1, .f32⟩ : BufTy).Contents (Elt F)),
    unary main_v75 main_v76 (broadcastInDim S850000x7 ![0, 1] bcast_S850000x1_S850000x7_0_1 : (⟨S850000x1, .f32⟩ : BufTy).Contents (Elt F) → (⟨S850000x7, .f32⟩ : BufTy).Contents (Elt F)),
    binary main_v74 main_v76 main_v77 (mulf : (⟨S850000x7, .f32⟩ : BufTy).Contents (Elt F) → (⟨S850000x7, .f32⟩ : BufTy).Contents (Elt F) → (⟨S850000x7, .f32⟩ : BufTy).Contents (Elt F)),
    nullary main_cst_14 (constant S_ .f32 0x00000000#32),
    unary main_cst_14 main_v78 (broadcastInDim S50000x7 ![] bcast_S_S50000x7 : (⟨S_, .f32⟩ : BufTy).Contents (Elt F) → (⟨S50000x7, .f32⟩ : BufTy).Contents (Elt F)),
    unary main_v7 main_v79 (broadcastInDim S850000x1 ![0] bcast_S850000_S850000x1_0 : (⟨S850000, .i32⟩ : BufTy).Contents (Elt F) → (⟨S850000x1, .i32⟩ : BufTy).Contents (Elt F)),
    ternary main_v78 main_v79 main_v77 main_v80 ((fun x i u => Host.scatterAdd scatter_S50000x7_S850000x1_S850000x7_1_0_0_1 x i u) : (⟨S50000x7, .f32⟩ : BufTy).Contents (Elt F) → (⟨S850000x1, .i32⟩ : BufTy).Contents (Elt F) → (⟨S850000x7, .f32⟩ : BufTy).Contents (Elt F) → (⟨S50000x7, .f32⟩ : BufTy).Contents (Elt F)),
    unary main_arg7 main_v81 (broadcastInDim S1x7 ![1] bcast_S7_S1x7_1 : (⟨S7, .f32⟩ : BufTy).Contents (Elt F) → (⟨S1x7, .f32⟩ : BufTy).Contents (Elt F)),
    unary main_v81 main_v82 (broadcastInDim S50000x7 ![0, 1] bcast_S1x7_S50000x7_0_1 : (⟨S1x7, .f32⟩ : BufTy).Contents (Elt F) → (⟨S50000x7, .f32⟩ : BufTy).Contents (Elt F)),
    binary main_v80 main_v82 main_v83 (addf : (⟨S50000x7, .f32⟩ : BufTy).Contents (Elt F) → (⟨S50000x7, .f32⟩ : BufTy).Contents (Elt F) → (⟨S50000x7, .f32⟩ : BufTy).Contents (Elt F)) ]
/-- The log-softmax. -/
abbrev seg4 : List (HloOp τ sig (Elt F)) :=
  [ TRef.nullary (TRef.of (T := ⟨S_, .f32⟩) main_call3_cst) (constant S_ .f32 0xFF800000#32),
    TRef.binary (TRef.of (T := ⟨S50000x7, .f32⟩) main_v83) (TRef.of (T := ⟨S_, .f32⟩) main_call3_cst) (TRef.of (T := ⟨S50000, .f32⟩) main_call3_v0) (fun x v => Host.reduce FloatOps.maximumf x v reducesTo_S50000x7_S50000_d1 h_S_),
    TRef.nullary (TRef.of (T := ⟨S_, .f32⟩) main_call3_cst_0) (constant S_ .f32 0xFF800000#32),
    TRef.unary (TRef.of (T := ⟨S_, .f32⟩) main_call3_cst_0) (TRef.of (T := ⟨S50000, .f32⟩) main_call3_v1) (broadcastInDim S50000 ![] bcast_S_S50000),
    TRef.binary (TRef.of (T := ⟨S50000, .f32⟩) main_call3_v1) (TRef.of (T := ⟨S50000, .f32⟩) main_call3_v0) (TRef.of (T := ⟨S50000, .f32⟩) main_call3_v2) maximumf,
    TRef.unary (TRef.of (T := ⟨S50000, .f32⟩) main_call3_v2) (TRef.of (T := ⟨S50000x1, .f32⟩) main_call3_v3) (broadcastInDim S50000x1 ![0] bcast_S50000_S50000x1_0),
    TRef.unary (TRef.of (T := ⟨S50000x1, .f32⟩) main_call3_v3) (TRef.of (T := ⟨S50000x7, .f32⟩) main_call3_v4) (broadcastInDim S50000x7 ![0, 1] bcast_S50000x1_S50000x7_0_1),
    TRef.binary (TRef.of (T := ⟨S50000x7, .f32⟩) main_v83) (TRef.of (T := ⟨S50000x7, .f32⟩) main_call3_v4) (TRef.of (T := ⟨S50000x7, .f32⟩) main_call3_v5) subf,
    TRef.unary (TRef.of (T := ⟨S50000x7, .f32⟩) main_call3_v5) (TRef.of (T := ⟨S50000x7, .f32⟩) main_call3_v6) Host.exp,
    TRef.nullary (TRef.of (T := ⟨S_, .f32⟩) main_call3_cst_1) (constant S_ .f32 0x00000000#32),
    TRef.binary (TRef.of (T := ⟨S50000x7, .f32⟩) main_call3_v6) (TRef.of (T := ⟨S_, .f32⟩) main_call3_cst_1) (TRef.of (T := ⟨S50000, .f32⟩) main_call3_v7) (fun x v => Host.reduceAdd x v reducesTo_S50000x7_S50000_d1 h_S_),
    TRef.unary (TRef.of (T := ⟨S50000, .f32⟩) main_call3_v7) (TRef.of (T := ⟨S50000x1, .f32⟩) main_call3_v8) (broadcastInDim S50000x1 ![0] bcast_S50000_S50000x1_0),
    TRef.unary (TRef.of (T := ⟨S50000x1, .f32⟩) main_call3_v8) (TRef.of (T := ⟨S50000x1, .f32⟩) main_call3_v9) Host.log,
    TRef.unary (TRef.of (T := ⟨S50000x1, .f32⟩) main_call3_v9) (TRef.of (T := ⟨S50000x7, .f32⟩) main_call3_v10) (broadcastInDim S50000x7 ![0, 1] bcast_S50000x1_S50000x7_0_1),
    TRef.binary (TRef.of (T := ⟨S50000x7, .f32⟩) main_call3_v5) (TRef.of (T := ⟨S50000x7, .f32⟩) main_call3_v10) (TRef.of (T := ⟨S50000x7, .f32⟩) main_v84) subf ]

set_option maxRecDepth 8192 in
theorem ops_eq : (ops (F := F)) = seg0 ++ (seg1 ++ (seg2 ++ (seg3 ++ seg4))) := rfl

theorem after_append (l₁ l₂ : List (HloOp τ sig (Elt F))) (V : Valuation τ sig (Elt F)) :
    after (l₁ ++ l₂) V = after l₂ (after l₁ V) := by
  induction l₁ generalizing V with
  | nil => rfl
  | cons op l ih => simp only [List.cons_append, after_cons, ih]

/-! ### Stretch 0 -/

set_option maxRecDepth 8192 in
theorem s0_v3 (W : Valuation τ sig (Elt F)) : after (seg0 (F := F)) W (Proc.devRef .tc main_v3) = Cert.Spec.rowOf (W (Proc.devRef .tc main_arg1)) := by
  after_results_simp
  rfl
set_option maxRecDepth 8192 in
theorem s0_v7 (W : Valuation τ sig (Elt F)) : after (seg0 (F := F)) W (Proc.devRef .tc main_v7) = Cert.Spec.colOf (W (Proc.devRef .tc main_arg1)) := by
  after_results_simp
  rfl
set_option maxRecDepth 8192 in
set_option maxHeartbeats 4000000 in
theorem s0_v30 (W : Valuation τ sig (Elt F)) : after (seg0 (F := F)) W (Proc.devRef .tc main_v30)
    = Cert.Spec.normOf (Cert.Spec.rowOf (W (Proc.devRef .tc main_arg1))) (Cert.Spec.colOf (W (Proc.devRef .tc main_arg1))) := by
  after_results_simp
  rfl
theorem s0_arg0 (W : Valuation τ sig (Elt F)) : after (seg0 (F := F)) W (Proc.devRef .tc main_arg0) = W (Proc.devRef .tc main_arg0) := by
  after_results_simp
theorem s0_arg2 (W : Valuation τ sig (Elt F)) : after (seg0 (F := F)) W (Proc.devRef .tc main_arg2) = W (Proc.devRef .tc main_arg2) := by
  after_results_simp
theorem s0_arg3 (W : Valuation τ sig (Elt F)) : after (seg0 (F := F)) W (Proc.devRef .tc main_arg3) = W (Proc.devRef .tc main_arg3) := by
  after_results_simp
theorem s0_arg4 (W : Valuation τ sig (Elt F)) : after (seg0 (F := F)) W (Proc.devRef .tc main_arg4) = W (Proc.devRef .tc main_arg4) := by
  after_results_simp
theorem s0_arg5 (W : Valuation τ sig (Elt F)) : after (seg0 (F := F)) W (Proc.devRef .tc main_arg5) = W (Proc.devRef .tc main_arg5) := by
  after_results_simp
theorem s0_arg6 (W : Valuation τ sig (Elt F)) : after (seg0 (F := F)) W (Proc.devRef .tc main_arg6) = W (Proc.devRef .tc main_arg6) := by
  after_results_simp
theorem s0_arg7 (W : Valuation τ sig (Elt F)) : after (seg0 (F := F)) W (Proc.devRef .tc main_arg7) = W (Proc.devRef .tc main_arg7) := by
  after_results_simp

/-! ### Stretch 1 -/

set_option maxRecDepth 8192 in
theorem s1_v48 (W : Valuation τ sig (Elt F)) : after (seg1 (F := F)) W (Proc.devRef .tc main_v48)
    = Cert.Spec.biasRelu (Cert.Spec.agg256 (Cert.Spec.lin1 (W (Proc.devRef .tc main_arg0)) (W (Proc.devRef .tc main_arg2))) (W (Proc.devRef .tc main_v3)) (W (Proc.devRef .tc main_v7)) (W (Proc.devRef .tc main_v30))) (W (Proc.devRef .tc main_arg3)) := by
  after_results_simp
  rfl
theorem s1_v3 (W : Valuation τ sig (Elt F)) : after (seg1 (F := F)) W (Proc.devRef .tc main_v3) = W (Proc.devRef .tc main_v3) := by
  after_results_simp
theorem s1_v7 (W : Valuation τ sig (Elt F)) : after (seg1 (F := F)) W (Proc.devRef .tc main_v7) = W (Proc.devRef .tc main_v7) := by
  after_results_simp
theorem s1_v30 (W : Valuation τ sig (Elt F)) : after (seg1 (F := F)) W (Proc.devRef .tc main_v30) = W (Proc.devRef .tc main_v30) := by
  after_results_simp
theorem s1_arg4 (W : Valuation τ sig (Elt F)) : after (seg1 (F := F)) W (Proc.devRef .tc main_arg4) = W (Proc.devRef .tc main_arg4) := by
  after_results_simp
theorem s1_arg5 (W : Valuation τ sig (Elt F)) : after (seg1 (F := F)) W (Proc.devRef .tc main_arg5) = W (Proc.devRef .tc main_arg5) := by
  after_results_simp
theorem s1_arg6 (W : Valuation τ sig (Elt F)) : after (seg1 (F := F)) W (Proc.devRef .tc main_arg6) = W (Proc.devRef .tc main_arg6) := by
  after_results_simp
theorem s1_arg7 (W : Valuation τ sig (Elt F)) : after (seg1 (F := F)) W (Proc.devRef .tc main_arg7) = W (Proc.devRef .tc main_arg7) := by
  after_results_simp

/-! ### Stretch 2 -/

set_option maxRecDepth 8192 in
theorem s2_v66 (W : Valuation τ sig (Elt F)) : after (seg2 (F := F)) W (Proc.devRef .tc main_v66)
    = Cert.Spec.biasRelu (Cert.Spec.agg256 (Cert.Spec.lin2 (W (Proc.devRef .tc main_v48)) (W (Proc.devRef .tc main_arg4))) (W (Proc.devRef .tc main_v3)) (W (Proc.devRef .tc main_v7)) (W (Proc.devRef .tc main_v30))) (W (Proc.devRef .tc main_arg5)) := by
  after_results_simp
  rfl
theorem s2_v3 (W : Valuation τ sig (Elt F)) : after (seg2 (F := F)) W (Proc.devRef .tc main_v3) = W (Proc.devRef .tc main_v3) := by
  after_results_simp
theorem s2_v7 (W : Valuation τ sig (Elt F)) : after (seg2 (F := F)) W (Proc.devRef .tc main_v7) = W (Proc.devRef .tc main_v7) := by
  after_results_simp
theorem s2_v30 (W : Valuation τ sig (Elt F)) : after (seg2 (F := F)) W (Proc.devRef .tc main_v30) = W (Proc.devRef .tc main_v30) := by
  after_results_simp
theorem s2_arg6 (W : Valuation τ sig (Elt F)) : after (seg2 (F := F)) W (Proc.devRef .tc main_arg6) = W (Proc.devRef .tc main_arg6) := by
  after_results_simp
theorem s2_arg7 (W : Valuation τ sig (Elt F)) : after (seg2 (F := F)) W (Proc.devRef .tc main_arg7) = W (Proc.devRef .tc main_arg7) := by
  after_results_simp

/-! ### Stretch 3 -/

set_option maxRecDepth 8192 in
theorem s3_v83 (W : Valuation τ sig (Elt F)) : after (seg3 (F := F)) W (Proc.devRef .tc main_v83)
    = Cert.Spec.bias7 (Cert.Spec.agg7 (Cert.Spec.lin3 (W (Proc.devRef .tc main_v66)) (W (Proc.devRef .tc main_arg6))) (W (Proc.devRef .tc main_v3)) (W (Proc.devRef .tc main_v7)) (W (Proc.devRef .tc main_v30))) (W (Proc.devRef .tc main_arg7)) := by
  after_results_simp
  rfl

/-! ### Stretch 4 -/

set_option maxRecDepth 8192 in
theorem s4_v84 (W : Valuation τ sig (Elt F)) : after (seg4 (F := F)) W (Proc.devRef .tc main_v84) = Cert.Spec.logSoftmax (W (Proc.devRef .tc main_v83)) := by
  after_results_simp
  simp only [TRef.ofBuf_toBuf]
  rfl

/-! ## The line composed -/

set_option maxRecDepth 8192 in
set_option maxHeartbeats 4000000 in
/-- The result buffer after the line is the network of the launch contents of the arguments. -/
theorem result_eq (m : (ℓ : Loc nD τ sig) → Buf (Elt F) ℓ) (c : Dev nD) :
    after (ops (F := F)) (launchContents m c) (Proc.devRef .tc main_v84)
      = Cert.Spec.net (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) := by
  rw [ops_eq, after_append, after_append, after_append, after_append]
  rw [s4_v84, s3_v83]
  rw [s2_v66, s2_arg6, s2_v3, s2_v7, s2_v30, s2_arg7]
  rw [s1_v48, s1_arg4, s1_v3, s1_v7, s1_v30, s1_arg5, s1_arg6, s1_arg7]
  rw [s0_arg0, s0_arg2, s0_v3, s0_v7, s0_v30, s0_arg3, s0_arg4, s0_arg5, s0_arg6, s0_arg7]
  rfl

set_option maxRecDepth 8192 in
set_option maxHeartbeats 8000000 in
/-- No operation writes argument 0. -/
theorem kept_arg0 (m : (ℓ : Loc nD τ sig) → Buf (Elt F) ℓ) (c : Dev nD) :
    after (ops (F := F)) (launchContents m c) (Proc.devRef .tc main_arg0) = m ((c.tc : Thread nD τ).loc main_arg0) := by
  after_results_simp <;> rfl

set_option maxRecDepth 8192 in
set_option maxHeartbeats 8000000 in
/-- No operation writes argument 1. -/
theorem kept_arg1 (m : (ℓ : Loc nD τ sig) → Buf (Elt F) ℓ) (c : Dev nD) :
    after (ops (F := F)) (launchContents m c) (Proc.devRef .tc main_arg1) = m ((c.tc : Thread nD τ).loc main_arg1) := by
  after_results_simp <;> rfl

set_option maxRecDepth 8192 in
set_option maxHeartbeats 8000000 in
/-- No operation writes argument 2. -/
theorem kept_arg2 (m : (ℓ : Loc nD τ sig) → Buf (Elt F) ℓ) (c : Dev nD) :
    after (ops (F := F)) (launchContents m c) (Proc.devRef .tc main_arg2) = m ((c.tc : Thread nD τ).loc main_arg2) := by
  after_results_simp <;> rfl

set_option maxRecDepth 8192 in
set_option maxHeartbeats 8000000 in
/-- No operation writes argument 3. -/
theorem kept_arg3 (m : (ℓ : Loc nD τ sig) → Buf (Elt F) ℓ) (c : Dev nD) :
    after (ops (F := F)) (launchContents m c) (Proc.devRef .tc main_arg3) = m ((c.tc : Thread nD τ).loc main_arg3) := by
  after_results_simp <;> rfl

set_option maxRecDepth 8192 in
set_option maxHeartbeats 8000000 in
/-- No operation writes argument 4. -/
theorem kept_arg4 (m : (ℓ : Loc nD τ sig) → Buf (Elt F) ℓ) (c : Dev nD) :
    after (ops (F := F)) (launchContents m c) (Proc.devRef .tc main_arg4) = m ((c.tc : Thread nD τ).loc main_arg4) := by
  after_results_simp <;> rfl

set_option maxRecDepth 8192 in
set_option maxHeartbeats 8000000 in
/-- No operation writes argument 5. -/
theorem kept_arg5 (m : (ℓ : Loc nD τ sig) → Buf (Elt F) ℓ) (c : Dev nD) :
    after (ops (F := F)) (launchContents m c) (Proc.devRef .tc main_arg5) = m ((c.tc : Thread nD τ).loc main_arg5) := by
  after_results_simp <;> rfl

set_option maxRecDepth 8192 in
set_option maxHeartbeats 8000000 in
/-- No operation writes argument 6. -/
theorem kept_arg6 (m : (ℓ : Loc nD τ sig) → Buf (Elt F) ℓ) (c : Dev nD) :
    after (ops (F := F)) (launchContents m c) (Proc.devRef .tc main_arg6) = m ((c.tc : Thread nD τ).loc main_arg6) := by
  after_results_simp <;> rfl

set_option maxRecDepth 8192 in
set_option maxHeartbeats 8000000 in
/-- No operation writes argument 7. -/
theorem kept_arg7 (m : (ℓ : Loc nD τ sig) → Buf (Elt F) ℓ) (c : Dev nD) :
    after (ops (F := F)) (launchContents m c) (Proc.devRef .tc main_arg7) = m ((c.tc : Thread nD τ).loc main_arg7) := by
  after_results_simp <;> rfl

/-- On every device, from any memory with zero counters: every weakly fair execution of @main terminates with the result
    buffer at the network of the argument arrays and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v84) = Cert.Spec.net (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) :=
  (θ_run defs _ _).mono (fun _ h c => ⟨(h c main_v84).trans (result_eq m c),
      (h c main_arg0).trans (kept_arg0 m c),
      (h c main_arg1).trans (kept_arg1 m c),
      (h c main_arg2).trans (kept_arg2 m c),
      (h c main_arg3).trans (kept_arg3 m c),
      (h c main_arg4).trans (kept_arg4 m c),
      (h c main_arg5).trans (kept_arg5 m c),
      (h c main_arg6).trans (kept_arg6 m c),
      (h c main_arg7).trans (kept_arg7 m c)⟩)
    (run_seq scopedRefs_eq scopedSems_eq defs main (fun _ => ops) main_eq (fun _ => ops_sub) m ρ)

end Cert.ReferenceIdeal.RefRun

end
-- ==== Proof.lean ====
/-
  A three-layer graph convolution on 50000 nodes and 850000 edges (the listed ones and a loop per node), ending in a
  row-wise log-softmax, computed two ways.  Each layer is a linear map `h ↦ h · W`, the aggregation
  `agg h = Σ_{k : col k = v} h (row k) · norm k` with the symmetric weights `norm k = dinv (row k) · dinv (col k)`, and a
  bias (followed, in the first two layers, by a clamp at zero).  The reference does everything with host operations; the
  kernel program does the three linear maps and the three bias epilogues in pipelined regions tiled over blocks of rows,
  and the weights, the gathers, the scatter-adds and the log-softmax with the same host operations as the reference.

  On the extended reals a change of float format is the identity, so a region's product into a zero accumulator is,
  entry by entry, the plain sum `Σ_k X (r, k) · W (k, q)` that the host's product is; and a region's
  `max (A (r, q) + B (0, q)) 0` over a bias reshaped to one row is the host's `maximum (A + broadcast b) 0`.  The blocks
  tile the result arrays, so each region leaves the whole-array function of what it found (modules `Reg0 … Reg5`);
  composed with the host stretches between them (`KChain`), the kernel program's result is `Spec.net` of the argument
  arrays, which is also what the reference's straight line of operations leaves (`RefRun`).  No algebraic law is
  needed beyond that: the two sums have the same terms in the same order, and no step uses finiteness of the inputs.
-/
import proofs.«154728_j29686813950829_1_alg».proof.Defs
import proofs.«154728_j29686813950829_1_alg».proof.Proof.Gen.Kernel
import proofs.«154728_j29686813950829_1_alg».proof.Proof.Gen.Kernel.Skeleton
import proofs.«154728_j29686813950829_1_alg».proof.Proof.Gen.Kernel.Launch
import proofs.«154728_j29686813950829_1_alg».proof.Proof.Gen.Kernel.Points
import proofs.«154728_j29686813950829_1_alg».proof.Proof.Gen.Kernel.Frame
import proofs.«154728_j29686813950829_1_alg».proof.Proof.Gen.KernelIdeal
import proofs.«154728_j29686813950829_1_alg».proof.Proof.Gen.KernelIdeal.Skeleton
import proofs.«154728_j29686813950829_1_alg».proof.Proof.Gen.KernelIdeal.Launch
import proofs.«154728_j29686813950829_1_alg».proof.Proof.Gen.KernelIdeal.Points
import proofs.«154728_j29686813950829_1_alg».proof.Proof.Gen.KernelIdeal.Frame
import proofs.«154728_j29686813950829_1_alg».proof.Proof.Gen.ReferenceIdeal
import proofs.«154728_j29686813950829_1_alg».proof.Proof.Gen.Pre_finite_inputs
import proofs.«154728_j29686813950829_1_alg».proof.Proof.KRun
import proofs.«154728_j29686813950829_1_alg».proof.Proof.KChain
import proofs.«154728_j29686813950829_1_alg».proof.Proof.RefRun
import Idealize.ShloMosaic.Adequacy
import Idealize.ShloMosaic.Init

set_option maxRecDepth 16384

noncomputable section

namespace Cert.Proof

open Idealize.ShloMosaic Idealize.ShloMosaic.TcCoe Idealize.SL.Sem

/-- The word-level kernel program runs, and its arguments end as launched. -/
theorem frame_k : Cert.frame_Kernel := fun m ρ _ => Cert.Kernel.Gen.frame m ρ

/-- The idealized kernel program runs, and its arguments end as launched. -/
theorem frame_ki : Cert.frame_KernelIdeal := fun m ρ _ => Cert.KernelIdeal.Gen.frame m ρ

/-- The reference runs, and its arguments end as launched: its run with the result dropped. -/
theorem frame_ri : Cert.frame_ReferenceIdeal := fun m ρ _ =>
  (θ_run Cert.ReferenceIdeal.defs _ _).mono (fun _ h c => (h c).2) (Cert.ReferenceIdeal.RefRun.run (F := Ideal) m ρ)

/-- The idealization rewrote nothing. -/
theorem preserves : Cert.preserves_Kernel_KernelIdeal := trivial

/-- Both programs end with the result buffer at the network `Spec.net` of the argument arrays: the kernel program by
    its chain of stretches and regions, the reference by its line of operations; the arguments agree. -/
theorem algebraic : Cert.algebraic_KernelIdeal_ReferenceIdeal := by
  intro m ρ m' ρ' _ hagree
  refine ⟨fun c => Cert.Spec.net (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)), ?_, ?_⟩
  · exact (θ_run Cert.KernelIdeal.defs _ _).mono (fun r h c =>
      ⟨(h c _ (Cert.KernelIdeal.Gen.mem_uc Cert.KernelIdeal.main_v79 (by decide))).trans (Cert.KernelIdeal.KChain.result_eq m ρ c),
       (h c _ (Cert.KernelIdeal.Gen.mem_uc Cert.KernelIdeal.main_arg0 (by decide))).trans (Cert.KernelIdeal.Gen.W13_main_arg0 m ρ c),
       (h c _ (Cert.KernelIdeal.Gen.mem_uc Cert.KernelIdeal.main_arg1 (by decide))).trans (Cert.KernelIdeal.Gen.W13_main_arg1 m ρ c),
       (h c _ (Cert.KernelIdeal.Gen.mem_uc Cert.KernelIdeal.main_arg2 (by decide))).trans (Cert.KernelIdeal.Gen.W13_main_arg2 m ρ c),
       (h c _ (Cert.KernelIdeal.Gen.mem_uc Cert.KernelIdeal.main_arg3 (by decide))).trans (Cert.KernelIdeal.Gen.W13_main_arg3 m ρ c),
       (h c _ (Cert.KernelIdeal.Gen.mem_uc Cert.KernelIdeal.main_arg4 (by decide))).trans (Cert.KernelIdeal.Gen.W13_main_arg4 m ρ c),
       (h c _ (Cert.KernelIdeal.Gen.mem_uc Cert.KernelIdeal.main_arg5 (by decide))).trans (Cert.KernelIdeal.Gen.W13_main_arg5 m ρ c),
       (h c _ (Cert.KernelIdeal.Gen.mem_uc Cert.KernelIdeal.main_arg6 (by decide))).trans (Cert.KernelIdeal.Gen.W13_main_arg6 m ρ c),
       (h c _ (Cert.KernelIdeal.Gen.mem_uc Cert.KernelIdeal.main_arg7 (by decide))).trans (Cert.KernelIdeal.Gen.W13_main_arg7 m ρ c)⟩)
      (Cert.KernelIdeal.KVal.run_all m ρ)
  · refine (θ_run Cert.ReferenceIdeal.defs _ _).mono (fun _ h c => ⟨(h c).1.trans ?_, (h c).2⟩)
      (Cert.ReferenceIdeal.RefRun.run (F := Ideal) m' ρ')
    obtain ⟨e0, e1, e2, e3, e4, e5, e6, e7⟩ := hagree c
    rw [e0, e1, e2, e3, e4, e5, e6, e7]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
